-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S16x64 : Shape := ⟨2, ![16, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S1600000 .f32) (main_arg4 : FVec F S16x64 .f32) (main_arg5 : FVec F S64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S16x64 : Shape := ⟨2, ![16, 64]⟩
abbrev S64 : Shape := ⟨1, ![64]⟩
abbrev S16x16 : Shape := ⟨2, ![16, 16]⟩
abbrev S64x64 : Shape := ⟨2, ![64, 64]⟩
abbrev S_ : Shape := ⟨0, ![]⟩
abbrev S64x1 : Shape := ⟨2, ![64, 1]⟩
abbrev S10000x64 : Shape := ⟨2, ![10000, 64]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 68
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S16x64, .f32⟩
  | .hbm, ⟨5, _⟩ => ⟨S64, .f32⟩
  | .hbm, ⟨6, _⟩ => ⟨S64, .f32⟩
  | .hbm, ⟨7, _⟩ => ⟨S64, .i32⟩
  | .hbm, ⟨8, _⟩ => ⟨S64, .i1⟩
  | .hbm, ⟨9, _⟩ => ⟨S64, .i32⟩
  | .hbm, ⟨10, _⟩ => ⟨S64, .i1⟩
  | .hbm, ⟨11, _⟩ => ⟨S16x16, .f32⟩
  | .hbm, ⟨12, _⟩ => ⟨S16x16, .f32⟩
  | .hbm, ⟨13, _⟩ => ⟨S16x16, .f32⟩
  | .hbm, ⟨14, _⟩ => ⟨S16x16, .f32⟩
  | .hbm, ⟨15, _⟩ => ⟨S16x16, .f32⟩
  | .hbm, ⟨16, _⟩ => ⟨S16x16, .f32⟩
  | .hbm, ⟨17, _⟩ => ⟨S16x16, .f32⟩
  | .hbm, ⟨18, _⟩ => ⟨S16x64, .f32⟩
  | .hbm, ⟨19, _⟩ => ⟨S16x16, .f32⟩
  | .hbm, ⟨20, _⟩ => ⟨S16x64, .f32⟩
  | .hbm, ⟨21, _⟩ => ⟨S16x16, .f32⟩
  | .hbm, ⟨22, _⟩ => ⟨S16x64, .f32⟩
  | .hbm, ⟨23, _⟩ => ⟨S16x16, .f32⟩
  | .hbm, ⟨24, _⟩ => ⟨S16x64, .f32⟩
  | .hbm, ⟨25, _⟩ => ⟨S64x64, .f32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S64x64, .f32⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S64, .i32⟩
  | .hbm, ⟨36, _⟩ => ⟨S64x1, .i32⟩
  | .hbm, ⟨37, _⟩ => ⟨S64x64, .f32⟩
  | .hbm, ⟨38, _⟩ => ⟨S100000x64, .f32⟩
  | .hbm, ⟨39, _⟩ => ⟨S1600000x1, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64, .f32⟩
  | .hbm, ⟨56, _⟩ => ⟨S1x64, .f32⟩
  | .hbm, ⟨57, _⟩ => ⟨S_, .f32⟩
  | .hbm, ⟨58, _⟩ => ⟨S1x64, .f32⟩
  | .hbm, ⟨59, _⟩ => ⟨S1x64, .f32⟩
  | .hbm, ⟨60, _⟩ => ⟨S_, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39_0 : Ref sig .tc := ⟨.hbm, 55, rfl⟩
abbrev main_v39_1 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S16x64_S16x16_0_0 : S16x64.Slices ![0, 0] S16x16
  slices_S16x64_S16x16_0_16 : S16x64.Slices ![0, 16] S16x16
  slices_S16x64_S16x16_0_32 : S16x64.Slices ![0, 32] S16x16
  slices_S16x64_S16x16_0_48 : S16x64.Slices ![0, 48] S16x16
  concatenates_S16x16_S16x16_S16x16_S16x16_S16x64_d1 : Shape.Concatenates [S16x16, S16x16, S16x16, S16x16] S16x64 1
  concatenates_S16x64_S16x64_S16x64_S16x64_S64x64_d0 : Shape.Concatenates [S16x64, S16x64, S16x64, S16x64] S64x64 0
  bcast_S_S64 : S_.BroadcastsInDim S64 (![] : Fin 0 → Fin S64.rank)
  bcast_S64_S64x1_0 : S64.BroadcastsInDim S64x1 (![0] : Fin 1 → Fin S64x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  reduces_S10000x64_S64 : S10000x64.Reduces [0] S64
  shapeCasts_S64_S1x64 : S64.ShapeCasts S1x64
  bcast_S_S1x64 : S_.BroadcastsInDim S1x64 (![] : Fin 0 → Fin S1x64.rank)
  broadcasts_S1x64_S10000x64 : S1x64.Broadcasts S10000x64
  gather_S64x64_S64x1_S64x64_1_0_n_n_0_1_164_wf : GatherDims.WF S64x64 S64x1 S64x64 [1] [0] [] [0] [] 1 ![1, 64]
  gather_S64x64_S64x1_S64x64_0_1_n_n_1_1_641_wf : GatherDims.WF S64x64 S64x1 S64x64 [0] [1] [] [1] [] 1 ![64, 1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def gather_S64x64_S64x1_S64x64_1_0_n_n_0_1_164 : GatherDims S64x64 S64x1 S64x64 where
  offsetDims := [1]
  collapsedSliceDims := [0]
  operandBatchingDims := []
  startIndicesBatchingDims := []
  startIndexMap := [0]
  indexVectorDim := 1
  sliceSizes := ![1, 64]
  wf := gather_S64x64_S64x1_S64x64_1_0_n_n_0_1_164_wf
def gather_S64x64_S64x1_S64x64_0_1_n_n_1_1_641 : GatherDims S64x64 S64x1 S64x64 where
  offsetDims := [0]
  collapsedSliceDims := [1]
  operandBatchingDims := []
  startIndicesBatchingDims := []
  startIndexMap := [1]
  indexVectorDim := 1
  sliceSizes := ![64, 1]
  wf := gather_S64x64_S64x1_S64x64_0_1_n_n_1_1_641_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S16x64 : Shape := ⟨2, ![16, 64]⟩
abbrev S64 : Shape := ⟨1, ![64]⟩
abbrev S16x16 : Shape := ⟨2, ![16, 16]⟩
abbrev S64x64 : Shape := ⟨2, ![64, 64]⟩
abbrev S_ : Shape := ⟨0, ![]⟩
abbrev S64x1 : Shape := ⟨2, ![64, 1]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S16x64, .f32⟩
  | .hbm, ⟨5, _⟩ => ⟨S64, .f32⟩
  | .hbm, ⟨6, _⟩ => ⟨S64, .f32⟩
  | .hbm, ⟨7, _⟩ => ⟨S64, .i32⟩
  | .hbm, ⟨8, _⟩ => ⟨S64, .i1⟩
  | .hbm, ⟨9, _⟩ => ⟨S64, .i32⟩
  | .hbm, ⟨10, _⟩ => ⟨S64, .i1⟩
  | .hbm, ⟨11, _⟩ => ⟨S16x16, .f32⟩
  | .hbm, ⟨12, _⟩ => ⟨S16x16, .f32⟩
  | .hbm, ⟨13, _⟩ => ⟨S16x16, .f32⟩
  | .hbm, ⟨14, _⟩ => ⟨S16x16, .f32⟩
  | .hbm, ⟨15, _⟩ => ⟨S16x16, .f32⟩
  | .hbm, ⟨16, _⟩ => ⟨S16x16, .f32⟩
  | .hbm, ⟨17, _⟩ => ⟨S16x16, .f32⟩
  | .hbm, ⟨18, _⟩ => ⟨S16x64, .f32⟩
  | .hbm, ⟨19, _⟩ => ⟨S16x16, .f32⟩
  | .hbm, ⟨20, _⟩ => ⟨S16x64, .f32⟩
  | .hbm, ⟨21, _⟩ => ⟨S16x16, .f32⟩
  | .hbm, ⟨22, _⟩ => ⟨S16x64, .f32⟩
  | .hbm, ⟨23, _⟩ => ⟨S16x16, .f32⟩
  | .hbm, ⟨24, _⟩ => ⟨S16x64, .f32⟩
  | .hbm, ⟨25, _⟩ => ⟨S64x64, .f32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S64x64, .f32⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S64, .i32⟩
  | .hbm, ⟨36, _⟩ => ⟨S64x1, .i32⟩
  | .hbm, ⟨37, _⟩ => ⟨S64x64, .f32⟩
  | .hbm, ⟨38, _⟩ => ⟨S100000x64, .f32⟩
  | .hbm, ⟨39, _⟩ => ⟨S1600000x1, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S_, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]

class Facts₀ : Prop where
  slices_S16x64_S16x16_0_0 : S16x64.Slices ![0, 0] S16x16
  slices_S16x64_S16x16_0_16 : S16x64.Slices ![0, 16] S16x16
  slices_S16x64_S16x16_0_32 : S16x64.Slices ![0, 32] S16x16
  slices_S16x64_S16x16_0_48 : S16x64.Slices ![0, 48] S16x16
  concatenates_S16x16_S16x16_S16x16_S16x16_S16x64_d1 : Shape.Concatenates [S16x16, S16x16, S16x16, S16x16] S16x64 1
  concatenates_S16x64_S16x64_S16x64_S16x64_S64x64_d0 : Shape.Concatenates [S16x64, S16x64, S16x64, S16x64] S64x64 0
  bcast_S_S64 : S_.BroadcastsInDim S64 (![] : Fin 0 → Fin S64.rank)
  bcast_S64_S64x1_0 : S64.BroadcastsInDim S64x1 (![0] : Fin 1 → Fin S64x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S64x64_S64x1_S64x64_1_0_n_n_0_1_164_wf : GatherDims.WF S64x64 S64x1 S64x64 [1] [0] [] [0] [] 1 ![1, 64]
  gather_S64x64_S64x1_S64x64_0_1_n_n_1_1_641_wf : GatherDims.WF S64x64 S64x1 S64x64 [0] [1] [] [1] [] 1 ![64, 1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S64x64_S64x1_S64x64_1_0_n_n_0_1_164 : GatherDims S64x64 S64x1 S64x64 where
  offsetDims := [1]
  collapsedSliceDims := [0]
  operandBatchingDims := []
  startIndicesBatchingDims := []
  startIndexMap := [0]
  indexVectorDim := 1
  sliceSizes := ![1, 64]
  wf := gather_S64x64_S64x1_S64x64_1_0_n_n_0_1_164_wf
def gather_S64x64_S64x1_S64x64_0_1_n_n_1_1_641 : GatherDims S64x64 S64x1 S64x64 where
  offsetDims := [0]
  collapsedSliceDims := [1]
  operandBatchingDims := []
  startIndicesBatchingDims := []
  startIndexMap := [1]
  indexVectorDim := 1
  sliceSizes := ![64, 1]
  wf := gather_S64x64_S64x1_S64x64_0_1_n_n_1_1_641_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.K.Matmul.lean ====
import proofs.«169916_j88905823027435_1_alg».proof.Proof.Gen.Kernel.Launch
import proofs.«169916_j88905823027435_1_alg».proof.Proof.Gen.Kernel.Skeleton
import proofs.«169916_j88905823027435_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- what the TensorCore's buffers hold when the region is entered: every statement below is at this parameter
variable (V : (c : Dev nD) → (b : Ref sig .tc) → Buf (Elt F) ((c : Thread nD τ).loc b))

/-! # The matrix-product region: the first pipeline of the program

Three windows over a grid of ten points: window 0 is a block of 10000 rows of the left factor, a new one at every
point; window 1 is the whole 64×64 right factor, brought in at the first point and kept; window 2 is the block of
10000 rows of the product, written back at every point. -/

/-- Window `w`'s block at point `t`, read off the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its block of rows at every point, for any proof data over the entry
    arrays whose body leaves that block where it was. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The right factor's staging buffer holds the whole matrix at every point: brought in at the first, and at a later
    point the block index has not moved, so what the body left is still the block. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body reads and writes: each buffer whole -/

abbrev allRows : Rect S10000x64 := Rect.unit (s := S10000x64) ![0, 0] S10000x64.size inb_S10000x64_S10000x64_0_0
abbrev allMat : Rect S64x64 := Rect.unit (s := S64x64) ![0, 0] S64x64.size inb_S64x64_S64x64_0_0

/-- The product window's buffer after the body, from the two factors' buffers: one store of the whole block, its
    payload the product of the two loaded values. -/
def prod0 (x0 : Vec F S10000x64 .f32) (x1 : Vec F S64x64 .f32) : Vec F S10000x64 .f32 :=
  View.canon [⟨allRows, k0_pay1 (View.ld x0 allRows) (View.ld x1 allMat)⟩]

/-- One store of the whole block covers the block. -/
theorem prod0_cover (p0 : Vec F S10000x64 .f32) (y : S10000x64.Idx) :
    ∃ pc ∈ ([⟨allRows, p0⟩] : List (View.Piece (Elt F) S10000x64 .f32)), y ∈ pc.1.set :=
  View.cover_of_tiled [⟨allRows, p0⟩] S10000x64.size (by rfl) y

/-! ## The body's triple -/

set_option maxHeartbeats 1000000 in
/-- The body on whole staging memrefs — the two factors' at contents `x0`, `x1`, the product's at anything (the body
    loads it once and does not use what it loaded) — runs to the continuation with the factors' as they were and the
    product's at `prod0 x0 x1`. -/
theorem run0 (c : Dev nD) (E : Set ℕ) (i : grid0.Coords)
    (a0 : Memref sig .tc .vmem S10000x64 .f32) (ha0 : a0.IsWhole) (a1 : Memref sig .tc .vmem S64x64 .f32) (ha1 : a1.IsWhole)
    (a2 : Memref sig .tc .vmem S10000x64 .f32) (ha2 : a2.IsWhole)
    (x0 : Vec F S10000x64 .f32) (x1 : Vec F S64x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (prod0 x0 x1)) -∗ K ⟨⟩))
      ⊢ wp frame (wpE (defs₀ (F := F)) Variants.none c none) E (cc0__matmul_kernel i a0 ha0 a1 ha1 a2 ha2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_cover _)

/-! ## The pipeline's proof data -/

/-- The proof data on core `c`: the arrays as the region finds them; after the body at point `t` each factor's
    buffer still at its block and the product's at `prod0` of the two blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

/-- The proof data's arrays are the entry contents. -/
theorem dat0_A (c : Dev nD) (w : Fin cfg0.W) : (dat0 V c).A w = V c (Pipeline.arrRef spec0 w) := by
  dsimp only [dat0]

/-- What the body leaves, window by window. -/
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = prod0 (blk0 V c 0 t) (blk0 V c 1 t) := by
  dsimp only [dat0]

/-- Each factor's current staging buffer holds its block at every point. -/
theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d

/-! ## The body obligation, at a generic point -/

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' memrefs hold their blocks, so `run0` applies; the invariant and what the
    core owes pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (run0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body0 (c : Dev nD) : BodyObligation (dat0 (F := F) V c) (defs₀ (F := F)) Variants.none () Set.univ := fun t => by
  rw [bigSep_W0, bigSep_W0]
  exact body0_at V c t

end Region

end Cert.Kernel.Hand

end
-- ==== Proof.K.StatsRuns.lean ====
/- The statistics region (the column sums and the column sums of squares, accumulated over the ten grid
   points in two 1×64 output windows): what its two cases share — the windows' blocks read off the arrays the
   region finds, the input window's staging buffer at every point, the condition of the body's conditional in
   closed form, and the staging memrefs the body is called with. -/
import proofs.«169916_j88905823027435_1_alg».proof.Proof.Gen.Kernel.Launch
import proofs.«169916_j88905823027435_1_alg».proof.Proof.Gen.Kernel.Skeleton
import proofs.«169916_j88905823027435_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section StatsShared
-- the TensorCore's buffer contents when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    the region-entry contents and whose body leaves the block in place: the window is fetched at every point,
    uncut and never idle. -/
theorem statsIn_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

end StatsShared

/-- The condition of the body's conditional, from the grid coordinates: the point is the first. -/
abbrev statsCond (i : grid1.Coords) : Prop := (Scalar.cmpi .ne (Scalar.extui (Scalar.cmpi .eq (BitVec.ofNat 32 (i 0).val) 0#32)) 0#32) = 1#1
/-- It holds at the first point only — decided over the grid. -/
theorem statsCond_iff : ∀ t : Fin cfg1.N, statsCond (grid1.coords t) ↔ t.val % 10 = 0 :=
  (by decide +kernel : ∀ t : Fin grid1.N, statsCond (grid1.coords t) ↔ t.val % 10 = 0)

/-- One staging buffer of each output window, through which its contents are stated (the choice does not matter). -/
abbrev statsView1 : View sig .tc .vmem S1x64 .f32 := (Memref.whole cc1_stg1_0 : Memref sig .tc .vmem S1x64 .f32).view
abbrev statsView2 : View sig .tc .vmem S1x64 .f32 := (Memref.whole cc1_stg2_0 : Memref sig .tc .vmem S1x64 .f32).view

/-- Each window's current staging memref at point `t`, spelled as the pipeline passes it, and its wholeness. -/
abbrev statsM0 (t : Fin cfg1.N) : Memref sig .tc .vmem S10000x64 .f32 := win1_0.stage (cfg1.slots t 0)
abbrev statsW0 (t : Fin cfg1.N) : (statsM0 t).IsWhole := hstage1_0 ((cfg1.slots t 0).cast nbuf1_0)
abbrev statsM1 (t : Fin cfg1.N) : Memref sig .tc .vmem S1x64 .f32 := win1_1.stage (cfg1.slots t 1)
abbrev statsW1 (t : Fin cfg1.N) : (statsM1 t).IsWhole := hstage1_1 ((cfg1.slots t 1).cast nbuf1_1)
abbrev statsM2 (t : Fin cfg1.N) : Memref sig .tc .vmem S1x64 .f32 := win1_2.stage (cfg1.slots t 2)
abbrev statsW2 (t : Fin cfg1.N) : (statsM2 t).IsWhole := hstage1_2 ((cfg1.slots t 2).cast nbuf1_2)

end Cert.Kernel.Hand

end
-- ==== Proof.K.StatsFirst.lean ====
/- The statistics region, the case of the first grid point (the body's conditional taken): both outputs are
   zeroed, then each is loaded back and stored with its old contents plus the block's column sums (of the block,
   of its squares). The run of the body, with the pieces each output's staging buffer ends with as witnesses. -/
import proofs.«169916_j88905823027435_1_alg».proof.Proof.K.StatsRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the two outputs' staging memrefs, as pieces (last first), at a point where the
    condition holds, WITH the proof that on whole staging memrefs — the input's at its contents `x0`, the outputs'
    at anything — the body runs to the continuation holding the input's as it was and each output's buffer with
    its pieces written. -/
noncomputable def statsRunFirst (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : statsCond i) (x0 : Vec F S10000x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__stats_kernel i arg1 harg1 arg2 harg2 arg3 harg3) K } := by
  refine ⟨?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

end Cert.Kernel.Hand

end
-- ==== Proof.K.StatsLater.lean ====
/- The statistics region, the case of a later grid point (the body's conditional not taken): each output is
   loaded back at what the point before left and stored with that plus the block's column sums (of the block, of
   its squares). The run of the body, with the pieces each output's staging buffer ends with as witnesses. -/
import proofs.«169916_j88905823027435_1_alg».proof.Proof.K.StatsFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the two outputs' staging memrefs, as pieces (last first), at a point where the
    condition fails, WITH the proof that on whole staging memrefs — the input's at its contents `x0`, the outputs'
    at their running contents `xo1`, `xo2` — the body runs to the continuation holding the input's as it was and
    each output's buffer with its pieces written. -/
noncomputable def statsRunLater (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : ¬statsCond i) (x0 : Vec F S10000x64 .f32) (xo1 : Vec F S1x64 .f32) (xo2 : Vec F S1x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__stats_kernel i arg1 harg1 arg2 harg2 arg3 harg3) K } := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

end Cert.Kernel.Hand

end
-- ==== Proof.K.Stats.lean ====
/- The statistics region's half of the frame: what the two outputs' staging buffers hold after the body at each
   grid point (the accumulation, by recursion over the points), the pipeline's proof data at the contents the
   region finds, and the body obligation — at the first point the zeroing case, at every later point the case that
   adds to what the point before left (the outputs are written back at the last point only). -/
import proofs.«169916_j88905823027435_1_alg».proof.Proof.K.StatsLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the outputs' staging buffers -/

/-- The first case's pieces for output 1 tile its block, so they cover it. -/
theorem statsCoverFirst1 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : statsCond i) (x0 : Vec F S10000x64 .f32) (y : S1x64.Idx) :
    ∃ pc ∈ (statsRunFirst c i arg1 harg1 arg2 harg2 arg3 harg3 hc0 x0).1, y ∈ pc.1.set :=
  View.cover_of_tiledL (statsRunFirst c i arg1 harg1 arg2 harg2 arg3 harg3 hc0 x0).1 S1x64.size (by sl_kernel_rfl) y

/-- The first case's pieces for output 2 tile its block, so they cover it. -/
theorem statsCoverFirst2 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : statsCond i) (x0 : Vec F S10000x64 .f32) (y : S1x64.Idx) :
    ∃ pc ∈ (statsRunFirst c i arg1 harg1 arg2 harg2 arg3 harg3 hc0 x0).2.1, y ∈ pc.1.set :=
  View.cover_of_tiledL (statsRunFirst c i arg1 harg1 arg2 harg2 arg3 harg3 hc0 x0).2.1 S1x64.size (by sl_kernel_rfl) y

/-- What the first case leaves in output 1's staging buffer: its pieces read back over junk. -/
def statsOutFirst1 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : statsCond i) (x0 : Vec F S10000x64 .f32) : Vec F S1x64 .f32 :=
  statsView1.read (Elt F) (statsView1.writes (Elt F) statsView1.junk (statsRunFirst c i arg1 harg1 arg2 harg2 arg3 harg3 hc0 x0).1)

/-- What the first case leaves in output 2's staging buffer. -/
def statsOutFirst2 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : statsCond i) (x0 : Vec F S10000x64 .f32) : Vec F S1x64 .f32 :=
  statsView2.read (Elt F) (statsView2.writes (Elt F) statsView2.junk (statsRunFirst c i arg1 harg1 arg2 harg2 arg3 harg3 hc0 x0).2.1)

/-- A later case's pieces for output 1 tile its block, so they cover it. -/
theorem statsCoverLater1 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : ¬statsCond i) (x0 : Vec F S10000x64 .f32) (xo1 : Vec F S1x64 .f32) (xo2 : Vec F S1x64 .f32) (y : S1x64.Idx) :
    ∃ pc ∈ (statsRunLater c i arg1 harg1 arg2 harg2 arg3 harg3 hc0 x0 xo1 xo2).1, y ∈ pc.1.set :=
  View.cover_of_tiledL (statsRunLater c i arg1 harg1 arg2 harg2 arg3 harg3 hc0 x0 xo1 xo2).1 S1x64.size (by sl_kernel_rfl) y

/-- A later case's pieces for output 2 tile its block, so they cover it. -/
theorem statsCoverLater2 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : ¬statsCond i) (x0 : Vec F S10000x64 .f32) (xo1 : Vec F S1x64 .f32) (xo2 : Vec F S1x64 .f32) (y : S1x64.Idx) :
    ∃ pc ∈ (statsRunLater c i arg1 harg1 arg2 harg2 arg3 harg3 hc0 x0 xo1 xo2).2.1, y ∈ pc.1.set :=
  View.cover_of_tiledL (statsRunLater c i arg1 harg1 arg2 harg2 arg3 harg3 hc0 x0 xo1 xo2).2.1 S1x64.size (by sl_kernel_rfl) y

/-- What a later case leaves in output 1's staging buffer: its pieces read back over junk. -/
def statsOutLater1 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : ¬statsCond i) (x0 : Vec F S10000x64 .f32) (xo1 : Vec F S1x64 .f32) (xo2 : Vec F S1x64 .f32) : Vec F S1x64 .f32 :=
  statsView1.read (Elt F) (statsView1.writes (Elt F) statsView1.junk (statsRunLater c i arg1 harg1 arg2 harg2 arg3 harg3 hc0 x0 xo1 xo2).1)

/-- What a later case leaves in output 2's staging buffer. -/
def statsOutLater2 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : ¬statsCond i) (x0 : Vec F S10000x64 .f32) (xo1 : Vec F S1x64 .f32) (xo2 : Vec F S1x64 .f32) : Vec F S1x64 .f32 :=
  statsView2.read (Elt F) (statsView2.writes (Elt F) statsView2.junk (statsRunLater c i arg1 harg1 arg2 harg2 arg3 harg3 hc0 x0 xo1 xo2).2.1)

section StatsRegion
-- the TensorCore's buffer contents when the region is entered
variable (V : (c : Dev nD) → (b : Ref sig .tc) → Buf (Elt F) ((c : Thread nD τ).loc b))

/-! ## What the outputs hold after each point -/

/-- The first case at point `t`: run at the point's memrefs and input block. -/
def statsFirstAt (c : Dev nD) (t : Fin cfg1.N) (h0 : t.val % 10 = 0) : Vec F S1x64 .f32 × Vec F S1x64 .f32 :=
  (statsOutFirst1 c (grid1.coords t) (statsM0 t) (statsW0 t) (statsM1 t) (statsW1 t) (statsM2 t) (statsW2 t) ((statsCond_iff t).mpr h0) (blk1 V c 0 t),
   statsOutFirst2 c (grid1.coords t) (statsM0 t) (statsW0 t) (statsM1 t) (statsW1 t) (statsM2 t) (statsW2 t) ((statsCond_iff t).mpr h0) (blk1 V c 0 t))

/-- A later case at point `t`, the outputs at the running contents `xo`. -/
def statsLaterAt (c : Dev nD) (t : Fin cfg1.N) (h0 : ¬t.val % 10 = 0) (xo : Vec F S1x64 .f32 × Vec F S1x64 .f32) :
    Vec F S1x64 .f32 × Vec F S1x64 .f32 :=
  (statsOutLater1 c (grid1.coords t) (statsM0 t) (statsW0 t) (statsM1 t) (statsW1 t) (statsM2 t) (statsW2 t) (fun h => h0 ((statsCond_iff t).mp h)) (blk1 V c 0 t) xo.1 xo.2,
   statsOutLater2 c (grid1.coords t) (statsM0 t) (statsW0 t) (statsM1 t) (statsW1 t) (statsM2 t) (statsW2 t) (fun h => h0 ((statsCond_iff t).mp h)) (blk1 V c 0 t) xo.1 xo.2)

/-- THE ACCUMULATION. What the two outputs' staging buffers hold after the body at position `n`: at the first point
    the zeroing case; at a later point the adding case over what this leaves at `n - 1` (the buffers are not written
    back between). -/
def acc1 (c : Dev nD) : (n : ℕ) → n < cfg1.N → Vec F S1x64 .f32 × Vec F S1x64 .f32
  | 0, hn => statsFirstAt V c ⟨0, hn⟩ (Nat.zero_mod _)
  | n + 1, hn =>
    if h0 : (n + 1) % 10 = 0 then statsFirstAt V c ⟨n + 1, hn⟩ h0
    else statsLaterAt V c ⟨n + 1, hn⟩ h0 (acc1 c n (Nat.lt_of_succ_lt hn))

/-- `acc1` at a point of the first case. -/
theorem acc1_first (c : Dev nD) (t : Fin cfg1.N) (h0 : t.val % 10 = 0) :
    acc1 V c t.val t.isLt = statsFirstAt V c t h0 := by
  obtain ⟨n, hn⟩ := t
  cases n with
  | zero => exact rfl
  | succ n => exact (dif_pos h0).trans rfl

/-- `acc1` at a point of a later case: that case over what the point before left. -/
theorem acc1_later (c : Dev nD) (t : Fin cfg1.N) (h0 : ¬t.val % 10 = 0) :
    acc1 V c t.val t.isLt = statsLaterAt V c t h0 (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the statistics pipeline on core `c`: the arrays as the region finds them; after the body at
    point `t` the input's buffer at its block and the outputs' at the accumulation; the invariant the scoped rest
    and the generator register; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => (acc1 V c t.val t.isLt).1
    | ⟨2, _⟩ => (acc1 V c t.val t.isLt).2
  Φ _ := Pipeline.ΦA spec1 c
  q _ := fullShare
  owed _ := 0

/-- The proof data's arrays are the region-entry contents. -/
theorem dat1_A (c : Dev nD) (w : Fin cfg1.W) : (dat1 V c).A w = V c (Pipeline.arrRef spec1 w) := by
  dsimp only [dat1]

/-- What the body leaves, window by window. -/
theorem dat1_after0 (c : Dev nD) (t : Fin cfg1.N) : (dat1 V c).after 0 t = blk1 V c 0 t := by dsimp only [dat1]
theorem dat1_after1 (c : Dev nD) (t : Fin cfg1.N) : (dat1 V c).after 1 t = (acc1 V c t.val t.isLt).1 := by dsimp only [dat1]
theorem dat1_after2 (c : Dev nD) (t : Fin cfg1.N) : (dat1 V c).after 2 t = (acc1 V c t.val t.isLt).2 := by dsimp only [dat1]

/-- The input's current staging buffer holds its block at every point. -/
theorem statsIn (c : Dev nD) (t : Fin cfg1.N) (d) : (dat1 V c).before 0 t d = blk1 V c 0 t :=
  statsIn_of V (dat1 V c) (dat1_A V c 0) (dat1_after0 V c) t d

/-- At a later point output 1's current staging buffer holds what the body left at the point before: the point is
    not the first, the buffer was not written back between, the window is live and uncut. -/
theorem statsKept1 (c : Dev nD) (t : Fin cfg1.N) (h0 : ¬t.val % 10 = 0) (d) :
    (dat1 V c).before 1 t d = (acc1 V c (t.val - 1) (Nat.lt_of_le_of_lt (Nat.sub_le _ _) t.isLt)).1 := by
  have hN : t.val < 10 := lt_of_lt_of_eq t.isLt (show cfg1.N = 10 from N_1)
  rw [Dat.before_out_kept _ 1 rfl t (by omega) (Bool.eq_false_iff.mpr fun h => by have := (flush1_1 _).mp h; dsimp only at this; omega)
    (fun _ => rfl) (fun _ _ => rfl)]
  dsimp only [dat1]

/-- The same for output 2. -/
theorem statsKept2 (c : Dev nD) (t : Fin cfg1.N) (h0 : ¬t.val % 10 = 0) (d) :
    (dat1 V c).before 2 t d = (acc1 V c (t.val - 1) (Nat.lt_of_le_of_lt (Nat.sub_le _ _) t.isLt)).2 := by
  have hN : t.val < 10 := lt_of_lt_of_eq t.isLt (show cfg1.N = 10 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def statsPre (c : Dev nD) (t : Fin cfg1.N) : sProp 𝕄 :=
  iprop((dat1 V c).Φ t.castSucc ∗ (dat1 V c).owesAt () t.castSucc
    ∗ (∃ d, owns (c : Thread nD τ) (statsM0 t) fullShare ((dat1 V c).before 0 t d))
    ∗ (∃ d, owns (c : Thread nD τ) (statsM1 t) fullShare ((dat1 V c).before 1 t d))
    ∗ (∃ d, owns (c : Thread nD τ) (statsM2 t) fullShare ((dat1 V c).before 2 t d)))

/-- and what it returns. -/
def statsPost (c : Dev nD) (t : Fin cfg1.N) : sProp 𝕄 :=
  iprop((dat1 V c).Φ t.succ ∗ (dat1 V c).owesAt () t.succ
    ∗ owns (c : Thread nD τ) (statsM0 t) fullShare ((dat1 V c).after 0 t)
    ∗ owns (c : Thread nD τ) (statsM1 t) fullShare ((dat1 V c).after 1 t)
    ∗ owns (c : Thread nD τ) (statsM2 t) fullShare ((dat1 V c).after 2 t))

set_option maxHeartbeats 800000 in
/-- The body at any point: the input's memref holds its block; the closed form of the condition says which case the
    point is in; at a later point each output holds what the point before left; so the case's run applies; the
    invariant passes through unread; the core owes nothing throughout. -/
theorem statsBody (c : Dev nD) (t : Fin cfg1.N) :
    statsPre V c t ⊢ wp frame (wpE (defs₀ (F := F)) Variants.none c none) Set.univ (bodyAt1 t) (fun _ => statsPost V c t) := by
  unfold statsPre statsPost bodyAt1
  simp only [statsIn]
  rw [show (dat1 V c).Φ t.succ = (dat1 V c).Φ t.castSucc from rfl,
    show (dat1 V c).owesAt () t.succ = (dat1 V c).owesAt () t.castSucc from rfl,
    dat1_after0, dat1_after1, dat1_after2]
  by_cases h0 : t.val % 10 = 0
  · rw [acc1_first V c t h0]
    dsimp only [statsFirstAt]
    unfold statsOutFirst1 statsOutFirst2
    iintro ⟨HΦ, Ho, ⟨%d0, H0⟩, ⟨%d1, H1⟩, ⟨%d2, H2⟩⟩
    iapply ((statsRunFirst c (grid1.coords t) _ _ _ _ _ _ ((statsCond_iff t).mpr h0) (blk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (statsCoverFirst1 c _ _ _ _ _ _ _ _ _)
    · unfold owns; iexists _; isplitr
      swap; · iexact H2
      ipureintro; exact View.read_writes_of_cover _ _ _ _ _ (statsCoverFirst2 c _ _ _ _ _ _ _ _ _)
  · rw [acc1_later V c t h0]
    simp only [statsKept1 V c t h0, statsKept2 V c t h0]
    dsimp only [statsLaterAt]
    unfold statsOutLater1 statsOutLater2
    iintro ⟨HΦ, Ho, ⟨%d0, H0⟩, ⟨%d1, H1⟩, ⟨%d2, H2⟩⟩
    iapply ((statsRunLater c (grid1.coords t) _ _ _ _ _ _ (fun h => h0 ((statsCond_iff t).mp h)) (blk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (statsCoverLater1 c _ _ _ _ _ _ _ _ _ _ _)
    · unfold owns; iexists _; isplitr
      swap; · iexact H2
      ipureintro; exact View.read_writes_of_cover _ _ _ _ _ (statsCoverLater2 c _ _ _ _ _ _ _ _ _ _ _)

/-- The library's body obligation, at every point. -/
theorem body1 (c : Dev nD) : BodyObligation (dat1 (F := F) V c) (defs₀ (F := F)) Variants.none () Set.univ := fun t => by
  rw [bigSep_W1, bigSep_W1]
  exact statsBody V c t

end StatsRegion

end Cert.Kernel.Hand

end
-- ==== Proof.K.Norm.lean ====
import proofs.«169916_j88905823027435_1_alg».proof.Proof.Gen.Kernel.Launch
import proofs.«169916_j88905823027435_1_alg».proof.Proof.Gen.Kernel.Skeleton
import proofs.«169916_j88905823027435_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- what the TensorCore's buffers hold when the region is entered: every statement below is at this parameter
variable (V : (c : Dev nD) → (b : Ref sig .tc) → Buf (Elt F) ((c : Thread nD τ).loc b))

/-! # The normalising region: the third pipeline of the program

Six windows over a grid of ten points: window 0 is a block of 10000 rows of the array to normalise, a new one at every
point; windows 1 to 4 are four rows of 64 entries (mean, variance, scale, shift), each brought in at the first point
and kept; window 5 is the block of 10000 rows of the result, written back at every point. -/

/-- Window `w`'s block at point `t`, read off the array the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, for any proof data over the entry arrays whose
body leaves that block where it was: where the window is brought in, by the transfer; where it is not, the block index
has not moved since the point before, and what the body left there is still the block. -/

theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

theorem found2_4 {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes: each buffer whole -/

abbrev allRows2 : Rect S10000x64 := Rect.unit (s := S10000x64) ![0, 0] S10000x64.size inb_S10000x64_S10000x64_0_0
abbrev oneRow2 : Rect S1x64 := Rect.unit (s := S1x64) ![0, 0] S1x64.size inb_S1x64_S1x64_0_0

/-- The result window's buffer after the body, from the five input buffers: one store of the whole block, its payload
    the normalised and squashed value of the five loaded values. -/
def norm2 (x0 : Vec F S10000x64 .f32) (x1 x2 x3 x4 : Vec F S1x64 .f32) : Vec F S10000x64 .f32 :=
  View.canon [⟨allRows2, k2_pay1 (View.ld x0 allRows2) (View.ld x1 oneRow2) (View.ld x2 oneRow2) (View.ld x3 oneRow2) (View.ld x4 oneRow2)⟩]

/-- One store of the whole block covers the block. -/
theorem norm2_cover (p0 : Vec F S10000x64 .f32) (y : S10000x64.Idx) :
    ∃ pc ∈ ([⟨allRows2, p0⟩] : List (View.Piece (Elt F) S10000x64 .f32)), y ∈ pc.1.set :=
  View.cover_of_tiled [⟨allRows2, p0⟩] S10000x64.size (by rfl) y

/-! ## The body's triple -/

set_option maxHeartbeats 1000000 in
/-- The body on whole staging memrefs — the five inputs' at contents `x0` … `x4`, the result's at anything (the body
    loads it once and does not use what it loaded) — runs to the continuation with the inputs' as they were and the
    result's at `norm2 x0 x1 x2 x3 x4`. -/
theorem run2 (c : Dev nD) (E : Set ℕ) (i : grid2.Coords)
    (a0 : Memref sig .tc .vmem S10000x64 .f32) (ha0 : a0.IsWhole) (a1 : Memref sig .tc .vmem S1x64 .f32) (ha1 : a1.IsWhole)
    (a2 : Memref sig .tc .vmem S1x64 .f32) (ha2 : a2.IsWhole) (a3 : Memref sig .tc .vmem S1x64 .f32) (ha3 : a3.IsWhole)
    (a4 : Memref sig .tc .vmem S1x64 .f32) (ha4 : a4.IsWhole) (a5 : Memref sig .tc .vmem S10000x64 .f32) (ha5 : a5.IsWhole)
    (x0 : Vec F S10000x64 .f32) (x1 x2 x3 x4 : Vec F S1x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (norm2 x0 x1 x2 x3 x4)) -∗ K ⟨⟩))
      ⊢ wp frame (wpE (defs₀ (F := F)) Variants.none c none) E (cc2__bn_tanh_kernel i a0 ha0 a1 ha1 a2 ha2 a3 ha3 a4 ha4 a5 ha5) K := by
  simp only [cc2__bn_tanh_kernel_eq_skeleton]; unfold cc2__bn_tanh_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (norm2_cover _)

/-! ## The pipeline's proof data -/

/-- The proof data on core `c`: the arrays as the region finds them; after the body at point `t` each input's buffer
    still at its block and the result's at `norm2` of the five blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => norm2 (blk2 V c 0 t) (blk2 V c 1 t) (blk2 V c 2 t) (blk2 V c 3 t) (blk2 V c 4 t)
  Φ _ := Pipeline.ΦA spec2 c
  q _ := fullShare
  owed _ := 0

/-- The proof data's arrays are the entry contents. -/
theorem dat2_A (c : Dev nD) (w : Fin cfg2.W) : (dat2 V c).A w = V c (Pipeline.arrRef spec2 w) := by
  dsimp only [dat2]

/-- What the body leaves, window by window. -/
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) : (dat2 V c).after 4 t = blk2 V c 4 t := by dsimp only [dat2]
theorem dat2_after5 (c : Dev nD) (t : Fin cfg2.N) :
    (dat2 V c).after 5 t = norm2 (blk2 V c 0 t) (blk2 V c 1 t) (blk2 V c 2 t) (blk2 V c 3 t) (blk2 V c 4 t) := by
  dsimp only [dat2]

/-- Each input's current staging buffer holds its block at every point. -/
theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d
theorem dat2_before3 (c : Dev nD) (t : Fin cfg2.N) (d) : (dat2 V c).before 3 t d = blk2 V c 3 t :=
  found2_3 V (dat2 V c) (dat2_A V c 3) (dat2_after3 V c) t d
theorem dat2_before4 (c : Dev nD) (t : Fin cfg2.N) (d) : (dat2 V c).before 4 t d = blk2 V c 4 t :=
  found2_4 V (dat2 V c) (dat2_A V c 4) (dat2_after4 V c) t d

/-! ## The body obligation, at a generic point -/

/-- What the body is called with at point `t`, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `run2` applies; the invariant and what the core
    owes pass through unread. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3, dat2_before4]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4, dat2_after5]
  iintro ⟨HΦ, Ho, ⟨%d0, H0⟩, ⟨%d1, H1⟩, ⟨%d2, H2⟩, ⟨%d3, H3⟩, ⟨%d4, H4⟩, ⟨%d5, H5⟩⟩
  iapply (run2 c Set.univ _ _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body2 (c : Dev nD) : BodyObligation (dat2 (F := F) V c) (defs₀ (F := F)) Variants.none () Set.univ := fun t => by
  rw [bigSep_W2, bigSep_W2]
  exact body2_at V c t

end Region

end Cert.Kernel.Hand

end
-- ==== Proof.K.Whole.lean ====
/-
  The whole run of the program: three kernel regions among three stretches of host operations.

  The buffers' contents are followed from the launch memory through every boundary: a stretch of host
  operations leaves what running its operations leaves; a region leaves every array one of its windows
  stages at what its write-backs fold to, and every other buffer as it found it. Each region is entered
  with every unscoped buffer held at the boundary's contents beside the core's generator register and its
  (empty) debts, and left the same way at the next boundary. From the last boundary every unscoped buffer
  of the final memory is read back: the argument arrays hold their launch contents (no stretch and no
  region writes one), and the result array holds what the last region's write-backs fold to.
-/
import proofs.«169916_j88905823027435_1_alg».proof.Proof.K.Matmul
import proofs.«169916_j88905823027435_1_alg».proof.Proof.K.Stats
import proofs.«169916_j88905823027435_1_alg».proof.Proof.K.Norm
import proofs.«169916_j88905823027435_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev B0 : Dev nD → Valuation τ sig (Elt F) := fun c b => (s₀ m ρ).mem ((c : Dev nD), b)
/-- After the first stretch: what the matmul region is entered with. -/
abbrev B1 : Dev nD → Valuation τ sig (Elt F) := fun c => StableHlo.after hostOps0 (B0 m ρ c)
/-- The same, read at the TensorCore's references. -/
abbrev E1 : (c : Dev nD) → (b : Ref sig .tc) → Buf (Elt F) ((c : Thread nD τ).loc b) := fun c b => B1 m ρ c b
/-- After the matmul region: its arrays at what its write-backs fold to, the rest as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem left0 (c : Dev nD) (w : Fin cfg0.W) : (dat0 (E1 m ρ) c).arrAt w cfg0.N = E2 m ρ c (Pipeline.arrRef spec0 w) :=
  (B2_arr m ρ c w).symm
theorem kept0 (c : Dev nD) : ∀ b, b ∉ Finset.univ.image (Pipeline.arrRef spec0) → E2 m ρ c b = E1 m ρ c b :=
  fun b hb => B2_other m ρ c b fun w e => hb (Finset.mem_image.mpr ⟨w, Finset.mem_univ _, e⟩)

/-- After the second stretch: what the statistics region is entered with. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the statistics region. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem left1 (c : Dev nD) (w : Fin cfg1.W) : (dat1 (E3 m ρ) c).arrAt w cfg1.N = E4 m ρ c (Pipeline.arrRef spec1 w) :=
  (B4_arr m ρ c w).symm
theorem kept1 (c : Dev nD) : ∀ b, b ∉ Finset.univ.image (Pipeline.arrRef spec1) → E4 m ρ c b = E3 m ρ c b :=
  fun b hb => B4_other m ρ c b fun w e => hb (Finset.mem_image.mpr ⟨w, Finset.mem_univ _, e⟩)

/-- After the third stretch: what the normalising region is entered with. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- After the normalising region: the contents the program ends with. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_other (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem left2 (c : Dev nD) (w : Fin cfg2.W) : (dat2 (E5 m ρ) c).arrAt w cfg2.N = E6 m ρ c (Pipeline.arrRef spec2 w) :=
  (B6_arr m ρ c w).symm
theorem kept2 (c : Dev nD) : ∀ b, b ∉ Finset.univ.image (Pipeline.arrRef spec2) → E6 m ρ c b = E5 m ρ c b :=
  fun b hb => B6_other m ρ c b fun w e => hb (Finset.mem_image.mpr ⟨w, Finset.mem_univ _, e⟩)

/-! ## A buffer nothing writes keeps its launch contents -/

/-- A buffer that no stretch writes and no region stages reaches the end as launched. -/
theorem B6_untouched (c : Dev nD) (b : Ref sig .tc)
    (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    B6 m ρ c (Proc.devRef .tc b) = m ((c : Thread nD τ).loc b) :=
  calc B6 m ρ c (Proc.devRef .tc b)
    _ = B5 m ρ c (Proc.devRef .tc b) := B6_other m ρ c b a2
    _ = B4 m ρ c (Proc.devRef .tc b) := StableHlo.after_of_writes_sub hostOps2 _ hostOps2_writes h2
    _ = B3 m ρ c (Proc.devRef .tc b) := B4_other m ρ c b a1
    _ = B2 m ρ c (Proc.devRef .tc b) := StableHlo.after_of_writes_sub hostOps1 _ hostOps1_writes h1
    _ = B1 m ρ c (Proc.devRef .tc b) := B2_other m ρ c b a0
    _ = B0 m ρ c (Proc.devRef .tc b) := StableHlo.after_of_writes_sub hostOps0 _ hostOps0_writes h0
    _ = m ((c : Thread nD τ).loc b) := rfl

/-- The first argument is the matmul region's first window's array, an input: the region leaves it as entered. -/
theorem B6_main_arg0 (c : Dev nD) : B6 m ρ c (Proc.devRef .tc main_arg0) = m ((c : Thread nD τ).loc main_arg0) :=
  calc B6 m ρ c (Proc.devRef .tc main_arg0)
    _ = B5 m ρ c (Proc.devRef .tc main_arg0) := B6_other m ρ c main_arg0 (by decide)
    _ = B4 m ρ c (Proc.devRef .tc main_arg0) := StableHlo.after_of_writes_sub hostOps2 _ hostOps2_writes (by decide)
    _ = B3 m ρ c (Proc.devRef .tc main_arg0) := B4_other m ρ c main_arg0 (by decide)
    _ = B2 m ρ c (Proc.devRef .tc main_arg0) := StableHlo.after_of_writes_sub hostOps1 _ hostOps1_writes (by decide)
    _ = B1 m ρ c (Proc.devRef .tc main_arg0) := (B2_arr m ρ c 0).trans (((dat0 (E1 m ρ) c).arrAt_in 0 rfl _).trans (dat0_A (E1 m ρ) c 0))
    _ = B0 m ρ c (Proc.devRef .tc main_arg0) := StableHlo.after_of_writes_sub hostOps0 _ hostOps0_writes (by decide)
    _ = m ((c : Thread nD τ).loc main_arg0) := rfl
theorem B6_main_arg1 (c : Dev nD) : B6 m ρ c (Proc.devRef .tc main_arg1) = m ((c : Thread nD τ).loc main_arg1) :=
  B6_untouched m ρ c main_arg1 (by decide) (by decide) (by decide) (by decide) (by decide) (by decide)
theorem B6_main_arg2 (c : Dev nD) : B6 m ρ c (Proc.devRef .tc main_arg2) = m ((c : Thread nD τ).loc main_arg2) :=
  B6_untouched m ρ c main_arg2 (by decide) (by decide) (by decide) (by decide) (by decide) (by decide)
theorem B6_main_arg3 (c : Dev nD) : B6 m ρ c (Proc.devRef .tc main_arg3) = m ((c : Thread nD τ).loc main_arg3) :=
  B6_untouched m ρ c main_arg3 (by decide) (by decide) (by decide) (by decide) (by decide) (by decide)
theorem B6_main_arg4 (c : Dev nD) : B6 m ρ c (Proc.devRef .tc main_arg4) = m ((c : Thread nD τ).loc main_arg4) :=
  B6_untouched m ρ c main_arg4 (by decide) (by decide) (by decide) (by decide) (by decide) (by decide)
theorem B6_main_arg5 (c : Dev nD) : B6 m ρ c (Proc.devRef .tc main_arg5) = m ((c : Thread nD τ).loc main_arg5) :=
  B6_untouched m ρ c main_arg5 (by decide) (by decide) (by decide) (by decide) (by decide) (by decide)
theorem B6_main_arg6 (c : Dev nD) : B6 m ρ c (Proc.devRef .tc main_arg6) = m ((c : Thread nD τ).loc main_arg6) :=
  B6_untouched m ρ c main_arg6 (by decide) (by decide) (by decide) (by decide) (by decide) (by decide)

/-! ## The proof data of the three pipelines, and what rides beside the buffers -/

/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core waits for another: no level is assigned. -/
abbrev Lv : GSem nD τ sig → Finset Unit := fun _ => ∅
abbrev lv : GSem nD τ sig → Unit → ℕ := fun _ _ => 0
/-- Beside the buffers: the core's generator register at some state, and the core owing nothing. -/
abbrev Beside (c : Dev nD) : sProp 𝕄 := iprop((∃ r, prngReg c r) ∗ ∃ W, owes (c : Thread nD τ) (0 : CellTallies nD τ sig Unit) W)
/-- A stretch of host operations as a segment of the run, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside
/-- An unscoped TensorCore reference is among those held. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debts. -/
abbrev Last (c : Dev nD) : sProp 𝕄 := iprop(StableHlo.held (c : Thread nD τ) (Pipeline.ucRefs τ sig) (B6 m ρ c) ∗ ∃ r, prngReg c r)

/-! ## The regions as segments -/

set_option backward.isDefEq.respectTransparency.types false in
/-- The matmul region: entered with every unscoped buffer at `B1`, left at `B2`. Its windows' arrays are split out of
    the held buffers and put back at what the write-backs fold to; the generator register goes into the pipeline's
    invariant and comes back; nothing is owed. -/
def reg0 : Pipeline.RegionSeg (pcfgs (F := F)) adm (pdats m ρ) () defs₀ 𝒱₀ Lv lv 0 where
  win := launch0.win.to₀
  block_pos := launch0.block_pos
  stage_whole := launch0.stage_whole
  K := PEmpty
  osem k := k.elim
  ho := Pipeline.OwnSemFacts.none _
  hbody c := (body0 (E1 m ρ) c).loose
  hwaits := Pipeline.hwaits_of_owed_zero _ _ _ _ Lv lv 0 fun _ _ => rfl
  pre c := iprop(StableHlo.held (c : Thread nD τ) (Pipeline.ucRefs τ sig) (B1 m ρ c) ∗ Beside c)
  post c := iprop(StableHlo.held (c : Thread nD τ) (Pipeline.ucRefs τ sig) (B2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The statistics region: entered at `B3`, left at `B4`, in the same way. -/
def reg1 : Pipeline.RegionSeg (pcfgs (F := F)) adm (pdats m ρ) () defs₀ 𝒱₀ Lv lv 1 where
  win := launch1.win.to₀
  block_pos := launch1.block_pos
  stage_whole := launch1.stage_whole
  K := PEmpty
  osem k := k.elim
  ho := Pipeline.OwnSemFacts.none _
  hbody c := (body1 (E3 m ρ) c).loose
  hwaits := Pipeline.hwaits_of_owed_zero _ _ _ _ Lv lv 1 fun _ _ => rfl
  pre c := iprop(StableHlo.held (c : Thread nD τ) (Pipeline.ucRefs τ sig) (B3 m ρ c) ∗ Beside c)
  post c := iprop(StableHlo.held (c : Thread nD τ) (Pipeline.ucRefs τ sig) (B4 m ρ c) ∗ Beside c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region: entered at `B5`, left at the last thread state beside the core owing nothing. -/
def reg2 : Pipeline.RegionSeg (pcfgs (F := F)) adm (pdats m ρ) () defs₀ 𝒱₀ Lv lv 2 where
  win := launch2.win.to₀
  block_pos := launch2.block_pos
  stage_whole := launch2.stage_whole
  K := PEmpty
  osem k := k.elim
  ho := Pipeline.OwnSemFacts.none _
  hbody c := (body2 (E5 m ρ) c).loose
  hwaits := Pipeline.hwaits_of_owed_zero _ _ _ _ Lv lv 2 fun _ _ => rfl
  pre c := iprop(StableHlo.held (c : Thread nD τ) (Pipeline.ucRefs τ sig) (B5 m ρ c) ∗ Beside c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six segments, and the run -/

/-- The program's segments in order: a stretch of host operations, then a region, three times. -/
abbrev parts : List (Pipeline.Seg (pcfgs (F := F)) adm (pdats m ρ) () defs₀ 𝒱₀ Lv lv) :=
  [ .host (stretch hostOps0 hostOps0_sub hostOps0_fresh (B0 m ρ)),
    .region (reg0 m ρ),
    .host (stretch hostOps1 hostOps1_sub hostOps1_fresh (B2 m ρ)),
    .region (reg1 m ρ),
    .host (stretch hostOps2 hostOps2_sub hostOps2_fresh (B4 m ρ)),
    .region (reg2 m ρ) ]
/-- The program is the run of its segments. -/
theorem main_parts (c : Dev nD) : main (F := F) c = Pipeline.Seg.run (parts m ρ) := (main_chain c).trans (by chain_rfl)

set_option backward.isDefEq.respectTransparency.types false in
/-- THE RUN. From any memory with zero counters every weakly fair execution of the program terminates, nothing faulting,
    and in the final memory every unscoped TensorCore buffer holds the last boundary's contents `B6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m ρ c b) :=
  Pipeline.θ_run_regions_kit (pcfgs (F := F)) adm (pdats m ρ) () cellOf_inj emb₁ defs₀ 𝒱₀ Lv lv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c)) (Tₙ := Last m ρ)
    (hch := ⟨fun _ => .rfl, fun _ => .rfl, fun _ => .rfl, fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h c => h c)

/-- THE FRAME. Every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (held_ref main_arg0 (by decide))).trans (B6_main_arg0 m ρ c),
     (h c _ (held_ref main_arg1 (by decide))).trans (B6_main_arg1 m ρ c),
     (h c _ (held_ref main_arg2 (by decide))).trans (B6_main_arg2 m ρ c),
     (h c _ (held_ref main_arg3 (by decide))).trans (B6_main_arg3 m ρ c),
     (h c _ (held_ref main_arg4 (by decide))).trans (B6_main_arg4 m ρ c),
     (h c _ (held_ref main_arg5 (by decide))).trans (B6_main_arg5 m ρ c),
     (h c _ (held_ref main_arg6 (by decide))).trans (B6_main_arg6 m ρ c)⟩) (run_all m ρ)

/-- THE RUN WITH THE RESULT NAMED: the result array ends at what the normalising region's write-backs fold to, and the
    argument arrays end as launched. -/
theorem run_result : θ_run defs (onTc (τ := τ) (main (F := F))) ⟨m, fun _ => 0, ρ⟩ (fun r => ∀ c : Dev nD,
      r.2.mem ((c.tc : Thread nD τ).loc main_v48) = (dat2 (E5 m ρ) c).arrAt 5 cfg2.N
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun _ h c =>
    ⟨(h c _ (held_ref main_v48 (by decide))).trans (B6_arr m ρ c 5),
     (h c _ (held_ref main_arg0 (by decide))).trans (B6_main_arg0 m ρ c),
     (h c _ (held_ref main_arg1 (by decide))).trans (B6_main_arg1 m ρ c),
     (h c _ (held_ref main_arg2 (by decide))).trans (B6_main_arg2 m ρ c),
     (h c _ (held_ref main_arg3 (by decide))).trans (B6_main_arg3 m ρ c),
     (h c _ (held_ref main_arg4 (by decide))).trans (B6_main_arg4 m ρ c),
     (h c _ (held_ref main_arg5 (by decide))).trans (B6_main_arg5 m ρ c),
     (h c _ (held_ref main_arg6 (by decide))).trans (B6_main_arg6 m ρ c)⟩) (run_all m ρ)

end Cert.Kernel.Hand

end
-- ==== Proof.KI.Matmul.lean ====
import proofs.«169916_j88905823027435_1_alg».proof.Proof.Gen.KernelIdeal.Launch
import proofs.«169916_j88905823027435_1_alg».proof.Proof.Gen.KernelIdeal.Skeleton
import proofs.«169916_j88905823027435_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- what the TensorCore's buffers hold when the region is entered: every statement below is at this parameter
variable (V : (c : Dev nD) → (b : Ref sig .tc) → Buf (Elt F) ((c : Thread nD τ).loc b))

/-! # The matrix-product region: the first pipeline of the program

Three windows over a grid of ten points: window 0 is a block of 10000 rows of the left factor, a new one at every
point; window 1 is the whole 64×64 right factor, brought in at the first point and kept; window 2 is the block of
10000 rows of the product, written back at every point. -/

/-- Window `w`'s block at point `t`, read off the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its block of rows at every point, for any proof data over the entry
    arrays whose body leaves that block where it was. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The right factor's staging buffer holds the whole matrix at every point: brought in at the first, and at a later
    point the block index has not moved, so what the body left is still the block. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body reads and writes: each buffer whole -/

abbrev allRows : Rect S10000x64 := Rect.unit (s := S10000x64) ![0, 0] S10000x64.size inb_S10000x64_S10000x64_0_0
abbrev allMat : Rect S64x64 := Rect.unit (s := S64x64) ![0, 0] S64x64.size inb_S64x64_S64x64_0_0

/-- The product window's buffer after the body, from the two factors' buffers: one store of the whole block, its
    payload the product of the two loaded values. -/
def prod0 (x0 : Vec F S10000x64 .f32) (x1 : Vec F S64x64 .f32) : Vec F S10000x64 .f32 :=
  View.canon [⟨allRows, k0_pay1 (View.ld x0 allRows) (View.ld x1 allMat)⟩]

/-- One store of the whole block covers the block. -/
theorem prod0_cover (p0 : Vec F S10000x64 .f32) (y : S10000x64.Idx) :
    ∃ pc ∈ ([⟨allRows, p0⟩] : List (View.Piece (Elt F) S10000x64 .f32)), y ∈ pc.1.set :=
  View.cover_of_tiled [⟨allRows, p0⟩] S10000x64.size (by rfl) y

/-! ## The body's triple -/

set_option maxHeartbeats 1000000 in
/-- The body on whole staging memrefs — the two factors' at contents `x0`, `x1`, the product's at anything (the body
    loads it once and does not use what it loaded) — runs to the continuation with the factors' as they were and the
    product's at `prod0 x0 x1`. -/
theorem run0 (c : Dev nD) (E : Set ℕ) (i : grid0.Coords)
    (a0 : Memref sig .tc .vmem S10000x64 .f32) (ha0 : a0.IsWhole) (a1 : Memref sig .tc .vmem S64x64 .f32) (ha1 : a1.IsWhole)
    (a2 : Memref sig .tc .vmem S10000x64 .f32) (ha2 : a2.IsWhole)
    (x0 : Vec F S10000x64 .f32) (x1 : Vec F S64x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (prod0 x0 x1)) -∗ K ⟨⟩))
      ⊢ wp frame (wpE (defs₀ (F := F)) Variants.none c none) E (cc0__matmul_kernel i a0 ha0 a1 ha1 a2 ha2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod0_cover _)

/-! ## The pipeline's proof data -/

/-- The proof data on core `c`: the arrays as the region finds them; after the body at point `t` each factor's
    buffer still at its block and the product's at `prod0` of the two blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

/-- The proof data's arrays are the entry contents. -/
theorem dat0_A (c : Dev nD) (w : Fin cfg0.W) : (dat0 V c).A w = V c (Pipeline.arrRef spec0 w) := by
  dsimp only [dat0]

/-- What the body leaves, window by window. -/
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = prod0 (blk0 V c 0 t) (blk0 V c 1 t) := by
  dsimp only [dat0]

/-- Each factor's current staging buffer holds its block at every point. -/
theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d

/-! ## The body obligation, at a generic point -/

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' memrefs hold their blocks, so `run0` applies; the invariant and what the
    core owes pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (run0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body0 (c : Dev nD) : BodyObligation (dat0 (F := F) V c) (defs₀ (F := F)) Variants.none () Set.univ := fun t => by
  rw [bigSep_W0, bigSep_W0]
  exact body0_at V c t

end Region

end Cert.KernelIdeal.Hand

end
-- ==== Proof.KI.StatsRuns.lean ====
/- The statistics region (the column sums and the column sums of squares, accumulated over the ten grid
   points in two 1×64 output windows): what its two cases share — the windows' blocks read off the arrays the
   region finds, the input window's staging buffer at every point, the condition of the body's conditional in
   closed form, and the staging memrefs the body is called with. -/
import proofs.«169916_j88905823027435_1_alg».proof.Proof.Gen.KernelIdeal.Launch
import proofs.«169916_j88905823027435_1_alg».proof.Proof.Gen.KernelIdeal.Skeleton
import proofs.«169916_j88905823027435_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section StatsShared
-- the TensorCore's buffer contents when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    the region-entry contents and whose body leaves the block in place: the window is fetched at every point,
    uncut and never idle. -/
theorem statsIn_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

end StatsShared

/-- The condition of the body's conditional, from the grid coordinates: the point is the first. -/
abbrev statsCond (i : grid1.Coords) : Prop := (Scalar.cmpi .ne (Scalar.extui (Scalar.cmpi .eq (BitVec.ofNat 32 (i 0).val) 0#32)) 0#32) = 1#1
/-- It holds at the first point only — decided over the grid. -/
theorem statsCond_iff : ∀ t : Fin cfg1.N, statsCond (grid1.coords t) ↔ t.val % 10 = 0 :=
  (by decide +kernel : ∀ t : Fin grid1.N, statsCond (grid1.coords t) ↔ t.val % 10 = 0)

/-- One staging buffer of each output window, through which its contents are stated (the choice does not matter). -/
abbrev statsView1 : View sig .tc .vmem S1x64 .f32 := (Memref.whole cc1_stg1_0 : Memref sig .tc .vmem S1x64 .f32).view
abbrev statsView2 : View sig .tc .vmem S1x64 .f32 := (Memref.whole cc1_stg2_0 : Memref sig .tc .vmem S1x64 .f32).view

/-- Each window's current staging memref at point `t`, spelled as the pipeline passes it, and its wholeness. -/
abbrev statsM0 (t : Fin cfg1.N) : Memref sig .tc .vmem S10000x64 .f32 := win1_0.stage (cfg1.slots t 0)
abbrev statsW0 (t : Fin cfg1.N) : (statsM0 t).IsWhole := hstage1_0 ((cfg1.slots t 0).cast nbuf1_0)
abbrev statsM1 (t : Fin cfg1.N) : Memref sig .tc .vmem S1x64 .f32 := win1_1.stage (cfg1.slots t 1)
abbrev statsW1 (t : Fin cfg1.N) : (statsM1 t).IsWhole := hstage1_1 ((cfg1.slots t 1).cast nbuf1_1)
abbrev statsM2 (t : Fin cfg1.N) : Memref sig .tc .vmem S1x64 .f32 := win1_2.stage (cfg1.slots t 2)
abbrev statsW2 (t : Fin cfg1.N) : (statsM2 t).IsWhole := hstage1_2 ((cfg1.slots t 2).cast nbuf1_2)

end Cert.KernelIdeal.Hand

end
-- ==== Proof.KI.StatsFirst.lean ====
/- The statistics region, the case of the first grid point (the body's conditional taken): both outputs are
   zeroed, then each is loaded back and stored with its old contents plus the block's column sums (of the block,
   of its squares). The run of the body, with the pieces each output's staging buffer ends with as witnesses. -/
import proofs.«169916_j88905823027435_1_alg».proof.Proof.KI.StatsRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the two outputs' staging memrefs, as pieces (last first), at a point where the
    condition holds, WITH the proof that on whole staging memrefs — the input's at its contents `x0`, the outputs'
    at anything — the body runs to the continuation holding the input's as it was and each output's buffer with
    its pieces written. -/
noncomputable def statsRunFirst (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : statsCond i) (x0 : Vec F S10000x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__stats_kernel i arg1 harg1 arg2 harg2 arg3 harg3) K } := by
  refine ⟨?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

end Cert.KernelIdeal.Hand

end
-- ==== Proof.KI.StatsLater.lean ====
/- The statistics region, the case of a later grid point (the body's conditional not taken): each output is
   loaded back at what the point before left and stored with that plus the block's column sums (of the block, of
   its squares). The run of the body, with the pieces each output's staging buffer ends with as witnesses. -/
import proofs.«169916_j88905823027435_1_alg».proof.Proof.KI.StatsFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the two outputs' staging memrefs, as pieces (last first), at a point where the
    condition fails, WITH the proof that on whole staging memrefs — the input's at its contents `x0`, the outputs'
    at their running contents `xo1`, `xo2` — the body runs to the continuation holding the input's as it was and
    each output's buffer with its pieces written. -/
noncomputable def statsRunLater (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : ¬statsCond i) (x0 : Vec F S10000x64 .f32) (xo1 : Vec F S1x64 .f32) (xo2 : Vec F S1x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__stats_kernel i arg1 harg1 arg2 harg2 arg3 harg3) K } := by
  refine ⟨?_, ?_, fun E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

end Cert.KernelIdeal.Hand

end
-- ==== Proof.KI.Stats.lean ====
/- The statistics region's half of the frame: what the two outputs' staging buffers hold after the body at each
   grid point (the accumulation, by recursion over the points), the pipeline's proof data at the contents the
   region finds, and the body obligation — at the first point the zeroing case, at every later point the case that
   adds to what the point before left (the outputs are written back at the last point only). -/
import proofs.«169916_j88905823027435_1_alg».proof.Proof.KI.StatsLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the outputs' staging buffers -/

/-- The first case's pieces for output 1 tile its block, so they cover it. -/
theorem statsCoverFirst1 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : statsCond i) (x0 : Vec F S10000x64 .f32) (y : S1x64.Idx) :
    ∃ pc ∈ (statsRunFirst c i arg1 harg1 arg2 harg2 arg3 harg3 hc0 x0).1, y ∈ pc.1.set :=
  View.cover_of_tiledL (statsRunFirst c i arg1 harg1 arg2 harg2 arg3 harg3 hc0 x0).1 S1x64.size (by sl_kernel_rfl) y

/-- The first case's pieces for output 2 tile its block, so they cover it. -/
theorem statsCoverFirst2 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : statsCond i) (x0 : Vec F S10000x64 .f32) (y : S1x64.Idx) :
    ∃ pc ∈ (statsRunFirst c i arg1 harg1 arg2 harg2 arg3 harg3 hc0 x0).2.1, y ∈ pc.1.set :=
  View.cover_of_tiledL (statsRunFirst c i arg1 harg1 arg2 harg2 arg3 harg3 hc0 x0).2.1 S1x64.size (by sl_kernel_rfl) y

/-- What the first case leaves in output 1's staging buffer: its pieces read back over junk. -/
def statsOutFirst1 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : statsCond i) (x0 : Vec F S10000x64 .f32) : Vec F S1x64 .f32 :=
  statsView1.read (Elt F) (statsView1.writes (Elt F) statsView1.junk (statsRunFirst c i arg1 harg1 arg2 harg2 arg3 harg3 hc0 x0).1)

/-- What the first case leaves in output 2's staging buffer. -/
def statsOutFirst2 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : statsCond i) (x0 : Vec F S10000x64 .f32) : Vec F S1x64 .f32 :=
  statsView2.read (Elt F) (statsView2.writes (Elt F) statsView2.junk (statsRunFirst c i arg1 harg1 arg2 harg2 arg3 harg3 hc0 x0).2.1)

/-- A later case's pieces for output 1 tile its block, so they cover it. -/
theorem statsCoverLater1 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : ¬statsCond i) (x0 : Vec F S10000x64 .f32) (xo1 : Vec F S1x64 .f32) (xo2 : Vec F S1x64 .f32) (y : S1x64.Idx) :
    ∃ pc ∈ (statsRunLater c i arg1 harg1 arg2 harg2 arg3 harg3 hc0 x0 xo1 xo2).1, y ∈ pc.1.set :=
  View.cover_of_tiledL (statsRunLater c i arg1 harg1 arg2 harg2 arg3 harg3 hc0 x0 xo1 xo2).1 S1x64.size (by sl_kernel_rfl) y

/-- A later case's pieces for output 2 tile its block, so they cover it. -/
theorem statsCoverLater2 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : ¬statsCond i) (x0 : Vec F S10000x64 .f32) (xo1 : Vec F S1x64 .f32) (xo2 : Vec F S1x64 .f32) (y : S1x64.Idx) :
    ∃ pc ∈ (statsRunLater c i arg1 harg1 arg2 harg2 arg3 harg3 hc0 x0 xo1 xo2).2.1, y ∈ pc.1.set :=
  View.cover_of_tiledL (statsRunLater c i arg1 harg1 arg2 harg2 arg3 harg3 hc0 x0 xo1 xo2).2.1 S1x64.size (by sl_kernel_rfl) y

/-- What a later case leaves in output 1's staging buffer: its pieces read back over junk. -/
def statsOutLater1 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : ¬statsCond i) (x0 : Vec F S10000x64 .f32) (xo1 : Vec F S1x64 .f32) (xo2 : Vec F S1x64 .f32) : Vec F S1x64 .f32 :=
  statsView1.read (Elt F) (statsView1.writes (Elt F) statsView1.junk (statsRunLater c i arg1 harg1 arg2 harg2 arg3 harg3 hc0 x0 xo1 xo2).1)

/-- What a later case leaves in output 2's staging buffer. -/
def statsOutLater2 (c : Dev nD) (i : grid1.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (hc0 : ¬statsCond i) (x0 : Vec F S10000x64 .f32) (xo1 : Vec F S1x64 .f32) (xo2 : Vec F S1x64 .f32) : Vec F S1x64 .f32 :=
  statsView2.read (Elt F) (statsView2.writes (Elt F) statsView2.junk (statsRunLater c i arg1 harg1 arg2 harg2 arg3 harg3 hc0 x0 xo1 xo2).2.1)

section StatsRegion
-- the TensorCore's buffer contents when the region is entered
variable (V : (c : Dev nD) → (b : Ref sig .tc) → Buf (Elt F) ((c : Thread nD τ).loc b))

/-! ## What the outputs hold after each point -/

/-- The first case at point `t`: run at the point's memrefs and input block. -/
def statsFirstAt (c : Dev nD) (t : Fin cfg1.N) (h0 : t.val % 10 = 0) : Vec F S1x64 .f32 × Vec F S1x64 .f32 :=
  (statsOutFirst1 c (grid1.coords t) (statsM0 t) (statsW0 t) (statsM1 t) (statsW1 t) (statsM2 t) (statsW2 t) ((statsCond_iff t).mpr h0) (blk1 V c 0 t),
   statsOutFirst2 c (grid1.coords t) (statsM0 t) (statsW0 t) (statsM1 t) (statsW1 t) (statsM2 t) (statsW2 t) ((statsCond_iff t).mpr h0) (blk1 V c 0 t))

/-- A later case at point `t`, the outputs at the running contents `xo`. -/
def statsLaterAt (c : Dev nD) (t : Fin cfg1.N) (h0 : ¬t.val % 10 = 0) (xo : Vec F S1x64 .f32 × Vec F S1x64 .f32) :
    Vec F S1x64 .f32 × Vec F S1x64 .f32 :=
  (statsOutLater1 c (grid1.coords t) (statsM0 t) (statsW0 t) (statsM1 t) (statsW1 t) (statsM2 t) (statsW2 t) (fun h => h0 ((statsCond_iff t).mp h)) (blk1 V c 0 t) xo.1 xo.2,
   statsOutLater2 c (grid1.coords t) (statsM0 t) (statsW0 t) (statsM1 t) (statsW1 t) (statsM2 t) (statsW2 t) (fun h => h0 ((statsCond_iff t).mp h)) (blk1 V c 0 t) xo.1 xo.2)

/-- THE ACCUMULATION. What the two outputs' staging buffers hold after the body at position `n`: at the first point
    the zeroing case; at a later point the adding case over what this leaves at `n - 1` (the buffers are not written
    back between). -/
def acc1 (c : Dev nD) : (n : ℕ) → n < cfg1.N → Vec F S1x64 .f32 × Vec F S1x64 .f32
  | 0, hn => statsFirstAt V c ⟨0, hn⟩ (Nat.zero_mod _)
  | n + 1, hn =>
    if h0 : (n + 1) % 10 = 0 then statsFirstAt V c ⟨n + 1, hn⟩ h0
    else statsLaterAt V c ⟨n + 1, hn⟩ h0 (acc1 c n (Nat.lt_of_succ_lt hn))

/-- `acc1` at a point of the first case. -/
theorem acc1_first (c : Dev nD) (t : Fin cfg1.N) (h0 : t.val % 10 = 0) :
    acc1 V c t.val t.isLt = statsFirstAt V c t h0 := by
  obtain ⟨n, hn⟩ := t
  cases n with
  | zero => exact rfl
  | succ n => exact (dif_pos h0).trans rfl

/-- `acc1` at a point of a later case: that case over what the point before left. -/
theorem acc1_later (c : Dev nD) (t : Fin cfg1.N) (h0 : ¬t.val % 10 = 0) :
    acc1 V c t.val t.isLt = statsLaterAt V c t h0 (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the statistics pipeline on core `c`: the arrays as the region finds them; after the body at
    point `t` the input's buffer at its block and the outputs' at the accumulation; the invariant the scoped rest
    and the generator register; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => (acc1 V c t.val t.isLt).1
    | ⟨2, _⟩ => (acc1 V c t.val t.isLt).2
  Φ _ := Pipeline.ΦA spec1 c
  q _ := fullShare
  owed _ := 0

/-- The proof data's arrays are the region-entry contents. -/
theorem dat1_A (c : Dev nD) (w : Fin cfg1.W) : (dat1 V c).A w = V c (Pipeline.arrRef spec1 w) := by
  dsimp only [dat1]

/-- What the body leaves, window by window. -/
theorem dat1_after0 (c : Dev nD) (t : Fin cfg1.N) : (dat1 V c).after 0 t = blk1 V c 0 t := by dsimp only [dat1]
theorem dat1_after1 (c : Dev nD) (t : Fin cfg1.N) : (dat1 V c).after 1 t = (acc1 V c t.val t.isLt).1 := by dsimp only [dat1]
theorem dat1_after2 (c : Dev nD) (t : Fin cfg1.N) : (dat1 V c).after 2 t = (acc1 V c t.val t.isLt).2 := by dsimp only [dat1]

/-- The input's current staging buffer holds its block at every point. -/
theorem statsIn (c : Dev nD) (t : Fin cfg1.N) (d) : (dat1 V c).before 0 t d = blk1 V c 0 t :=
  statsIn_of V (dat1 V c) (dat1_A V c 0) (dat1_after0 V c) t d

/-- At a later point output 1's current staging buffer holds what the body left at the point before: the point is
    not the first, the buffer was not written back between, the window is live and uncut. -/
theorem statsKept1 (c : Dev nD) (t : Fin cfg1.N) (h0 : ¬t.val % 10 = 0) (d) :
    (dat1 V c).before 1 t d = (acc1 V c (t.val - 1) (Nat.lt_of_le_of_lt (Nat.sub_le _ _) t.isLt)).1 := by
  have hN : t.val < 10 := lt_of_lt_of_eq t.isLt (show cfg1.N = 10 from N_1)
  rw [Dat.before_out_kept _ 1 rfl t (by omega) (Bool.eq_false_iff.mpr fun h => by have := (flush1_1 _).mp h; dsimp only at this; omega)
    (fun _ => rfl) (fun _ _ => rfl)]
  dsimp only [dat1]

/-- The same for output 2. -/
theorem statsKept2 (c : Dev nD) (t : Fin cfg1.N) (h0 : ¬t.val % 10 = 0) (d) :
    (dat1 V c).before 2 t d = (acc1 V c (t.val - 1) (Nat.lt_of_le_of_lt (Nat.sub_le _ _) t.isLt)).2 := by
  have hN : t.val < 10 := lt_of_lt_of_eq t.isLt (show cfg1.N = 10 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def statsPre (c : Dev nD) (t : Fin cfg1.N) : sProp 𝕄 :=
  iprop((dat1 V c).Φ t.castSucc ∗ (dat1 V c).owesAt () t.castSucc
    ∗ (∃ d, owns (c : Thread nD τ) (statsM0 t) fullShare ((dat1 V c).before 0 t d))
    ∗ (∃ d, owns (c : Thread nD τ) (statsM1 t) fullShare ((dat1 V c).before 1 t d))
    ∗ (∃ d, owns (c : Thread nD τ) (statsM2 t) fullShare ((dat1 V c).before 2 t d)))

/-- and what it returns. -/
def statsPost (c : Dev nD) (t : Fin cfg1.N) : sProp 𝕄 :=
  iprop((dat1 V c).Φ t.succ ∗ (dat1 V c).owesAt () t.succ
    ∗ owns (c : Thread nD τ) (statsM0 t) fullShare ((dat1 V c).after 0 t)
    ∗ owns (c : Thread nD τ) (statsM1 t) fullShare ((dat1 V c).after 1 t)
    ∗ owns (c : Thread nD τ) (statsM2 t) fullShare ((dat1 V c).after 2 t))

set_option maxHeartbeats 800000 in
/-- The body at any point: the input's memref holds its block; the closed form of the condition says which case the
    point is in; at a later point each output holds what the point before left; so the case's run applies; the
    invariant passes through unread; the core owes nothing throughout. -/
theorem statsBody (c : Dev nD) (t : Fin cfg1.N) :
    statsPre V c t ⊢ wp frame (wpE (defs₀ (F := F)) Variants.none c none) Set.univ (bodyAt1 t) (fun _ => statsPost V c t) := by
  unfold statsPre statsPost bodyAt1
  simp only [statsIn]
  rw [show (dat1 V c).Φ t.succ = (dat1 V c).Φ t.castSucc from rfl,
    show (dat1 V c).owesAt () t.succ = (dat1 V c).owesAt () t.castSucc from rfl,
    dat1_after0, dat1_after1, dat1_after2]
  by_cases h0 : t.val % 10 = 0
  · rw [acc1_first V c t h0]
    dsimp only [statsFirstAt]
    unfold statsOutFirst1 statsOutFirst2
    iintro ⟨HΦ, Ho, ⟨%d0, H0⟩, ⟨%d1, H1⟩, ⟨%d2, H2⟩⟩
    iapply ((statsRunFirst c (grid1.coords t) _ _ _ _ _ _ ((statsCond_iff t).mpr h0) (blk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (statsCoverFirst1 c _ _ _ _ _ _ _ _ _)
    · unfold owns; iexists _; isplitr
      swap; · iexact H2
      ipureintro; exact View.read_writes_of_cover _ _ _ _ _ (statsCoverFirst2 c _ _ _ _ _ _ _ _ _)
  · rw [acc1_later V c t h0]
    simp only [statsKept1 V c t h0, statsKept2 V c t h0]
    dsimp only [statsLaterAt]
    unfold statsOutLater1 statsOutLater2
    iintro ⟨HΦ, Ho, ⟨%d0, H0⟩, ⟨%d1, H1⟩, ⟨%d2, H2⟩⟩
    iapply ((statsRunLater c (grid1.coords t) _ _ _ _ _ _ (fun h => h0 ((statsCond_iff t).mp h)) (blk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (statsCoverLater1 c _ _ _ _ _ _ _ _ _ _ _)
    · unfold owns; iexists _; isplitr
      swap; · iexact H2
      ipureintro; exact View.read_writes_of_cover _ _ _ _ _ (statsCoverLater2 c _ _ _ _ _ _ _ _ _ _ _)

/-- The library's body obligation, at every point. -/
theorem body1 (c : Dev nD) : BodyObligation (dat1 (F := F) V c) (defs₀ (F := F)) Variants.none () Set.univ := fun t => by
  rw [bigSep_W1, bigSep_W1]
  exact statsBody V c t

end StatsRegion

end Cert.KernelIdeal.Hand

end
-- ==== Proof.KI.Norm.lean ====
import proofs.«169916_j88905823027435_1_alg».proof.Proof.Gen.KernelIdeal.Launch
import proofs.«169916_j88905823027435_1_alg».proof.Proof.Gen.KernelIdeal.Skeleton
import proofs.«169916_j88905823027435_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- what the TensorCore's buffers hold when the region is entered: every statement below is at this parameter
variable (V : (c : Dev nD) → (b : Ref sig .tc) → Buf (Elt F) ((c : Thread nD τ).loc b))

/-! # The normalising region: the third pipeline of the program

Six windows over a grid of ten points: window 0 is a block of 10000 rows of the array to normalise, a new one at every
point; windows 1 to 4 are four rows of 64 entries (mean, variance, scale, shift), each brought in at the first point
and kept; window 5 is the block of 10000 rows of the result, written back at every point. -/

/-- Window `w`'s block at point `t`, read off the array the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point, for any proof data over the entry arrays whose
body leaves that block where it was: where the window is brought in, by the transfer; where it is not, the block index
has not moved since the point before, and what the body left there is still the block. -/

theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

theorem found2_3 {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

theorem found2_4 {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes: each buffer whole -/

abbrev allRows2 : Rect S10000x64 := Rect.unit (s := S10000x64) ![0, 0] S10000x64.size inb_S10000x64_S10000x64_0_0
abbrev oneRow2 : Rect S1x64 := Rect.unit (s := S1x64) ![0, 0] S1x64.size inb_S1x64_S1x64_0_0

/-- The result window's buffer after the body, from the five input buffers: one store of the whole block, its payload
    the normalised and squashed value of the five loaded values. -/
def norm2 (x0 : Vec F S10000x64 .f32) (x1 x2 x3 x4 : Vec F S1x64 .f32) : Vec F S10000x64 .f32 :=
  View.canon [⟨allRows2, k2_pay1 (View.ld x0 allRows2) (View.ld x1 oneRow2) (View.ld x2 oneRow2) (View.ld x3 oneRow2) (View.ld x4 oneRow2)⟩]

/-- One store of the whole block covers the block. -/
theorem norm2_cover (p0 : Vec F S10000x64 .f32) (y : S10000x64.Idx) :
    ∃ pc ∈ ([⟨allRows2, p0⟩] : List (View.Piece (Elt F) S10000x64 .f32)), y ∈ pc.1.set :=
  View.cover_of_tiled [⟨allRows2, p0⟩] S10000x64.size (by rfl) y

/-! ## The body's triple -/

set_option maxHeartbeats 1000000 in
/-- The body on whole staging memrefs — the five inputs' at contents `x0` … `x4`, the result's at anything (the body
    loads it once and does not use what it loaded) — runs to the continuation with the inputs' as they were and the
    result's at `norm2 x0 x1 x2 x3 x4`. -/
theorem run2 (c : Dev nD) (E : Set ℕ) (i : grid2.Coords)
    (a0 : Memref sig .tc .vmem S10000x64 .f32) (ha0 : a0.IsWhole) (a1 : Memref sig .tc .vmem S1x64 .f32) (ha1 : a1.IsWhole)
    (a2 : Memref sig .tc .vmem S1x64 .f32) (ha2 : a2.IsWhole) (a3 : Memref sig .tc .vmem S1x64 .f32) (ha3 : a3.IsWhole)
    (a4 : Memref sig .tc .vmem S1x64 .f32) (ha4 : a4.IsWhole) (a5 : Memref sig .tc .vmem S10000x64 .f32) (ha5 : a5.IsWhole)
    (x0 : Vec F S10000x64 .f32) (x1 x2 x3 x4 : Vec F S1x64 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (norm2 x0 x1 x2 x3 x4)) -∗ K ⟨⟩))
      ⊢ wp frame (wpE (defs₀ (F := F)) Variants.none c none) E (cc2__bn_tanh_kernel i a0 ha0 a1 ha1 a2 ha2 a3 ha3 a4 ha4 a5 ha5) K := by
  simp only [cc2__bn_tanh_kernel_eq_skeleton]; unfold cc2__bn_tanh_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (norm2_cover _)

/-! ## The pipeline's proof data -/

/-- The proof data on core `c`: the arrays as the region finds them; after the body at point `t` each input's buffer
    still at its block and the result's at `norm2` of the five blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => norm2 (blk2 V c 0 t) (blk2 V c 1 t) (blk2 V c 2 t) (blk2 V c 3 t) (blk2 V c 4 t)
  Φ _ := Pipeline.ΦA spec2 c
  q _ := fullShare
  owed _ := 0

/-- The proof data's arrays are the entry contents. -/
theorem dat2_A (c : Dev nD) (w : Fin cfg2.W) : (dat2 V c).A w = V c (Pipeline.arrRef spec2 w) := by
  dsimp only [dat2]

/-- What the body leaves, window by window. -/
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) : (dat2 V c).after 4 t = blk2 V c 4 t := by dsimp only [dat2]
theorem dat2_after5 (c : Dev nD) (t : Fin cfg2.N) :
    (dat2 V c).after 5 t = norm2 (blk2 V c 0 t) (blk2 V c 1 t) (blk2 V c 2 t) (blk2 V c 3 t) (blk2 V c 4 t) := by
  dsimp only [dat2]

/-- Each input's current staging buffer holds its block at every point. -/
theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d
theorem dat2_before3 (c : Dev nD) (t : Fin cfg2.N) (d) : (dat2 V c).before 3 t d = blk2 V c 3 t :=
  found2_3 V (dat2 V c) (dat2_A V c 3) (dat2_after3 V c) t d
theorem dat2_before4 (c : Dev nD) (t : Fin cfg2.N) (d) : (dat2 V c).before 4 t d = blk2 V c 4 t :=
  found2_4 V (dat2 V c) (dat2_A V c 4) (dat2_after4 V c) t d

/-! ## The body obligation, at a generic point -/

/-- What the body is called with at point `t`, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `run2` applies; the invariant and what the core
    owes pass through unread. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before0, dat2_before1, dat2_before2, dat2_before3, dat2_before4]
  rw [show (dat2 V c).Φ t.succ = (dat2 V c).Φ t.castSucc from rfl,
    show (dat2 V c).owesAt () t.succ = (dat2 V c).owesAt () t.castSucc from rfl,
    dat2_after0, dat2_after1, dat2_after2, dat2_after3, dat2_after4, dat2_after5]
  iintro ⟨HΦ, Ho, ⟨%d0, H0⟩, ⟨%d1, H1⟩, ⟨%d2, H2⟩, ⟨%d3, H3⟩, ⟨%d4, H4⟩, ⟨%d5, H5⟩⟩
  iapply (run2 c Set.univ _ _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body2 (c : Dev nD) : BodyObligation (dat2 (F := F) V c) (defs₀ (F := F)) Variants.none () Set.univ := fun t => by
  rw [bigSep_W2, bigSep_W2]
  exact body2_at V c t

end Region

end Cert.KernelIdeal.Hand

end
-- ==== Proof.KI.Whole.lean ====
/-
  The whole run of the program: three kernel regions among three stretches of host operations.

  The buffers' contents are followed from the launch memory through every boundary: a stretch of host
  operations leaves what running its operations leaves; a region leaves every array one of its windows
  stages at what its write-backs fold to, and every other buffer as it found it. Each region is entered
  with every unscoped buffer held at the boundary's contents beside the core's generator register and its
  (empty) debts, and left the same way at the next boundary. From the last boundary every unscoped buffer
  of the final memory is read back: the argument arrays hold their launch contents (no stretch and no
  region writes one), and the result array holds what the last region's write-backs fold to.
-/
import proofs.«169916_j88905823027435_1_alg».proof.Proof.KI.Matmul
import proofs.«169916_j88905823027435_1_alg».proof.Proof.KI.Stats
import proofs.«169916_j88905823027435_1_alg».proof.Proof.KI.Norm
import proofs.«169916_j88905823027435_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev B0 : Dev nD → Valuation τ sig (Elt F) := fun c b => (s₀ m ρ).mem ((c : Dev nD), b)
/-- After the first stretch: what the matmul region is entered with. -/
abbrev B1 : Dev nD → Valuation τ sig (Elt F) := fun c => StableHlo.after hostOps0 (B0 m ρ c)
/-- The same, read at the TensorCore's references. -/
abbrev E1 : (c : Dev nD) → (b : Ref sig .tc) → Buf (Elt F) ((c : Thread nD τ).loc b) := fun c b => B1 m ρ c b
/-- After the matmul region: its arrays at what its write-backs fold to, the rest as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem left0 (c : Dev nD) (w : Fin cfg0.W) : (dat0 (E1 m ρ) c).arrAt w cfg0.N = E2 m ρ c (Pipeline.arrRef spec0 w) :=
  (B2_arr m ρ c w).symm
theorem kept0 (c : Dev nD) : ∀ b, b ∉ Finset.univ.image (Pipeline.arrRef spec0) → E2 m ρ c b = E1 m ρ c b :=
  fun b hb => B2_other m ρ c b fun w e => hb (Finset.mem_image.mpr ⟨w, Finset.mem_univ _, e⟩)

/-- After the second stretch: what the statistics region is entered with. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the statistics region. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem left1 (c : Dev nD) (w : Fin cfg1.W) : (dat1 (E3 m ρ) c).arrAt w cfg1.N = E4 m ρ c (Pipeline.arrRef spec1 w) :=
  (B4_arr m ρ c w).symm
theorem kept1 (c : Dev nD) : ∀ b, b ∉ Finset.univ.image (Pipeline.arrRef spec1) → E4 m ρ c b = E3 m ρ c b :=
  fun b hb => B4_other m ρ c b fun w e => hb (Finset.mem_image.mpr ⟨w, Finset.mem_univ _, e⟩)

/-- After the third stretch: what the normalising region is entered with. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- After the normalising region: the contents the program ends with. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_other (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem left2 (c : Dev nD) (w : Fin cfg2.W) : (dat2 (E5 m ρ) c).arrAt w cfg2.N = E6 m ρ c (Pipeline.arrRef spec2 w) :=
  (B6_arr m ρ c w).symm
theorem kept2 (c : Dev nD) : ∀ b, b ∉ Finset.univ.image (Pipeline.arrRef spec2) → E6 m ρ c b = E5 m ρ c b :=
  fun b hb => B6_other m ρ c b fun w e => hb (Finset.mem_image.mpr ⟨w, Finset.mem_univ _, e⟩)

/-! ## A buffer nothing writes keeps its launch contents -/

/-- A buffer that no stretch writes and no region stages reaches the end as launched. -/
theorem B6_untouched (c : Dev nD) (b : Ref sig .tc)
    (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    B6 m ρ c (Proc.devRef .tc b) = m ((c : Thread nD τ).loc b) :=
  calc B6 m ρ c (Proc.devRef .tc b)
    _ = B5 m ρ c (Proc.devRef .tc b) := B6_other m ρ c b a2
    _ = B4 m ρ c (Proc.devRef .tc b) := StableHlo.after_of_writes_sub hostOps2 _ hostOps2_writes h2
    _ = B3 m ρ c (Proc.devRef .tc b) := B4_other m ρ c b a1
    _ = B2 m ρ c (Proc.devRef .tc b) := StableHlo.after_of_writes_sub hostOps1 _ hostOps1_writes h1
    _ = B1 m ρ c (Proc.devRef .tc b) := B2_other m ρ c b a0
    _ = B0 m ρ c (Proc.devRef .tc b) := StableHlo.after_of_writes_sub hostOps0 _ hostOps0_writes h0
    _ = m ((c : Thread nD τ).loc b) := rfl

/-- The first argument is the matmul region's first window's array, an input: the region leaves it as entered. -/
theorem B6_main_arg0 (c : Dev nD) : B6 m ρ c (Proc.devRef .tc main_arg0) = m ((c : Thread nD τ).loc main_arg0) :=
  calc B6 m ρ c (Proc.devRef .tc main_arg0)
    _ = B5 m ρ c (Proc.devRef .tc main_arg0) := B6_other m ρ c main_arg0 (by decide)
    _ = B4 m ρ c (Proc.devRef .tc main_arg0) := StableHlo.after_of_writes_sub hostOps2 _ hostOps2_writes (by decide)
    _ = B3 m ρ c (Proc.devRef .tc main_arg0) := B4_other m ρ c main_arg0 (by decide)
    _ = B2 m ρ c (Proc.devRef .tc main_arg0) := StableHlo.after_of_writes_sub hostOps1 _ hostOps1_writes (by decide)
    _ = B1 m ρ c (Proc.devRef .tc main_arg0) := (B2_arr m ρ c 0).trans (((dat0 (E1 m ρ) c).arrAt_in 0 rfl _).trans (dat0_A (E1 m ρ) c 0))
    _ = B0 m ρ c (Proc.devRef .tc main_arg0) := StableHlo.after_of_writes_sub hostOps0 _ hostOps0_writes (by decide)
    _ = m ((c : Thread nD τ).loc main_arg0) := rfl
theorem B6_main_arg1 (c : Dev nD) : B6 m ρ c (Proc.devRef .tc main_arg1) = m ((c : Thread nD τ).loc main_arg1) :=
  B6_untouched m ρ c main_arg1 (by decide) (by decide) (by decide) (by decide) (by decide) (by decide)
theorem B6_main_arg2 (c : Dev nD) : B6 m ρ c (Proc.devRef .tc main_arg2) = m ((c : Thread nD τ).loc main_arg2) :=
  B6_untouched m ρ c main_arg2 (by decide) (by decide) (by decide) (by decide) (by decide) (by decide)
theorem B6_main_arg3 (c : Dev nD) : B6 m ρ c (Proc.devRef .tc main_arg3) = m ((c : Thread nD τ).loc main_arg3) :=
  B6_untouched m ρ c main_arg3 (by decide) (by decide) (by decide) (by decide) (by decide) (by decide)
theorem B6_main_arg4 (c : Dev nD) : B6 m ρ c (Proc.devRef .tc main_arg4) = m ((c : Thread nD τ).loc main_arg4) :=
  B6_untouched m ρ c main_arg4 (by decide) (by decide) (by decide) (by decide) (by decide) (by decide)
theorem B6_main_arg5 (c : Dev nD) : B6 m ρ c (Proc.devRef .tc main_arg5) = m ((c : Thread nD τ).loc main_arg5) :=
  B6_untouched m ρ c main_arg5 (by decide) (by decide) (by decide) (by decide) (by decide) (by decide)
theorem B6_main_arg6 (c : Dev nD) : B6 m ρ c (Proc.devRef .tc main_arg6) = m ((c : Thread nD τ).loc main_arg6) :=
  B6_untouched m ρ c main_arg6 (by decide) (by decide) (by decide) (by decide) (by decide) (by decide)

/-! ## The proof data of the three pipelines, and what rides beside the buffers -/

/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core waits for another: no level is assigned. -/
abbrev Lv : GSem nD τ sig → Finset Unit := fun _ => ∅
abbrev lv : GSem nD τ sig → Unit → ℕ := fun _ _ => 0
/-- Beside the buffers: the core's generator register at some state, and the core owing nothing. -/
abbrev Beside (c : Dev nD) : sProp 𝕄 := iprop((∃ r, prngReg c r) ∗ ∃ W, owes (c : Thread nD τ) (0 : CellTallies nD τ sig Unit) W)
/-- A stretch of host operations as a segment of the run, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside
/-- An unscoped TensorCore reference is among those held. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debts. -/
abbrev Last (c : Dev nD) : sProp 𝕄 := iprop(StableHlo.held (c : Thread nD τ) (Pipeline.ucRefs τ sig) (B6 m ρ c) ∗ ∃ r, prngReg c r)

/-! ## The regions as segments -/

set_option backward.isDefEq.respectTransparency.types false in
/-- The matmul region: entered with every unscoped buffer at `B1`, left at `B2`. Its windows' arrays are split out of
    the held buffers and put back at what the write-backs fold to; the generator register goes into the pipeline's
    invariant and comes back; nothing is owed. -/
def reg0 : Pipeline.RegionSeg (pcfgs (F := F)) adm (pdats m ρ) () defs₀ 𝒱₀ Lv lv 0 where
  win := launch0.win.to₀
  block_pos := launch0.block_pos
  stage_whole := launch0.stage_whole
  K := PEmpty
  osem k := k.elim
  ho := Pipeline.OwnSemFacts.none _
  hbody c := (body0 (E1 m ρ) c).loose
  hwaits := Pipeline.hwaits_of_owed_zero _ _ _ _ Lv lv 0 fun _ _ => rfl
  pre c := iprop(StableHlo.held (c : Thread nD τ) (Pipeline.ucRefs τ sig) (B1 m ρ c) ∗ Beside c)
  post c := iprop(StableHlo.held (c : Thread nD τ) (Pipeline.ucRefs τ sig) (B2 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The statistics region: entered at `B3`, left at `B4`, in the same way. -/
def reg1 : Pipeline.RegionSeg (pcfgs (F := F)) adm (pdats m ρ) () defs₀ 𝒱₀ Lv lv 1 where
  win := launch1.win.to₀
  block_pos := launch1.block_pos
  stage_whole := launch1.stage_whole
  K := PEmpty
  osem k := k.elim
  ho := Pipeline.OwnSemFacts.none _
  hbody c := (body1 (E3 m ρ) c).loose
  hwaits := Pipeline.hwaits_of_owed_zero _ _ _ _ Lv lv 1 fun _ _ => rfl
  pre c := iprop(StableHlo.held (c : Thread nD τ) (Pipeline.ucRefs τ sig) (B3 m ρ c) ∗ Beside c)
  post c := iprop(StableHlo.held (c : Thread nD τ) (Pipeline.ucRefs τ sig) (B4 m ρ c) ∗ Beside c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region: entered at `B5`, left at the last thread state beside the core owing nothing. -/
def reg2 : Pipeline.RegionSeg (pcfgs (F := F)) adm (pdats m ρ) () defs₀ 𝒱₀ Lv lv 2 where
  win := launch2.win.to₀
  block_pos := launch2.block_pos
  stage_whole := launch2.stage_whole
  K := PEmpty
  osem k := k.elim
  ho := Pipeline.OwnSemFacts.none _
  hbody c := (body2 (E5 m ρ) c).loose
  hwaits := Pipeline.hwaits_of_owed_zero _ _ _ _ Lv lv 2 fun _ _ => rfl
  pre c := iprop(StableHlo.held (c : Thread nD τ) (Pipeline.ucRefs τ sig) (B5 m ρ c) ∗ Beside c)
  post c := iprop(Last m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its six segments, and the run -/

/-- The program's segments in order: a stretch of host operations, then a region, three times. -/
abbrev parts : List (Pipeline.Seg (pcfgs (F := F)) adm (pdats m ρ) () defs₀ 𝒱₀ Lv lv) :=
  [ .host (stretch hostOps0 hostOps0_sub hostOps0_fresh (B0 m ρ)),
    .region (reg0 m ρ),
    .host (stretch hostOps1 hostOps1_sub hostOps1_fresh (B2 m ρ)),
    .region (reg1 m ρ),
    .host (stretch hostOps2 hostOps2_sub hostOps2_fresh (B4 m ρ)),
    .region (reg2 m ρ) ]
/-- The program is the run of its segments. -/
theorem main_parts (c : Dev nD) : main (F := F) c = Pipeline.Seg.run (parts m ρ) := (main_chain c).trans (by chain_rfl)

set_option backward.isDefEq.respectTransparency.types false in
/-- THE RUN. From any memory with zero counters every weakly fair execution of the program terminates, nothing faulting,
    and in the final memory every unscoped TensorCore buffer holds the last boundary's contents `B6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m ρ c b) :=
  Pipeline.θ_run_regions_kit (pcfgs (F := F)) adm (pdats m ρ) () cellOf_inj emb₁ defs₀ 𝒱₀ Lv lv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c)) (Tₙ := Last m ρ)
    (hch := ⟨fun _ => .rfl, fun _ => .rfl, fun _ => .rfl, fun _ => .rfl, fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h c => h c)

/-- THE FRAME. Every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (held_ref main_arg0 (by decide))).trans (B6_main_arg0 m ρ c),
     (h c _ (held_ref main_arg1 (by decide))).trans (B6_main_arg1 m ρ c),
     (h c _ (held_ref main_arg2 (by decide))).trans (B6_main_arg2 m ρ c),
     (h c _ (held_ref main_arg3 (by decide))).trans (B6_main_arg3 m ρ c),
     (h c _ (held_ref main_arg4 (by decide))).trans (B6_main_arg4 m ρ c),
     (h c _ (held_ref main_arg5 (by decide))).trans (B6_main_arg5 m ρ c),
     (h c _ (held_ref main_arg6 (by decide))).trans (B6_main_arg6 m ρ c)⟩) (run_all m ρ)

/-- THE RUN WITH THE RESULT NAMED: the result array ends at what the normalising region's write-backs fold to, and the
    argument arrays end as launched. -/
theorem run_result : θ_run defs (onTc (τ := τ) (main (F := F))) ⟨m, fun _ => 0, ρ⟩ (fun r => ∀ c : Dev nD,
      r.2.mem ((c.tc : Thread nD τ).loc main_v48) = (dat2 (E5 m ρ) c).arrAt 5 cfg2.N
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun _ h c =>
    ⟨(h c _ (held_ref main_v48 (by decide))).trans (B6_arr m ρ c 5),
     (h c _ (held_ref main_arg0 (by decide))).trans (B6_main_arg0 m ρ c),
     (h c _ (held_ref main_arg1 (by decide))).trans (B6_main_arg1 m ρ c),
     (h c _ (held_ref main_arg2 (by decide))).trans (B6_main_arg2 m ρ c),
     (h c _ (held_ref main_arg3 (by decide))).trans (B6_main_arg3 m ρ c),
     (h c _ (held_ref main_arg4 (by decide))).trans (B6_main_arg4 m ρ c),
     (h c _ (held_ref main_arg5 (by decide))).trans (B6_main_arg5 m ρ c),
     (h c _ (held_ref main_arg6 (by decide))).trans (B6_main_arg6 m ρ c)⟩) (run_all m ρ)

end Cert.KernelIdeal.Hand

end
-- ==== Proof.Ref.Run.lean ====
/-
  The reference program's @main read as a list of its host operations, and its run: every weakly fair execution
  terminates with the result buffer at the fold of the operations' results over the launch contents, and the seven
  arguments unchanged.
-/
import proofs.«169916_j88905823027435_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 79 operations, in order. -/
abbrev ops : List (HloOp τ sig (Elt F)) :=
  [ nullary main_c (fun i => lit0 (S64.rowMajor i)),
    nullary main_c_0 (constantI S64 1 0#1),
    nullary main_c_1 (fun i => lit1 (S64.rowMajor i)),
    nullary main_c_2 (constantI S64 1 0#1),
    unary main_arg4 main_v0 ((extractStridedSlice S16x16 ![0, 0] · slices_S16x64_S16x16_0_0) : (⟨S16x64, .f32⟩ : BufTy).Contents (Elt F) → (⟨S16x16, .f32⟩ : BufTy).Contents (Elt F)),
    unary main_arg4 main_v1 ((extractStridedSlice S16x16 ![0, 16] · slices_S16x64_S16x16_0_16) : (⟨S16x64, .f32⟩ : BufTy).Contents (Elt F) → (⟨S16x16, .f32⟩ : BufTy).Contents (Elt F)),
    unary main_arg4 main_v2 ((extractStridedSlice S16x16 ![0, 32] · slices_S16x64_S16x16_0_32) : (⟨S16x64, .f32⟩ : BufTy).Contents (Elt F) → (⟨S16x16, .f32⟩ : BufTy).Contents (Elt F)),
    unary main_arg4 main_v3 ((extractStridedSlice S16x16 ![0, 48] · slices_S16x64_S16x16_0_48) : (⟨S16x64, .f32⟩ : BufTy).Contents (Elt F) → (⟨S16x16, .f32⟩ : BufTy).Contents (Elt F)),
    unary main_v1 main_v4 (Host.negf : (⟨S16x16, .f32⟩ : BufTy).Contents (Elt F) → (⟨S16x16, .f32⟩ : BufTy).Contents (Elt F)),
    unary main_v2 main_v5 (Host.negf : (⟨S16x16, .f32⟩ : BufTy).Contents (Elt F) → (⟨S16x16, .f32⟩ : BufTy).Contents (Elt F)),
    unary main_v3 main_v6 (Host.negf : (⟨S16x16, .f32⟩ : BufTy).Contents (Elt F) → (⟨S16x16, .f32⟩ : BufTy).Contents (Elt F)),
    nary ![main_v0, main_v4, main_v5, main_v6] main_v7 (fun u => concatenate S16x64 1 [⟨S16x16, u 0⟩, ⟨S16x16, u 1⟩, ⟨S16x16, u 2⟩, ⟨S16x16, u 3⟩] concatenates_S16x16_S16x16_S16x16_S16x16_S16x64_d1),
    unary main_v3 main_v8 (Host.negf : (⟨S16x16, .f32⟩ : BufTy).Contents (Elt F) → (⟨S16x16, .f32⟩ : BufTy).Contents (Elt F)),
    nary ![main_v1, main_v0, main_v8, main_v2] main_v9 (fun u => concatenate S16x64 1 [⟨S16x16, u 0⟩, ⟨S16x16, u 1⟩, ⟨S16x16, u 2⟩, ⟨S16x16, u 3⟩] concatenates_S16x16_S16x16_S16x16_S16x16_S16x64_d1),
    unary main_v1 main_v10 (Host.negf : (⟨S16x16, .f32⟩ : BufTy).Contents (Elt F) → (⟨S16x16, .f32⟩ : BufTy).Contents (Elt F)),
    nary ![main_v2, main_v3, main_v0, main_v10] main_v11 (fun u => concatenate S16x64 1 [⟨S16x16, u 0⟩, ⟨S16x16, u 1⟩, ⟨S16x16, u 2⟩, ⟨S16x16, u 3⟩] concatenates_S16x16_S16x16_S16x16_S16x16_S16x64_d1),
    unary main_v2 main_v12 (Host.negf : (⟨S16x16, .f32⟩ : BufTy).Contents (Elt F) → (⟨S16x16, .f32⟩ : BufTy).Contents (Elt F)),
    nary ![main_v3, main_v12, main_v1, main_v0] main_v13 (fun u => concatenate S16x64 1 [⟨S16x16, u 0⟩, ⟨S16x16, u 1⟩, ⟨S16x16, u 2⟩, ⟨S16x16, u 3⟩] concatenates_S16x16_S16x16_S16x16_S16x16_S16x64_d1),
    nary ![main_v7, main_v9, main_v11, main_v13] main_v14 (fun u => concatenate S64x64 0 [⟨S16x64, u 0⟩, ⟨S16x64, u 1⟩, ⟨S16x64, u 2⟩, ⟨S16x64, u 3⟩] concatenates_S16x64_S16x64_S16x64_S16x64_S64x64_d0),
    nullary main_c_3 (constantI S_ 32 64#32),
    unary main_c_3 main_v15 (broadcastInDim S64 ![] bcast_S_S64 : (⟨S_, .i32⟩ : BufTy).Contents (Elt F) → (⟨S64, .i32⟩ : BufTy).Contents (Elt F)),
    binary main_c main_v15 main_v16 (addi : (⟨S64, .i32⟩ : BufTy).Contents (Elt F) → (⟨S64, .i32⟩ : BufTy).Contents (Elt F) → (⟨S64, .i32⟩ : BufTy).Contents (Elt F)),
    ternary main_c_0 main_v16 main_c main_v17 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v17 main_v18 (broadcastInDim S64x1 ![0] bcast_S64_S64x1_0 : (⟨S64, .i32⟩ : BufTy).Contents (Elt F) → (⟨S64x1, .i32⟩ : BufTy).Contents (Elt F)),
    binary main_v14 main_v18 main_v19 ((fun x i => Host.gather gather_S64x64_S64x1_S64x64_1_0_n_n_0_1_164 x i) : (⟨S64x64, .f32⟩ : BufTy).Contents (Elt F) → (⟨S64x1, .i32⟩ : BufTy).Contents (Elt F) → (⟨S64x64, .f32⟩ : BufTy).Contents (Elt F)),
    nullary main_c_4 (constantI S_ 32 64#32),
    unary main_c_4 main_v20 (broadcastInDim S64 ![] bcast_S_S64 : (⟨S_, .i32⟩ : BufTy).Contents (Elt F) → (⟨S64, .i32⟩ : BufTy).Contents (Elt F)),
    binary main_c_1 main_v20 main_v21 (addi : (⟨S64, .i32⟩ : BufTy).Contents (Elt F) → (⟨S64, .i32⟩ : BufTy).Contents (Elt F) → (⟨S64, .i32⟩ : BufTy).Contents (Elt F)),
    ternary main_c_2 main_v21 main_c_1 main_v22 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v22 main_v23 (broadcastInDim S64x1 ![0] bcast_S64_S64x1_0 : (⟨S64, .i32⟩ : BufTy).Contents (Elt F) → (⟨S64x1, .i32⟩ : BufTy).Contents (Elt F)),
    binary main_v19 main_v23 main_v24 ((fun x i => Host.gather gather_S64x64_S64x1_S64x64_0_1_n_n_1_1_641 x i) : (⟨S64x64, .f32⟩ : BufTy).Contents (Elt F) → (⟨S64x1, .i32⟩ : BufTy).Contents (Elt F) → (⟨S64x64, .f32⟩ : BufTy).Contents (Elt F)),
    binary main_arg0 main_v24 main_v25 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v26 (broadcastInDim S1600000x1 ![0] bcast_S1600000_S1600000x1_0 : (⟨S1600000, .f32⟩ : BufTy).Contents (Elt F) → (⟨S1600000x1, .f32⟩ : BufTy).Contents (Elt F)),
    nullary main_c_5 (constantI S_ 32 0#32),
    unary main_c_5 main_v27 (broadcastInDim S1600000 ![] bcast_S_S1600000 : (⟨S_, .i32⟩ : BufTy).Contents (Elt F) → (⟨S1600000, .i32⟩ : BufTy).Contents (Elt F)),
    binary main_arg2 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v29 (broadcastInDim S1600000 ![] bcast_S_S1600000 : (⟨S_, .i32⟩ : BufTy).Contents (Elt F) → (⟨S1600000, .i32⟩ : BufTy).Contents (Elt F)),
    binary main_arg2 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_arg2 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v25 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v26 main_v34 (broadcastInDim S1600000x64 ![0, 1] bcast_S1600000x1_S1600000x64_0_1 : (⟨S1600000x1, .f32⟩ : BufTy).Contents (Elt F) → (⟨S1600000x64, .f32⟩ : BufTy).Contents (Elt F)),
    binary main_v34 main_v33 main_v35 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v36 (broadcastInDim S100000x64 ![] bcast_S_S100000x64 : (⟨S_, .f32⟩ : BufTy).Contents (Elt F) → (⟨S100000x64, .f32⟩ : BufTy).Contents (Elt F)),
    unary main_arg1 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_7 (constant S_ .f32 0x00000000#32),
    binary main_v38 main_cst_7 main_v39 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_8 (constant S_ .f32 0x47C35000#32),
    unary main_cst_8 main_v40 (broadcastInDim S64 ![] bcast_S_S64 : (⟨S_, .f32⟩ : BufTy).Contents (Elt F) → (⟨S64, .f32⟩ : BufTy).Contents (Elt F)),
    binary main_v39 main_v40 main_v41 (Host.divf : (⟨S64, .f32⟩ : BufTy).Contents (Elt F) → (⟨S64, .f32⟩ : BufTy).Contents (Elt F) → (⟨S64, .f32⟩ : BufTy).Contents (Elt F)),
    unary main_v41 main_v42 (broadcastInDim S1x64 ![1] bcast_S64_S1x64_1 : (⟨S64, .f32⟩ : BufTy).Contents (Elt F) → (⟨S1x64, .f32⟩ : BufTy).Contents (Elt F)),
    unary main_v42 main_v43 (broadcastInDim S100000x64 ![0, 1] bcast_S1x64_S100000x64_0_1 : (⟨S1x64, .f32⟩ : BufTy).Contents (Elt F) → (⟨S100000x64, .f32⟩ : BufTy).Contents (Elt F)),
    binary main_v38 main_v43 main_v44 (subf : (⟨S100000x64, .f32⟩ : BufTy).Contents (Elt F) → (⟨S100000x64, .f32⟩ : BufTy).Contents (Elt F) → (⟨S100000x64, .f32⟩ : BufTy).Contents (Elt F)),
    binary main_v44 main_v44 main_v45 (mulf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    binary main_v45 main_cst_9 main_v46 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v47 (broadcastInDim S64 ![] bcast_S_S64 : (⟨S_, .f32⟩ : BufTy).Contents (Elt F) → (⟨S64, .f32⟩ : BufTy).Contents (Elt F)),
    binary main_v46 main_v47 main_v48 (Host.divf : (⟨S64, .f32⟩ : BufTy).Contents (Elt F) → (⟨S64, .f32⟩ : BufTy).Contents (Elt F) → (⟨S64, .f32⟩ : BufTy).Contents (Elt F)),
    unary main_v41 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v38 main_v50 main_v51 (subf : (⟨S100000x64, .f32⟩ : BufTy).Contents (Elt F) → (⟨S100000x64, .f32⟩ : BufTy).Contents (Elt F) → (⟨S100000x64, .f32⟩ : BufTy).Contents (Elt F)),
    unary main_arg5 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v53 main_v51 main_v54 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v55 (broadcastInDim S64 ![] bcast_S_S64 : (⟨S_, .f32⟩ : BufTy).Contents (Elt F) → (⟨S64, .f32⟩ : BufTy).Contents (Elt F)),
    binary main_v48 main_v55 main_v56 (addf : (⟨S64, .f32⟩ : BufTy).Contents (Elt F) → (⟨S64, .f32⟩ : BufTy).Contents (Elt F) → (⟨S64, .f32⟩ : BufTy).Contents (Elt F)),
    unary main_v56 main_v57 (Host.rsqrt : (⟨S64, .f32⟩ : BufTy).Contents (Elt F) → (⟨S64, .f32⟩ : BufTy).Contents (Elt F)),
    unary main_v57 main_v58 (broadcastInDim S1x64 ![1] bcast_S64_S1x64_1 : (⟨S64, .f32⟩ : BufTy).Contents (Elt F) → (⟨S1x64, .f32⟩ : BufTy).Contents (Elt F)),
    unary main_v58 main_v59 (broadcastInDim S100000x64 ![0, 1] bcast_S1x64_S100000x64_0_1 : (⟨S1x64, .f32⟩ : BufTy).Contents (Elt F) → (⟨S100000x64, .f32⟩ : BufTy).Contents (Elt F)),
    binary main_v54 main_v59 main_v60 (mulf : (⟨S100000x64, .f32⟩ : BufTy).Contents (Elt F) → (⟨S100000x64, .f32⟩ : BufTy).Contents (Elt F) → (⟨S100000x64, .f32⟩ : BufTy).Contents (Elt F)),
    unary main_arg6 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v60 main_v62 main_v63 (addf : (⟨S100000x64, .f32⟩ : BufTy).Contents (Elt F) → (⟨S100000x64, .f32⟩ : BufTy).Contents (Elt F) → (⟨S100000x64, .f32⟩ : BufTy).Contents (Elt F)),
    unary main_v63 main_v64 (Host.tanh : (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., nullary_bufs_sub .., nullary_bufs_sub .., unary_bufs_sub .., unary_bufs_sub .., unary_bufs_sub .., unary_bufs_sub .., unary_bufs_sub .., unary_bufs_sub .., unary_bufs_sub .., nary_bufs_sub .., unary_bufs_sub .., nary_bufs_sub .., unary_bufs_sub .., nary_bufs_sub .., unary_bufs_sub .., nary_bufs_sub .., nary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩

set_option maxRecDepth 8192 in
set_option maxHeartbeats 32000000 in
/-- On the device, for any float values, from any memory with zero counters: every weakly fair execution of @main
    terminates with the result at the fold of the operations over the launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v64) = StableHlo.after ops (fun b => m (c, b)) (Proc.devRef .tc main_v64)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  (θ_run defs _ _).mono (fun _ h c => ⟨h c main_v64,
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Cert.ReferenceIdeal.Hand

end
-- ==== Proof.KI.Stretches.lean ====
/-
  What the stretches of host operations between the kernel regions leave, over any contents they start from.

  The second stretch gathers the rows the edges name from the product, scales each by its edge's value and
  scatter-adds the results into zeros: one composed function of the product and the three edge arrays. The third
  stretch divides the two rows of column sums by the batch size, forms "mean of squares less squared mean", and
  re-lays the two per-column parameter vectors as rows.
-/
import proofs.«169916_j88905823027435_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.ShloMosaic.ValueIdx Cert.KernelIdeal Cert.KernelIdeal.Gen

variable {F : FTy → Type} [FloatOps F]

/-- The edges' messages summed into their target rows: gather the product's rows at the (wrapped) column indices,
    scale by the edge values, scatter-add into zeros at the row indices. -/
def edgeSum (sup : S100000x64.Idx → F .f32) (row col : IVec S1600000 32) (ev : S1600000.Idx → F .f32) : S100000x64.Idx → F .f32 :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 row)
    (mulf
      (broadcastInDim S1600000x64 ![0, 1] bcast_S1600000x1_S1600000x64_0_1
        (broadcastInDim S1600000x1 ![0] bcast_S1600000_S1600000x1_0 ev))
      (Host.gather gather_S100000x64_S1600000x1_S1600000x64_1_0_n_n_0_1_164 sup
        (broadcastInDim S1600000x1 ![0] bcast_S1600000_S1600000x1_0
          (select
            (cmpi CmpIPredicate.slt col (broadcastInDim S1600000 ![] bcast_S_S1600000 (constantI S_ 32 0#32)))
            (addi col (broadcastInDim S1600000 ![] bcast_S_S1600000 (constantI S_ 32 100000#32)))
            col))))

set_option maxHeartbeats 4000000 in
/-- The second stretch leaves the edge sum of what it found in the product's buffer. -/
theorem second_out (W : Valuation τ sig (Elt F)) :
    (StableHlo.after hostOps1 W (Proc.devRef .tc main_v38) : S100000x64.Idx → F .f32)
      = edgeSum (W (Proc.devRef .tc main_v25)) (W (Proc.devRef .tc main_arg1)) (W (Proc.devRef .tc main_arg2)) (W (Proc.devRef .tc main_arg3)) := by
  after_results_simp
  rfl

/-- The batch size as a row. -/
abbrev batchRow : S1x64.Idx → F .f32 := broadcastInDim S1x64 ![] bcast_S_S1x64 (constant (F := F) S_ .f32 0x47C35000#32)

/-- The third stretch leaves the row of means: the column sums over the batch size. -/
theorem third_mean (W : Valuation τ sig (Elt F)) :
    (StableHlo.after hostOps2 W (Proc.devRef .tc main_v41) : S1x64.Idx → F .f32)
      = Host.divf (W (Proc.devRef .tc main_v39_0)) batchRow := by
  after_results

/-- The third stretch leaves the row of variances: mean of squares less squared mean. -/
theorem third_var (W : Valuation τ sig (Elt F)) :
    (StableHlo.after hostOps2 W (Proc.devRef .tc main_v45) : S1x64.Idx → F .f32)
      = subf (Host.divf (W (Proc.devRef .tc main_v39_1)) batchRow)
          (mulf (Host.divf (W (Proc.devRef .tc main_v39_0)) batchRow) (Host.divf (W (Proc.devRef .tc main_v39_0)) batchRow)) := by
  after_results

/-- The third stretch re-lays the scale vector as a row. -/
theorem third_scale (W : Valuation τ sig (Elt F)) (q : Fin 64) :
    (StableHlo.after hostOps2 W (Proc.devRef .tc main_v46) : S1x64.Idx → F .f32) (ix2 (0 : Fin 1) q)
      = (W (Proc.devRef .tc main_arg5) : S64.Idx → F .f32) (ix1 q) := by
  after_results
  exact shapeCast_a_1a_apply _ _ 0 q

/-- The third stretch re-lays the shift vector as a row. -/
theorem third_shift (W : Valuation τ sig (Elt F)) (q : Fin 64) :
    (StableHlo.after hostOps2 W (Proc.devRef .tc main_v47) : S1x64.Idx → F .f32) (ix2 (0 : Fin 1) q)
      = (W (Proc.devRef .tc main_arg6) : S64.Idx → F .f32) (ix1 q) := by
  after_results
  exact shapeCast_a_1a_apply _ _ 0 q

end Cert.KernelIdeal.Hand

end
-- ==== Proof.KI.Entry.lean ====
/-
  What the regions are entered with, in terms of the launch memory and of what the earlier regions leave.

  No stretch and no region writes an argument array, so wherever one is read it holds its launch contents. The matmul
  region is entered with the first argument and the 64×64 matrix the first stretch built; the statistics and the
  normalising regions with the edge sum of the matmul region's result; the normalising region also with the row of
  means and the row of variances the third stretch made from the statistics region's two results, and with the two
  parameter vectors re-laid as rows.
-/
import proofs.«169916_j88905823027435_1_alg».proof.Proof.KI.Whole
import proofs.«169916_j88905823027435_1_alg».proof.Proof.KI.Stretches

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## A buffer nothing has written yet holds its launch contents -/

theorem B1_keeps (c : Dev nD) (b : Ref sig .tc) (h0 : b ∉ hostOps0_W) :
    B1 m ρ c (Proc.devRef .tc b) = m ((c : Thread nD τ).loc b) :=
  (StableHlo.after_of_writes_sub hostOps0 _ hostOps0_writes h0).trans rfl
theorem B2_keeps (c : Dev nD) (b : Ref sig .tc) (h0 : b ∉ hostOps0_W) (a0 : ∀ w, Pipeline.arrRef spec0 w ≠ b) :
    B2 m ρ c (Proc.devRef .tc b) = m ((c : Thread nD τ).loc b) :=
  (B2_other m ρ c b a0).trans (B1_keeps m ρ c b h0)
theorem B3_keeps (c : Dev nD) (b : Ref sig .tc) (h0 : b ∉ hostOps0_W) (h1 : b ∉ hostOps1_W) (a0 : ∀ w, Pipeline.arrRef spec0 w ≠ b) :
    B3 m ρ c (Proc.devRef .tc b) = m ((c : Thread nD τ).loc b) :=
  (StableHlo.after_of_writes_sub hostOps1 _ hostOps1_writes h1).trans (B2_keeps m ρ c b h0 a0)
theorem B4_keeps (c : Dev nD) (b : Ref sig .tc) (h0 : b ∉ hostOps0_W) (h1 : b ∉ hostOps1_W)
    (a0 : ∀ w, Pipeline.arrRef spec0 w ≠ b) (a1 : ∀ w, Pipeline.arrRef spec1 w ≠ b) :
    B4 m ρ c (Proc.devRef .tc b) = m ((c : Thread nD τ).loc b) :=
  (B4_other m ρ c b a1).trans (B3_keeps m ρ c b h0 h1 a0)

/-! ## The matmul region's two inputs -/

/-- Its first window's array is the first argument as launched. -/
theorem E1_rows (c : Dev nD) : E1 m ρ c main_arg0 = m ((c : Thread nD τ).loc main_arg0) :=
  B1_keeps m ρ c main_arg0 (by decide)

/-! ## The statistics region's input: the edge sum of the product -/

theorem B2_product (c : Dev nD) : B2 m ρ c (Proc.devRef .tc main_v25) = (dat0 (E1 m ρ) c).arrAt 2 cfg0.N :=
  B2_arr m ρ c 2

theorem E3_sum (c : Dev nD) :
    (E3 m ρ c main_v38 : S100000x64.Idx → F .f32)
      = edgeSum ((dat0 (E1 m ρ) c).arrAt 2 cfg0.N) (m ((c : Thread nD τ).loc main_arg1)) (m ((c : Thread nD τ).loc main_arg2))
          (m ((c : Thread nD τ).loc main_arg3)) := by
  show (StableHlo.after hostOps1 (B2 m ρ c) (Proc.devRef .tc main_v38) : S100000x64.Idx → F .f32) = _
  rw [second_out, B2_product m ρ c, B2_keeps m ρ c main_arg1 (by decide) (by decide),
    B2_keeps m ρ c main_arg2 (by decide) (by decide), B2_keeps m ρ c main_arg3 (by decide) (by decide)]

/-! ## The normalising region's inputs -/

/-- Its first window's array is still the edge sum: the statistics region only read it, the third stretch does not write it. -/
theorem E5_sum (c : Dev nD) : E5 m ρ c main_v38 = E3 m ρ c main_v38 :=
  calc B5 m ρ c (Proc.devRef .tc main_v38)
    _ = B4 m ρ c (Proc.devRef .tc main_v38) := StableHlo.after_of_writes_sub hostOps2 _ hostOps2_writes (by decide)
    _ = (dat1 (E3 m ρ) c).arrAt 0 cfg1.N := B4_arr m ρ c 0
    _ = E3 m ρ c main_v38 := ((dat1 (E3 m ρ) c).arrAt_in 0 rfl _).trans (dat1_A (E3 m ρ) c 0)

theorem E5_mean (c : Dev nD) :
    (E5 m ρ c main_v41 : S1x64.Idx → F .f32) = Host.divf ((dat1 (E3 m ρ) c).arrAt 1 cfg1.N) batchRow := by
  show (StableHlo.after hostOps2 (B4 m ρ c) (Proc.devRef .tc main_v41) : S1x64.Idx → F .f32) = _
  rw [third_mean]
  exact congrArg (fun v => Host.divf v batchRow) (B4_arr m ρ c 1)

theorem E5_var (c : Dev nD) :
    (E5 m ρ c main_v45 : S1x64.Idx → F .f32)
      = subf (Host.divf ((dat1 (E3 m ρ) c).arrAt 2 cfg1.N) batchRow)
          (mulf (Host.divf ((dat1 (E3 m ρ) c).arrAt 1 cfg1.N) batchRow) (Host.divf ((dat1 (E3 m ρ) c).arrAt 1 cfg1.N) batchRow)) := by
  show (StableHlo.after hostOps2 (B4 m ρ c) (Proc.devRef .tc main_v45) : S1x64.Idx → F .f32) = _
  rw [third_var]
  have e1 : (B4 m ρ c (Proc.devRef .tc main_v39_0) : S1x64.Idx → F .f32) = (dat1 (E3 m ρ) c).arrAt 1 cfg1.N := B4_arr m ρ c 1
  have e2 : (B4 m ρ c (Proc.devRef .tc main_v39_1) : S1x64.Idx → F .f32) = (dat1 (E3 m ρ) c).arrAt 2 cfg1.N := B4_arr m ρ c 2
  rw [e1, e2]

theorem E5_scale (c : Dev nD) (q : Fin 64) :
    (E5 m ρ c main_v46 : S1x64.Idx → F .f32) (ix2 (0 : Fin 1) q) = (m ((c : Thread nD τ).loc main_arg5) : S64.Idx → F .f32) (ix1 q) := by
  show (StableHlo.after hostOps2 (B4 m ρ c) (Proc.devRef .tc main_v46) : S1x64.Idx → F .f32) (ix2 (0 : Fin 1) q) = _
  rw [third_scale, B4_keeps m ρ c main_arg5 (by decide) (by decide) (by decide) (by decide)]

theorem E5_shift (c : Dev nD) (q : Fin 64) :
    (E5 m ρ c main_v47 : S1x64.Idx → F .f32) (ix2 (0 : Fin 1) q) = (m ((c : Thread nD τ).loc main_arg6) : S64.Idx → F .f32) (ix1 q) := by
  show (StableHlo.after hostOps2 (B4 m ρ c) (Proc.devRef .tc main_v47) : S1x64.Idx → F .f32) (ix2 (0 : Fin 1) q) = _
  rw [third_shift, B4_keeps m ρ c main_arg6 (by decide) (by decide) (by decide) (by decide)]

end Cert.KernelIdeal.Hand

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibLayout.lean ====
/-
  A column broadcast over columns, read at an index: an [a, 1] array broadcast to [a, b] holds, at (p, q), the
  operand's row p.
-/
import Idealize.ShloMosaic.Lib.Pipeline.Value
import Idealize.ShloMosaic.Lib.ValueIdx

namespace Cert.Bridge.LibLayout

open Idealize.ShloMosaic Idealize.ShloMosaic.ValueIdx

variable {α : Type}

/-- An `[a, 1]` array broadcast to `[a, b]` reads, at `(p, q)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Bridge.LibLayout
-- ==== Proof.KI.MatmulValue.lean ====
import proofs.«169916_j88905823027435_1_alg».proof.Proof.KI.Matmul
import proofs.«169916_j88905823027435_1_alg».proof.Proof.LibMatmul
import proofs.«169916_j88905823027435_1_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! # The matrix-product region's value: each row block of the result is the block of the left factor times the right
factor, entry by entry the sum over the 64 contracted positions; the ten row blocks tile the 100000 rows. -/

/-- The whole-buffer rectangle starts at the origin. -/
theorem origin2 : (![0, 0] : Fin 2 → Nat) = fun _ => 0 := funext fun a => by fin_cases a <;> rfl

/-- The printed dimension numbers are those of a plain 10000×64 by 64×64 product. -/
theorem dims0_plain : dot_S10000x64_S64x64_S10000x64_1_0_0_1_n_n = DotDims.plain 10000 64 64 := rfl

/-- The body's result at row `p`, column `q`: the sum over `k` of the left block's `(p, k)` times the right factor's
    `(k, q)` (at the extended reals the two roundings to the narrow format are the identity). -/
theorem prod0_apply (x0 : Vec Ideal S10000x64 .f32) (x1 : Vec Ideal S64x64 .f32) (p : Fin 10000) (q : Fin 64) :
    prod0 (F := Ideal) x0 x1 (ix2 p q) = ∑ k : Fin 64, x0 (ix2 p k) * x1 (ix2 k q) := by
  unfold prod0
  rw [View.canon_unit_zero origin2]
  simp only [View.ld_unit_zero (S := S10000x64) origin2, View.ld_unit_zero (S := S64x64) origin2]
  unfold k0_pay1
  rw [shapeCast_self, dims0_plain]
  exact Cert.Bridge.LibMatmul.matmul_zero_apply none _ _ p q

section Region

variable (V : (c : Dev nD) → (b : Ref sig .tc) → Buf (Elt Ideal) ((c : Thread nD τ).loc b))

/-! ## From the row blocks to the whole array -/

/-- The windows' block indices over the grid, decided point by point: the left factor's and the result's block at point
    `t` is row block `t`; the right factor's block is always the whole matrix. -/
theorem steps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A 100000×64 array times a 64×64 matrix, entry by entry. -/
def mm0 (A : Vec Ideal S100000x64 .f32) (B : Vec Ideal S64x64 .f32) : Vec Ideal S100000x64 .f32 := fun i =>
  ∑ k : Fin 64, A (ix2 (⟨(i 0).val, idx2_lt0 i⟩ : Fin 100000) k) * B (ix2 k (⟨(i 1).val, idx2_lt1 i⟩ : Fin 64))

theorem mm0_apply (A : Vec Ideal S100000x64 .f32) (B : Vec Ideal S64x64 .f32) (p : Fin 100000) (q : Fin 64) :
    mm0 A B (ix2 p q) = ∑ k : Fin 64, A (ix2 p k) * B (ix2 k q) := rfl

/-- The result array, as one function of the two factors as the region finds them. -/
abbrev whole0 (c : Dev nD) : Vec Ideal S100000x64 .f32 := mm0 (V c main_arg0) (V c main_v24)

/-- The left factor's block at point `t` is rows `10000 t … 10000 t + 9999` of the array. -/
theorem left0_apply (c : Dev nD) (t : Fin cfg0.N) (p : Fin 10000) (k : Fin 64) (r : Fin 100000) (hr : r.val = 10000 * t.val + p.val) :
    (blk0 V c 0 t : Vec Ideal S10000x64 .f32) (ix2 p k) = (V c main_arg0 : S100000x64.Idx → Elt Ideal .f32) (ix2 r k) := by
  obtain ⟨e0, e1, -, -, -, -⟩ := steps0 t
  unfold blk0
  rw [View.read_apply]
  show V c main_arg0 _ = V c main_arg0 _
  refine congrArg (V c main_arg0) ?_
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The right factor's block at every point is the whole matrix. -/
theorem right0_apply (c : Dev nD) (t : Fin cfg0.N) (k : Fin 64) (q : Fin 64) :
    (blk0 V c 1 t : Vec Ideal S64x64 .f32) (ix2 k q) = (V c main_v24 : S64x64.Idx → Elt Ideal .f32) (ix2 k q) := by
  obtain ⟨-, -, e2, e3, -, -⟩ := steps0 t
  unfold blk0
  rw [View.read_apply]
  show V c main_v24 _ = V c main_v24 _
  refine congrArg (V c main_v24) ?_
  funext a
  apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- What point `t` writes back is block `t` of `whole0`. -/
theorem wrote0 (c : Dev nD) (t : Fin cfg0.N) :
    (dat0 (F := Ideal) V c).flushed 2 t = ((cfg0.win 2).blk t).view.read (Elt Ideal) (whole0 V c) := by
  show (cfg0.win 2).cut (grid0.coords t) ((dat0 V c).after 2 t) = _
  rw [dat0_after2]
  obtain ⟨-, -, -, -, e4, e5⟩ := steps0 t
  funext j
  obtain ⟨p, q, rfl⟩ : ∃ (p : Fin 10000) (q : Fin 64), j = ix2 p q := ⟨j 0, j 1, eq_ix2 j⟩
  have hN : t.val < 10 := Nat.lt_of_lt_of_eq t.isLt N_0
  have hp : p.val < 10000 := p.isLt
  refine (prod0_apply _ _ p q).trans ?_
  rw [View.read_apply]
  unfold whole0 mm0
  refine Finset.sum_congr rfl fun k _ => ?_
  rw [left0_apply V c t p k ⟨10000 * t.val + p.val, by omega⟩ rfl, right0_apply V c t k q]
  refine congrArg₂ (· * ·) (congrArg _ ?_) (congrArg _ ?_)
  · funext a; apply Fin.ext
    match a with
    | ⟨0, _⟩ => show 10000 * t.val + p.val = win0_2.index t (0 : Fin 2) * 10000 + 1 * p.val; rw [e4]; omega
    | ⟨1, _⟩ => rfl
  · funext a; apply Fin.ext
    match a with
    | ⟨0, _⟩ => rfl
    | ⟨1, _⟩ => show q.val = win0_2.index t (1 : Fin 2) * 64 + 1 * q.val; rw [e5]; omega

/-- An index of the result array is in point `t`'s block iff each coordinate is in the block's range on its axis. -/
theorem inBlock0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v25).slice (win0_2.rect t)).set ↔ _
  rw [View.set_slice_whole, Rect.mem_set_unit]
  exact Iff.rfl

/-- Every row is in some point's block: row `r` in that of point `r / 10000`. -/
theorem tiles0 (i : S100000x64.Idx) : ∃ t : Fin cfg0.N, (cfg0.win 2).flush t = true ∧ i ∈ ((cfg0.win 2).blk t).view.set := by
  have h0 : (i 0).val < 100000 := idx2_lt0 i
  have h1 : (i 1).val < 64 := idx2_lt1 i
  refine ⟨⟨(i 0).val / 10000, by rw [show cfg0.N = 10 from N_0]; omega⟩, flush0_2 _, ?_⟩
  rw [inBlock0]
  obtain ⟨-, -, -, -, e4, e5⟩ := steps0 ⟨(i 0).val / 10000, by rw [show cfg0.N = 10 from N_0]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e5]; omega

/-- So the result array ends at `whole0`: -/
theorem arr0_eq (c : Dev nD) : (dat0 (F := Ideal) V c).arrAt 2 cfg0.N = whole0 V c :=
  (dat0 V c).arrAt_eq_of_cover 2 (whole0 V c) (fun t _ => wrote0 V c t) tiles0

/-- at row `p`, column `q`, the sum over `k` of the left factor's `(p, k)` times the right factor's `(k, q)`
    (`A`, `B`: the two factors as the region finds them, under the names a caller has for them). -/
theorem final0 (c : Dev nD) (A : Vec Ideal S100000x64 .f32) (B : Vec Ideal S64x64 .f32)
    (hA : V c main_arg0 = A) (hB : V c main_v24 = B) (p : Fin 100000) (q : Fin 64) :
    (dat0 (F := Ideal) V c).arrAt 2 cfg0.N (ix2 p q) = ∑ k : Fin 64, A (ix2 p k) * B (ix2 k q) := by
  subst hA; subst hB
  exact (congrFun (arr0_eq V c) (ix2 p q)).trans (mm0_apply _ _ p q)

end Region

end Cert.KernelIdeal.Hand

end
-- ==== Proof.KI.NormValue.lean ====
import proofs.«169916_j88905823027435_1_alg».proof.Proof.KI.Norm
import proofs.«169916_j88905823027435_1_alg».proof.Proof.LibMatmul
import proofs.«169916_j88905823027435_1_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! # The normalising region's value: each entry of a row block of the result is the squashed, scaled and shifted
entry of the block, with the four 64-entry rows read at the entry's column; the ten row blocks tile the 100000 rows. -/

/-- The whole-buffer rectangle starts at the origin. -/
theorem origin2' : (![0, 0] : Fin 2 → Nat) = fun _ => 0 := funext fun a => by fin_cases a <;> rfl

/-- The body's result at row `p`, column `q`. -/
theorem norm2_apply (x0 : Vec Ideal S10000x64 .f32) (x1 x2 x3 x4 : Vec Ideal S1x64 .f32) (p : Fin 10000) (q : Fin 64) :
    norm2 (F := Ideal) x0 x1 x2 x3 x4 (ix2 p q)
      = Ideal.tanh (x3 (ix2 (0 : Fin 1) q) * (x0 (ix2 p q) - x1 (ix2 (0 : Fin 1) q))
          * Ideal.rsqrt (x2 (ix2 (0 : Fin 1) q) + Ideal.ofBits .f32 0x3727C5AC#32) + x4 (ix2 (0 : Fin 1) q)) := by
  unfold norm2
  rw [View.canon_unit_zero origin2']
  simp only [View.ld_unit_zero (S := S10000x64) origin2', View.ld_unit_zero (S := S1x64) origin2']
  unfold k2_pay1
  simp only [shapeCast_self]
  show Ideal.tanh (addf (F := Ideal) _ _ (ix2 p q)) = _
  rw [addf_apply, mulf_apply, mulf_apply, subf_apply]
  rw [broadcastTo_1b_ab_apply, broadcastTo_1b_ab_apply, broadcastTo_1b_ab_apply, broadcastTo_1b_ab_apply]
  rfl

section Region

variable (V : (c : Dev nD) → (b : Ref sig .tc) → Buf (Elt Ideal) ((c : Thread nD τ).loc b))

/-! ## From the row blocks to the whole array -/

/-- The windows' block indices over the grid, decided point by point: the input's and the result's block at point `t`
    is row block `t`; each of the four rows is always block (0, 0). -/
theorem steps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A 100000×64 array normalised column by column with the four rows `M` (subtracted), `S` (under the reciprocal root,
    after the small constant is added), `G` (the scale) and `B` (the shift), then squashed: entry by entry. -/
def bn2 (X : Vec Ideal S100000x64 .f32) (M S G B : Vec Ideal S1x64 .f32) : Vec Ideal S100000x64 .f32 := fun i =>
  Ideal.tanh (G (ix2 (0 : Fin 1) (⟨(i 1).val, idx2_lt1 i⟩ : Fin 64))
      * (X (ix2 (⟨(i 0).val, idx2_lt0 i⟩ : Fin 100000) (⟨(i 1).val, idx2_lt1 i⟩ : Fin 64)) - M (ix2 (0 : Fin 1) (⟨(i 1).val, idx2_lt1 i⟩ : Fin 64)))
      * Ideal.rsqrt (S (ix2 (0 : Fin 1) (⟨(i 1).val, idx2_lt1 i⟩ : Fin 64)) + Ideal.ofBits .f32 0x3727C5AC#32)
    + B (ix2 (0 : Fin 1) (⟨(i 1).val, idx2_lt1 i⟩ : Fin 64)))

theorem bn2_apply (X : Vec Ideal S100000x64 .f32) (M S G B : Vec Ideal S1x64 .f32) (p : Fin 100000) (q : Fin 64) :
    bn2 X M S G B (ix2 p q)
      = Ideal.tanh (G (ix2 (0 : Fin 1) q) * (X (ix2 p q) - M (ix2 (0 : Fin 1) q))
          * Ideal.rsqrt (S (ix2 (0 : Fin 1) q) + Ideal.ofBits .f32 0x3727C5AC#32) + B (ix2 (0 : Fin 1) q)) := rfl

/-- The result array, as one function of the five input arrays as the region finds them. -/
abbrev whole2 (c : Dev nD) : Vec Ideal S100000x64 .f32 :=
  bn2 (V c main_v38) (V c main_v41) (V c main_v45) (V c main_v46) (V c main_v47)

/-- The input's block at point `t` is rows `10000 t … 10000 t + 9999` of the array. -/
theorem rows2_apply (c : Dev nD) (t : Fin cfg2.N) (p : Fin 10000) (q : Fin 64) (r : Fin 100000) (hr : r.val = 10000 * t.val + p.val) :
    (blk2 V c 0 t : Vec Ideal S10000x64 .f32) (ix2 p q) = (V c main_v38 : Vec Ideal S100000x64 .f32) (ix2 r q) := by
  obtain ⟨e0, e1, -⟩ := steps2 t
  unfold blk2
  rw [View.read_apply]
  show V c main_v38 _ = V c main_v38 _
  refine congrArg (V c main_v38) ?_
  funext a
  apply Fin.ext
  match a with
  | ⟨0, _⟩ => show win2_0.index t (0 : Fin 2) * 10000 + 1 * p.val = r.val; rw [e0, hr]; omega
  | ⟨1, _⟩ => show win2_0.index t (1 : Fin 2) * 64 + 1 * q.val = q.val; rw [e1]; omega

/-! Each of the four rows' blocks at every point is the whole row. -/

theorem row2_1_apply (c : Dev nD) (t : Fin cfg2.N) (q : Fin 64) :
    (blk2 V c 1 t : Vec Ideal S1x64 .f32) (ix2 (0 : Fin 1) q) = (V c main_v41 : Vec Ideal S1x64 .f32) (ix2 (0 : Fin 1) q) := by
  have e := (steps2 t).2.2
  unfold blk2
  rw [View.read_apply]
  show V c main_v41 _ = V c main_v41 _
  refine congrArg (V c main_v41) ?_
  funext a
  apply Fin.ext
  match a with
  | ⟨0, _⟩ => show win2_1.index t (0 : Fin 2) * 1 + 1 * 0 = 0; rw [e.1]
  | ⟨1, _⟩ => show win2_1.index t (1 : Fin 2) * 64 + 1 * q.val = q.val; rw [e.2.1]; omega

theorem row2_2_apply (c : Dev nD) (t : Fin cfg2.N) (q : Fin 64) :
    (blk2 V c 2 t : Vec Ideal S1x64 .f32) (ix2 (0 : Fin 1) q) = (V c main_v45 : Vec Ideal S1x64 .f32) (ix2 (0 : Fin 1) q) := by
  have e := (steps2 t).2.2
  unfold blk2
  rw [View.read_apply]
  show V c main_v45 _ = V c main_v45 _
  refine congrArg (V c main_v45) ?_
  funext a
  apply Fin.ext
  match a with
  | ⟨0, _⟩ => show win2_2.index t (0 : Fin 2) * 1 + 1 * 0 = 0; rw [e.2.2.1]
  | ⟨1, _⟩ => show win2_2.index t (1 : Fin 2) * 64 + 1 * q.val = q.val; rw [e.2.2.2.1]; omega

theorem row2_3_apply (c : Dev nD) (t : Fin cfg2.N) (q : Fin 64) :
    (blk2 V c 3 t : Vec Ideal S1x64 .f32) (ix2 (0 : Fin 1) q) = (V c main_v46 : Vec Ideal S1x64 .f32) (ix2 (0 : Fin 1) q) := by
  have e := (steps2 t).2.2
  unfold blk2
  rw [View.read_apply]
  show V c main_v46 _ = V c main_v46 _
  refine congrArg (V c main_v46) ?_
  funext a
  apply Fin.ext
  match a with
  | ⟨0, _⟩ => show win2_3.index t (0 : Fin 2) * 1 + 1 * 0 = 0; rw [e.2.2.2.2.1]
  | ⟨1, _⟩ => show win2_3.index t (1 : Fin 2) * 64 + 1 * q.val = q.val; rw [e.2.2.2.2.2.1]; omega

theorem row2_4_apply (c : Dev nD) (t : Fin cfg2.N) (q : Fin 64) :
    (blk2 V c 4 t : Vec Ideal S1x64 .f32) (ix2 (0 : Fin 1) q) = (V c main_v47 : Vec Ideal S1x64 .f32) (ix2 (0 : Fin 1) q) := by
  have e := (steps2 t).2.2
  unfold blk2
  rw [View.read_apply]
  show V c main_v47 _ = V c main_v47 _
  refine congrArg (V c main_v47) ?_
  funext a
  apply Fin.ext
  match a with
  | ⟨0, _⟩ => show win2_4.index t (0 : Fin 2) * 1 + 1 * 0 = 0; rw [e.2.2.2.2.2.2.1]
  | ⟨1, _⟩ => show win2_4.index t (1 : Fin 2) * 64 + 1 * q.val = q.val; rw [e.2.2.2.2.2.2.2.1]; omega

/-- What point `t` writes back is block `t` of `whole2`. -/
theorem wrote2 (c : Dev nD) (t : Fin cfg2.N) :
    (dat2 (F := Ideal) V c).flushed 5 t = ((cfg2.win 5).blk t).view.read (Elt Ideal) (whole2 V c) := by
  show (cfg2.win 5).cut (grid2.coords t) ((dat2 V c).after 5 t) = _
  rw [dat2_after5]
  have e := (steps2 t).2.2.2.2.2.2.2.2.2.2
  funext j
  obtain ⟨p, q, rfl⟩ : ∃ (p : Fin 10000) (q : Fin 64), j = ix2 p q := ⟨j 0, j 1, eq_ix2 j⟩
  have hN : t.val < 10 := Nat.lt_of_lt_of_eq t.isLt N_2
  have hp : p.val < 10000 := p.isLt
  refine (norm2_apply _ _ _ _ _ p q).trans ?_
  rw [View.read_apply]
  unfold whole2 bn2
  rw [rows2_apply V c t p q ⟨10000 * t.val + p.val, by omega⟩ rfl, row2_1_apply V c t q, row2_2_apply V c t q,
    row2_3_apply V c t q, row2_4_apply V c t q]
  have hrow : (ix2 (⟨10000 * t.val + p.val, by omega⟩ : Fin 100000) q : S100000x64.Idx)
      = ix2 (⟨((((cfg2.win 5).blk t).view.emb (ix2 p q) : S100000x64.Idx) 0).val, idx2_lt0 _⟩ : Fin 100000)
          (⟨((((cfg2.win 5).blk t).view.emb (ix2 p q) : S100000x64.Idx) 1).val, idx2_lt1 _⟩ : Fin 64) := by
    funext a; apply Fin.ext
    match a with
    | ⟨0, _⟩ => show 10000 * t.val + p.val = win2_5.index t (0 : Fin 2) * 10000 + 1 * p.val; rw [e.1]; omega
    | ⟨1, _⟩ => show q.val = win2_5.index t (1 : Fin 2) * 64 + 1 * q.val; rw [e.2]; omega
  have hcol : (q : Fin 64) = ⟨((((cfg2.win 5).blk t).view.emb (ix2 p q) : S100000x64.Idx) 1).val, idx2_lt1 _⟩ := by
    apply Fin.ext
    show q.val = win2_5.index t (1 : Fin 2) * 64 + 1 * q.val; rw [e.2]; omega
  rw [hrow, ← hcol]
  rfl

/-- An index of the result array is in point `t`'s block iff each coordinate is in the block's range on its axis. -/
theorem inBlock2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v48).slice (win2_5.rect t)).set ↔ _
  rw [View.set_slice_whole, Rect.mem_set_unit]
  exact Iff.rfl

/-- Every row is in some point's block: row `r` in that of point `r / 10000`. -/
theorem tiles2 (i : S100000x64.Idx) : ∃ t : Fin cfg2.N, (cfg2.win 5).flush t = true ∧ i ∈ ((cfg2.win 5).blk t).view.set := by
  have h0 : (i 0).val < 100000 := idx2_lt0 i
  have h1 : (i 1).val < 64 := idx2_lt1 i
  have hlt : (i 0).val / 10000 < cfg2.N := by rw [show cfg2.N = 10 from N_2]; omega
  refine ⟨⟨(i 0).val / 10000, hlt⟩, flush2_5 _, ?_⟩
  rw [inBlock2]
  have e := (steps2 ⟨(i 0).val / 10000, hlt⟩).2.2.2.2.2.2.2.2.2.2
  intro a
  match a with
  | ⟨0, _⟩ =>
    show win2_5.index _ (0 : Fin 2) * 10000 ≤ (i 0).val ∧ (i 0).val < win2_5.index _ (0 : Fin 2) * 10000 + 10000
    rw [e.1]; show (i 0).val / 10000 * 10000 ≤ (i 0).val ∧ (i 0).val < (i 0).val / 10000 * 10000 + 10000; omega
  | ⟨1, _⟩ =>
    show win2_5.index _ (1 : Fin 2) * 64 ≤ (i 1).val ∧ (i 1).val < win2_5.index _ (1 : Fin 2) * 64 + 64
    rw [e.2]; omega

/-- So the result array ends at `whole2`: -/
theorem arr2_eq (c : Dev nD) : (dat2 (F := Ideal) V c).arrAt 5 cfg2.N = whole2 V c :=
  (dat2 V c).arrAt_eq_of_cover 5 (whole2 V c) (fun t _ => wrote2 V c t) tiles2

/-- at row `p`, column `q`, the squashed, scaled and shifted entry (`X`, `M`, `S`, `G`, `B`: the five input arrays as the
    region finds them, under the names a caller has for them). -/
theorem final2 (c : Dev nD) (X : Vec Ideal S100000x64 .f32) (M S G B : Vec Ideal S1x64 .f32)
    (hX : V c main_v38 = X) (hM : V c main_v41 = M) (hS : V c main_v45 = S) (hG : V c main_v46 = G) (hB : V c main_v47 = B)
    (p : Fin 100000) (q : Fin 64) :
    (dat2 (F := Ideal) V c).arrAt 5 cfg2.N (ix2 p q)
      = Ideal.tanh (G (ix2 (0 : Fin 1) q) * (X (ix2 p q) - M (ix2 (0 : Fin 1) q))
          * Ideal.rsqrt (S (ix2 (0 : Fin 1) q) + Ideal.ofBits .f32 0x3727C5AC#32) + B (ix2 (0 : Fin 1) q)) := by
  subst hX; subst hM; subst hS; subst hG; subst hB
  exact (congrFun (arr2_eq V c) (ix2 p q)).trans (bn2_apply _ _ _ _ _ p q)

end Region

end Cert.KernelIdeal.Hand

end
-- ==== Proof.KI.StatsValue.lean ====
/- The statistics region's VALUE: what the two 1×64 output arrays hold when the region ends, at the ideal values.
   Each case's found pieces are read back as the body's payloads (the zero row, or the running row, plus the block's
   column sums — of the block, of its squares); by induction over the ten grid points the running rows are the
   sums over the blocks seen so far; the one write-back, at the last point, puts the last running row in the array;
   and ten blocks of 10000 rows are the 100000 rows of the input. Addition of extended reals is commutative and
   associative, so the regrouping needs no finiteness. -/
import proofs.«169916_j88905823027435_1_alg».proof.Proof.KI.Stats
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

/-! ## The found pieces, read back as payloads (any float instance) -/

section StatsPieces
variable {F : FTy → Type} [FloatOps F]

theorem statsZ2 : (![0, 0] : Fin 2 → Nat) = fun _ => 0 := funext fun a => by fin_cases a <;> rfl

/-- A later point leaves in output 1 its one covering store: the running row plus the block's column sums. -/
theorem statsOutLater1_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole) (hc : ¬statsCond i) (x : Vec F S10000x64 .f32) (xo1 xo2 : Vec F S1x64 .f32) :
    statsOutLater1 c i a1 h1 a2 h2 a3 h3 hc x xo1 xo2 = k1_pay4 x xo1 := by
  unfold statsOutLater1
  rw [View.read_writes_eq_canon _ _ _ (statsCoverLater1 c i a1 h1 a2 h2 a3 h3 hc x xo1 xo2)]
  unfold statsRunLater
  dsimp only
  rw [View.canon_unit_zero (S := S1x64) statsZ2]
  simp only [View.readAt_eq_ld, h1.read_unread, h2.read_unread, View.ld_unit_zero (S := S10000x64) statsZ2,
    View.ld_unit_zero (S := S1x64) statsZ2]

/-- A later point leaves in output 2 the running row plus the column sums of the block's squares. -/
theorem statsOutLater2_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole) (hc : ¬statsCond i) (x : Vec F S10000x64 .f32) (xo1 xo2 : Vec F S1x64 .f32) :
    statsOutLater2 c i a1 h1 a2 h2 a3 h3 hc x xo1 xo2 = k1_pay5 x xo2 := by
  unfold statsOutLater2
  rw [View.read_writes_eq_canon _ _ _ (statsCoverLater2 c i a1 h1 a2 h2 a3 h3 hc x xo1 xo2)]
  unfold statsRunLater
  dsimp only
  rw [View.canon_unit_zero (S := S1x64) statsZ2]
  simp only [View.readAt_eq_ld, h1.read_unread, h3.read_unread, View.ld_unit_zero (S := S10000x64) statsZ2,
    View.ld_unit_zero (S := S1x64) statsZ2]

/-- The first point zeroes output 1, reads the zero row back and leaves it plus the block's column sums. -/
theorem statsOutFirst1_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole) (hc : statsCond i) (x : Vec F S10000x64 .f32) :
    statsOutFirst1 c i a1 h1 a2 h2 a3 h3 hc x = k1_pay4 x (k1_pay1 (F := F)) := by
  unfold statsOutFirst1
  rw [View.read_writes_eq_canon _ _ _ (statsCoverFirst1 c i a1 h1 a2 h2 a3 h3 hc x)]
  unfold statsRunFirst
  dsimp only
  sl_unfold_words
  rw [View.canon_cons_unit_zero (S := S1x64) statsZ2, View.readCov_unit_zero (S := S1x64) _ statsZ2]
  simp only [View.readAt_eq_ld, h1.read_unread, View.ld_unit_zero (S := S10000x64) statsZ2]

/-- The first point zeroes output 2, reads the zero row back and leaves it plus the column sums of the squares. -/
theorem statsOutFirst2_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole) (hc : statsCond i) (x : Vec F S10000x64 .f32) :
    statsOutFirst2 c i a1 h1 a2 h2 a3 h3 hc x = k1_pay5 x (k1_pay2 (F := F)) := by
  unfold statsOutFirst2
  rw [View.read_writes_eq_canon _ _ _ (statsCoverFirst2 c i a1 h1 a2 h2 a3 h3 hc x)]
  unfold statsRunFirst
  dsimp only
  sl_unfold_words
  rw [View.canon_cons_unit_zero (S := S1x64) statsZ2, View.readCov_unit_zero (S := S1x64) _ statsZ2]
  simp only [View.readAt_eq_ld, h1.read_unread, View.ld_unit_zero (S := S10000x64) statsZ2]

end StatsPieces

/-! ## The payloads at an index, at the ideal values -/

/-- The reduced index `q` with row `k` put back is `(k, q)`. -/
theorem statsLift (q : Fin 64) (k : Fin 10000) : reduces_S10000x64_S64.lift (ix1 q) k = ix2 k q := by
  funext a
  apply Fin.ext
  match a with
  | ⟨0, _⟩ => rfl
  | ⟨1, _⟩ => rfl

/-- The zero rows the first point stores. -/
theorem statsZero1 (q : Fin 64) : k1_pay1 (F := Ideal) (ix2 (0 : Fin 1) q) = 0 := Ideal.ofBits_zero_f32
theorem statsZero2 (q : Fin 64) : k1_pay2 (F := Ideal) (ix2 (0 : Fin 1) q) = 0 := Ideal.ofBits_zero_f32

/-- Output 1's payload at column `q`: the row it read plus the block's column sum. -/
theorem statsPay4_apply (x : Vec Ideal S10000x64 .f32) (acc : Vec Ideal S1x64 .f32) (q : Fin 64) :
    k1_pay4 (F := Ideal) x acc (ix2 (0 : Fin 1) q) = acc (ix2 (0 : Fin 1) q) + ∑ r : Fin 10000, x (ix2 r q) := by
  unfold k1_pay4 k1_pay3
  dsimp only
  refine (addf_apply _ _ _).trans ?_
  refine congrArg₂ (· + ·) (congrFun (shapeCast_self acc _) _) ?_
  refine (shapeCast_a_1a_apply _ _ (0 : Fin 1) q).trans ?_
  refine (Ideal.multiReduction_add_single _ _ _ _ _ (ix1 q)).trans ?_
  refine Finset.sum_congr rfl fun k _ => ?_
  exact (congrFun (shapeCast_self x _) _).trans (congrArg x (statsLift q k))

/-- Output 2's payload at column `q`: the row it read plus the column sum of the block's squares. -/
theorem statsPay5_apply (x : Vec Ideal S10000x64 .f32) (acc : Vec Ideal S1x64 .f32) (q : Fin 64) :
    k1_pay5 (F := Ideal) x acc (ix2 (0 : Fin 1) q) = acc (ix2 (0 : Fin 1) q) + ∑ r : Fin 10000, x (ix2 r q) * x (ix2 r q) := by
  unfold k1_pay5 k1_pay3
  dsimp only
  refine (addf_apply _ _ _).trans ?_
  refine congrArg₂ (· + ·) (congrFun (shapeCast_self acc _) _) ?_
  refine (shapeCast_a_1a_apply _ _ (0 : Fin 1) q).trans ?_
  refine (Ideal.multiReduction_add_single _ _ _ _ _ (ix1 q)).trans ?_
  refine Finset.sum_congr rfl fun k _ => ?_
  refine (mulf_apply _ _ _).trans ?_
  have e : shapeCast S10000x64 x shapeCasts_S10000x64_S10000x64 (reduces_S10000x64_S64.lift (ix1 q) k) = x (ix2 k q) :=
    (congrFun (shapeCast_self x _) _).trans (congrArg x (statsLift q k))
  exact congrArg₂ (· * ·) e e

/-- Ten blocks of 10000 rows are the 100000 rows. -/
theorem statsRegroup {M : Type} [AddCommMonoid M] (f : Fin 100000 → M) :
    ∑ p : Fin 100000, f p
      = ∑ t : Fin 10, ∑ r : Fin 10000, f ⟨10000 * t.val + r.val, by have := t.isLt; have := r.isLt; omega⟩ := by
  rw [← Equiv.sum_comp (finProdFinEquiv (m := 10) (n := 10000)) f, Fintype.sum_prod_type]
  refine Finset.sum_congr rfl fun t _ => Finset.sum_congr rfl fun r _ => congrArg f (Fin.ext ?_)
  show r.val + 10000 * t.val = 10000 * t.val + r.val
  omega

/-! ## The running rows over the grid points -/

section StatsValues
-- the TensorCore's buffer contents when the region is entered, at the ideal values
variable (V : (c : Dev nD) → (b : Ref sig .tc) → Buf (Elt Ideal) ((c : Thread nD τ).loc b))

/-- The input window's block index at point `t`: block row `t`, block column 0 — decided over the grid. -/
theorem statsBlockIdx : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The region's input array at the ideal values, element by element, as an extended real. -/
def statsElt (c : Dev nD) (p : Fin 100000) (q : Fin 64) : EReal := V c main_v38 (ix2 p q)
theorem statsElt_eq (c : Dev nD) (p : Fin 100000) (q : Fin 64) : statsElt V c p q = V c main_v38 (ix2 p q) := rfl

/-- The input window's block at point `t`, typed by its literal shape. -/
def statsBlk (c : Dev nD) (t : Fin cfg1.N) : Vec Ideal S10000x64 .f32 := blk1 V c 0 t

/-- Row `r` of the block at point `t` is row `10000 t + r` of the array. -/
theorem statsBlk_row (c : Dev nD) (t : Fin cfg1.N) (r : Fin 10000) (q : Fin 64) :
    statsBlk V c t (ix2 r q)
      = statsElt V c (⟨10000 * t.val + r.val, by have := lt_of_lt_of_eq t.isLt (show cfg1.N = 10 from N_1); have := r.isLt; omega⟩ : Fin 100000) q := by
  have hi := statsBlockIdx t
  unfold statsBlk statsElt blk1
  rw [View.read_apply]
  show V c main_v38 _ = V c main_v38 _
  congr 1
  funext a
  apply Fin.ext
  match a with
  | ⟨0, _⟩ => show win1_0.index t 0 * 10000 + 1 * r.val = 10000 * t.val + r.val; rw [hi.1]; omega
  | ⟨1, _⟩ => show win1_0.index t 1 * 64 + 1 * q.val = q.val; rw [hi.2]; omega

/-- The column sum of the block at position `n` (zero past the grid), and of its squares. -/
def statsRow (c : Dev nD) (q : Fin 64) (n : ℕ) : EReal :=
  if hn : n < cfg1.N then ∑ r : Fin 10000, statsBlk V c ⟨n, hn⟩ (ix2 r q) else 0
def statsRowSq (c : Dev nD) (q : Fin 64) (n : ℕ) : EReal :=
  if hn : n < cfg1.N then ∑ r : Fin 10000, statsBlk V c ⟨n, hn⟩ (ix2 r q) * statsBlk V c ⟨n, hn⟩ (ix2 r q) else 0

/-- The first case at a point: the block's column sums over the zero rows. -/
theorem statsFirstAt_apply (c : Dev nD) (t : Fin cfg1.N) (h0 : t.val % 10 = 0) (q : Fin 64) :
    (statsFirstAt V c t h0).1 (ix2 (0 : Fin 1) q) = statsRow V c q t.val
      ∧ (statsFirstAt V c t h0).2 (ix2 (0 : Fin 1) q) = statsRowSq V c q t.val := by
  unfold statsRow statsRowSq
  rw [dif_pos t.isLt, dif_pos t.isLt]
  dsimp only [statsFirstAt]
  constructor
  · refine (congrFun (statsOutFirst1_eq (F := Ideal) c (grid1.coords t) (statsM0 t) (statsW0 t) (statsM1 t) (statsW1 t) (statsM2 t) (statsW2 t) ((statsCond_iff t).mpr h0) (blk1 V c 0 t)) (ix2 (0 : Fin 1) q)).trans ?_
    refine (statsPay4_apply (statsBlk V c t) (k1_pay1 (F := Ideal)) q).trans ?_
    rw [statsZero1, zero_add]
  · refine (congrFun (statsOutFirst2_eq (F := Ideal) c (grid1.coords t) (statsM0 t) (statsW0 t) (statsM1 t) (statsW1 t) (statsM2 t) (statsW2 t) ((statsCond_iff t).mpr h0) (blk1 V c 0 t)) (ix2 (0 : Fin 1) q)).trans ?_
    refine (statsPay5_apply (statsBlk V c t) (k1_pay2 (F := Ideal)) q).trans ?_
    rw [statsZero2, zero_add]

/-- A later case at a point: the block's column sums over the running rows. -/
theorem statsLaterAt_apply (c : Dev nD) (t : Fin cfg1.N) (h0 : ¬t.val % 10 = 0) (xo : Vec Ideal S1x64 .f32 × Vec Ideal S1x64 .f32) (q : Fin 64) :
    (statsLaterAt V c t h0 xo).1 (ix2 (0 : Fin 1) q) = xo.1 (ix2 (0 : Fin 1) q) + statsRow V c q t.val
      ∧ (statsLaterAt V c t h0 xo).2 (ix2 (0 : Fin 1) q) = xo.2 (ix2 (0 : Fin 1) q) + statsRowSq V c q t.val := by
  unfold statsRow statsRowSq
  rw [dif_pos t.isLt, dif_pos t.isLt]
  dsimp only [statsLaterAt]
  constructor
  · refine (congrFun (statsOutLater1_eq (F := Ideal) c (grid1.coords t) (statsM0 t) (statsW0 t) (statsM1 t) (statsW1 t) (statsM2 t) (statsW2 t) (fun h => h0 ((statsCond_iff t).mp h)) (blk1 V c 0 t) xo.1 xo.2) (ix2 (0 : Fin 1) q)).trans ?_
    exact statsPay4_apply (statsBlk V c t) xo.1 q
  · refine (congrFun (statsOutLater2_eq (F := Ideal) c (grid1.coords t) (statsM0 t) (statsW0 t) (statsM1 t) (statsW1 t) (statsM2 t) (statsW2 t) (fun h => h0 ((statsCond_iff t).mp h)) (blk1 V c 0 t) xo.1 xo.2) (ix2 (0 : Fin 1) q)).trans ?_
    exact statsPay5_apply (statsBlk V c t) xo.2 q

/-- THE RUNNING ROWS: after the body at position `n` the outputs hold the column sums (of the blocks, of their
    squares) over the points up to `n` — by induction on the point. -/
theorem acc1_apply (c : Dev nD) (q : Fin 64) : ∀ (n : ℕ) (hn : n < cfg1.N),
    (acc1 V c n hn).1 (ix2 (0 : Fin 1) q) = ∑ k ∈ Finset.range (n + 1), statsRow V c q k
      ∧ (acc1 V c n hn).2 (ix2 (0 : Fin 1) q) = ∑ k ∈ Finset.range (n + 1), statsRowSq V c q k
  | 0, hn => by
    rw [Finset.sum_range_one, Finset.sum_range_one]
    rw [show acc1 V c 0 hn = statsFirstAt V c ⟨0, hn⟩ (Nat.zero_mod _) from acc1_first V c ⟨0, hn⟩ (Nat.zero_mod _)]
    exact statsFirstAt_apply V c ⟨0, hn⟩ (Nat.zero_mod _) q
  | n + 1, hn => by
    have hN : cfg1.N = 10 := N_1
    have h0 : ¬(⟨n + 1, hn⟩ : Fin cfg1.N).val % 10 = 0 := by dsimp only; omega
    have ih := acc1_apply c q n (Nat.lt_of_succ_lt hn)
    rw [Finset.sum_range_succ _ (n + 1), Finset.sum_range_succ _ (n + 1), ← ih.1, ← ih.2]
    rw [show acc1 V c (n + 1) hn = statsLaterAt V c ⟨n + 1, hn⟩ h0 (acc1 V c n (Nat.lt_of_succ_lt hn)) from acc1_later V c ⟨n + 1, hn⟩ h0]
    exact statsLaterAt_apply V c ⟨n + 1, hn⟩ h0 (acc1 V c n (Nat.lt_of_succ_lt hn)) q

/-- The ten blocks' column sums are the array's. -/
theorem statsRow_total (c : Dev nD) (q : Fin 64) :
    ∑ k ∈ Finset.range 10, statsRow V c q k = ∑ p : Fin 100000, statsElt V c p q := by
  have hN : cfg1.N = 10 := N_1
  rw [statsRegroup (fun p : Fin 100000 => statsElt V c p q), Finset.sum_range]
  refine Finset.sum_congr rfl fun t _ => ?_
  unfold statsRow
  rw [dif_pos (by omega : t.val < cfg1.N)]
  exact Finset.sum_congr rfl fun r _ => statsBlk_row V c ⟨t.val, by omega⟩ r q

theorem statsRowSq_total (c : Dev nD) (q : Fin 64) :
    ∑ k ∈ Finset.range 10, statsRowSq V c q k = ∑ p : Fin 100000, statsElt V c p q * statsElt V c p q := by
  have hN : cfg1.N = 10 := N_1
  rw [statsRegroup (fun p : Fin 100000 => statsElt V c p q * statsElt V c p q), Finset.sum_range]
  refine Finset.sum_congr rfl fun t _ => ?_
  unfold statsRowSq
  rw [dif_pos (by omega : t.val < cfg1.N)]
  exact Finset.sum_congr rfl fun r _ => by rw [statsBlk_row V c ⟨t.val, by omega⟩ r q]

/-! ## From the last point's rows to the arrays -/

/-- The rows after the last point, as contents of the result arrays (each array is its one block). -/
abbrev statsLast (c : Dev nD) : Vec Ideal S1x64 .f32 × Vec Ideal S1x64 .f32 := acc1 V c 9 (by rw [show cfg1.N = 10 from N_1]; decide)
abbrev statsRes1 (c : Dev nD) : Buf (Elt Ideal) ((c : Thread nD τ).loc main_v39_0) := (statsLast V c).1
abbrev statsRes2 (c : Dev nD) : Buf (Elt Ideal) ((c : Thread nD τ).loc main_v39_1) := (statsLast V c).2

/-- The one write-back of output 1, at the last point, writes the last row: block (0, 0) of a 1×64 array is the array. -/
theorem statsFlushed1 (c : Dev nD) (t : Fin cfg1.N) (hf : (cfg1.win 1).flush t = true) :
    (dat1 V c).flushed 1 t = ((cfg1.win 1).blk t).view.read (Elt Ideal) (statsRes1 V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [dat1_after1]
  have hz' : (fun a => win1_1.index t1_9 a * main_v39_0.ty.shape.size a) = fun _ => 0 := funext fun a => by fin_cases a <;> decide +kernel
  exact (Memref.read_access_unit_zero (Elt Ideal) main_v39_0 hz' (fun a => by rw [congrFun hz' a]; simp) (statsRes1 V c)).symm

theorem statsFlushed2 (c : Dev nD) (t : Fin cfg1.N) (hf : (cfg1.win 2).flush t = true) :
    (dat1 V c).flushed 2 t = ((cfg1.win 2).blk t).view.read (Elt Ideal) (statsRes2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [dat1_after2]
  have hz' : (fun a => win1_2.index t1_9 a * main_v39_1.ty.shape.size a) = fun _ => 0 := funext fun a => by fin_cases a <;> decide +kernel
  exact (Memref.read_access_unit_zero (Elt Ideal) main_v39_1 hz' (fun a => by rw [congrFun hz' a]; simp) (statsRes2 V c)).symm

/-- So each result array ends holding the last row: the last point's block covers it. -/
theorem statsArr1 (c : Dev nD) : (dat1 V c).arrAt 1 cfg1.N = statsRes1 V c :=
  (dat1 V c).arrAt_eq_of_cover 1 (statsRes1 V c) (statsFlushed1 V c) fun i =>
    ⟨t1_9, (flush1_1 t1_9).mpr rfl, by
      show i ∈ ((View.whole main_v39_0).slice (win1_1.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_1.index t1_9 0 * win1_1.size 0 ≤ (i 0 : Nat) ∧ (i 0 : Nat) < win1_1.index t1_9 0 * win1_1.size 0 + win1_1.xsize (grid1.coords t1_9) 0
        rw [show win1_1.index t1_9 0 * win1_1.size 0 = 0 from by decide +kernel, show win1_1.xsize (grid1.coords t1_9) 0 = 1 from by decide +kernel]; omega
      | ⟨1, _⟩ =>
        show win1_1.index t1_9 1 * win1_1.size 1 ≤ (i 1 : Nat) ∧ (i 1 : Nat) < win1_1.index t1_9 1 * win1_1.size 1 + win1_1.xsize (grid1.coords t1_9) 1
        rw [show win1_1.index t1_9 1 * win1_1.size 1 = 0 from by decide +kernel, show win1_1.xsize (grid1.coords t1_9) 1 = 64 from by decide +kernel]; omega⟩

theorem statsArr2 (c : Dev nD) : (dat1 V c).arrAt 2 cfg1.N = statsRes2 V c :=
  (dat1 V c).arrAt_eq_of_cover 2 (statsRes2 V c) (statsFlushed2 V c) fun i =>
    ⟨t1_9, (flush1_2 t1_9).mpr rfl, by
      show i ∈ ((View.whole main_v39_1).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 1 from by decide +kernel]; omega
      | ⟨1, _⟩ =>
        show win1_2.index t1_9 1 * win1_2.size 1 ≤ (i 1 : Nat) ∧ (i 1 : Nat) < win1_2.index t1_9 1 * win1_2.size 1 + win1_2.xsize (grid1.coords t1_9) 1
        rw [show win1_2.index t1_9 1 * win1_2.size 1 = 0 from by decide +kernel, show win1_2.xsize (grid1.coords t1_9) 1 = 64 from by decide +kernel]; omega⟩

/-- THE COLUMN SUMS: when the region ends, output 1 holds at column `q` the sum of column `q` of the input array. -/
theorem final1_sum (c : Dev nD) (q : Fin 64) :
    (dat1 (F := Ideal) V c).arrAt 1 cfg1.N (ix2 (0 : Fin 1) q) = ∑ p : Fin 100000, statsElt V c p q :=
  (congrFun (statsArr1 V c) (ix2 (0 : Fin 1) q)).trans (((acc1_apply V c q 9 _).1).trans (statsRow_total V c q))

/-- THE COLUMN SUMS OF SQUARES: output 2 holds at column `q` the sum of the squares of column `q`. -/
theorem final1_sq (c : Dev nD) (q : Fin 64) :
    (dat1 (F := Ideal) V c).arrAt 2 cfg1.N (ix2 (0 : Fin 1) q) = ∑ p : Fin 100000, statsElt V c p q * statsElt V c p q :=
  (congrFun (statsArr2 V c) (ix2 (0 : Fin 1) q)).trans (((acc1_apply V c q 9 _).2).trans (statsRowSq_total V c q))

end StatsValues

end Cert.KernelIdeal.Hand

end
-- ==== Proof.Ref.Value.lean ====
/-
  The reference's result as one composed term of the argument arrays, cut into three named functions — the 64×64
  matrix built from the 16×64 weight, the sparse product (gather of rows, scale, scatter-add into zeros), and the
  normalisation by column mean and variance followed by tanh — and the last of them read at an index: at (p, q) it is
  tanh (γ_q · (x_pq − μ_q) · (σ²_q + ε)^(-1/2) + β_q), μ_q and σ²_q the column's mean and (biased) variance over the
  100000 rows, each a sum divided by the word of 100000.
-/
import proofs.«169916_j88905823027435_1_alg».proof.Proof.Ref.Run
import Idealize.ShloMosaic.Lib.IdealHost
import Idealize.ShloMosaic.Lib.KernelVsHost

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## The three parts -/

/-- The 64×64 matrix of the 16×64 weight: four 16×16 blocks, negated and permuted into four block rows, stacked, then
    its rows and its columns gathered by the literal table. -/
def hamil (w : FVec Ideal S16x64 .f32) : FVec Ideal S64x64 .f32 :=
  Host.gather gather_S64x64_S64x1_S64x64_0_1_n_n_1_1_641 (Host.gather gather_S64x64_S64x1_S64x64_1_0_n_n_0_1_164 (concatenate S64x64 0 [⟨S16x64, concatenate S16x64 1 [⟨S16x16, extractStridedSlice S16x16 ![0, 0] w slices_S16x64_S16x16_0_0⟩, ⟨S16x16, Host.negf (F := Ideal) (extractStridedSlice S16x16 ![0, 16] w slices_S16x64_S16x16_0_16)⟩, ⟨S16x16, Host.negf (F := Ideal) (extractStridedSlice S16x16 ![0, 32] w slices_S16x64_S16x16_0_32)⟩, ⟨S16x16, Host.negf (F := Ideal) (extractStridedSlice S16x16 ![0, 48] w slices_S16x64_S16x16_0_48)⟩] concatenates_S16x16_S16x16_S16x16_S16x16_S16x64_d1⟩, ⟨S16x64, concatenate S16x64 1 [⟨S16x16, extractStridedSlice S16x16 ![0, 16] w slices_S16x64_S16x16_0_16⟩, ⟨S16x16, extractStridedSlice S16x16 ![0, 0] w slices_S16x64_S16x16_0_0⟩, ⟨S16x16, Host.negf (F := Ideal) (extractStridedSlice S16x16 ![0, 48] w slices_S16x64_S16x16_0_48)⟩, ⟨S16x16, extractStridedSlice S16x16 ![0, 32] w slices_S16x64_S16x16_0_32⟩] concatenates_S16x16_S16x16_S16x16_S16x16_S16x64_d1⟩, ⟨S16x64, concatenate S16x64 1 [⟨S16x16, extractStridedSlice S16x16 ![0, 32] w slices_S16x64_S16x16_0_32⟩, ⟨S16x16, extractStridedSlice S16x16 ![0, 48] w slices_S16x64_S16x16_0_48⟩, ⟨S16x16, extractStridedSlice S16x16 ![0, 0] w slices_S16x64_S16x16_0_0⟩, ⟨S16x16, Host.negf (F := Ideal) (extractStridedSlice S16x16 ![0, 16] w slices_S16x64_S16x16_0_16)⟩] concatenates_S16x16_S16x16_S16x16_S16x16_S16x64_d1⟩, ⟨S16x64, concatenate S16x64 1 [⟨S16x16, extractStridedSlice S16x16 ![0, 48] w slices_S16x64_S16x16_0_48⟩, ⟨S16x16, Host.negf (F := Ideal) (extractStridedSlice S16x16 ![0, 32] w slices_S16x64_S16x16_0_32)⟩, ⟨S16x16, extractStridedSlice S16x16 ![0, 16] w slices_S16x64_S16x16_0_16⟩, ⟨S16x16, extractStridedSlice S16x16 ![0, 0] w slices_S16x64_S16x16_0_0⟩] concatenates_S16x16_S16x16_S16x16_S16x16_S16x64_d1⟩] concatenates_S16x64_S16x64_S16x64_S16x64_S64x64_d0) (broadcastInDim S64x1 ![0] bcast_S64_S64x1_0 (select (constantI S64 1 0#1) (addi (fun i => lit0 (S64.rowMajor i)) (broadcastInDim S64 ![] bcast_S_S64 (constantI S_ 32 64#32))) (fun i => lit0 (S64.rowMajor i))))) (broadcastInDim S64x1 ![0] bcast_S64_S64x1_0 (select (constantI S64 1 0#1) (addi (fun i => lit1 (S64.rowMajor i)) (broadcastInDim S64 ![] bcast_S_S64 (constantI S_ 32 64#32))) (fun i => lit1 (S64.rowMajor i))))

/-- The sparse product: row `col e` of `sup` (a negative index wrapped by 100000) scaled by `ev e`, added into row
    `row e` of zeros, over the 1600000 entries. -/
def spmm (sup : FVec Ideal S100000x64 .f32) (row col : IVec S1600000 32) (ev : FVec Ideal S1600000 .f32) :
    FVec Ideal S100000x64 .f32 :=
  Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 row) (mulf (broadcastInDim S1600000x64 ![0, 1] bcast_S1600000x1_S1600000x64_0_1 (broadcastInDim S1600000x1 ![0] bcast_S1600000_S1600000x1_0 ev)) (Host.gather gather_S100000x64_S1600000x1_S1600000x64_1_0_n_n_0_1_164 sup (broadcastInDim S1600000x1 ![0] bcast_S1600000_S1600000x1_0 (select (cmpi .slt col (broadcastInDim S1600000 ![] bcast_S_S1600000 (constantI S_ 32 0#32))) (addi col (broadcastInDim S1600000 ![] bcast_S_S1600000 (constantI S_ 32 100000#32))) col))))

/-- A vector of 64 entries laid along each of the 100000 rows (through its one-row matrix). -/
def rows (v : FVec Ideal S64 .f32) : FVec Ideal S100000x64 .f32 :=
  broadcastInDim S100000x64 ![0, 1] bcast_S1x64_S100000x64_0_1 (broadcastInDim S1x64 ![1] bcast_S64_S1x64_1 v)

/-- The column sums from the zero word, divided by the word of 100000. -/
def colMean (x : FVec Ideal S100000x64 .f32) : FVec Ideal S64 .f32 :=
  Host.divf (F := Ideal) (Host.reduceAdd (F := Ideal) x (constant (F := Ideal) S_ .f32 0x00000000#32) reducesTo_S100000x64_S64_d0 h_S_)
    (broadcastInDim S64 ![] bcast_S_S64 (constant (F := Ideal) S_ .f32 0x47C35000#32))

/-- The array less its column means. -/
def centred (out : FVec Ideal S100000x64 .f32) : FVec Ideal S100000x64 .f32 :=
  subf out (rows (colMean out))

/-- Normalisation by the column mean and variance, scale and shift, tanh. -/
def bnTanh (out : FVec Ideal S100000x64 .f32) (gam bet : FVec Ideal S64 .f32) : FVec Ideal S100000x64 .f32 :=
  Host.tanh (F := Ideal) (addf (mulf (mulf (rows gam) (centred out))
      (rows (Host.rsqrt (F := Ideal) (addf (colMean (mulf (centred out) (centred out)))
        (broadcastInDim S64 ![] bcast_S_S64 (constant (F := Ideal) S_ .f32 0x3727C5AC#32))))))
    (rows bet))

/-! ## The run's result is their composition -/

set_option maxRecDepth 8192 in
set_option maxHeartbeats 32000000 in
theorem result_eq (V : Valuation τ sig (Elt Ideal)) :
    StableHlo.after (ops (F := Ideal)) V (Proc.devRef .tc main_v64)
      = bnTanh (spmm (Host.dotGeneral (F := Ideal) (φ₁ := .f32) (φ₂ := .f32) dot_S100000x64_S64x64_S100000x64_1_0_0_1_n_n none (V (Proc.devRef .tc main_arg0))
            (hamil (V (Proc.devRef .tc main_arg4))))
          (V (Proc.devRef .tc main_arg1)) (V (Proc.devRef .tc main_arg2)) (V (Proc.devRef .tc main_arg3)))
        (V (Proc.devRef .tc main_arg5)) (V (Proc.devRef .tc main_arg6)) := by
  after_results_simp
  rfl

/-! ## The last part at an index -/

/-- The 100000×64 shape with its row axis removed is the 64-vector's. -/
theorem reduces_rows : S100000x64.Reduces [0] S64 := by decide

/-- A vector laid along every row reads, at (p, q), its entry q. -/
theorem rows_apply (v : FVec Ideal S64 .f32) (p : Fin 100000) (q : Fin 64) : rows v (ix2 p q) = v (ix1 q) := by
  unfold rows
  rw [broadcastInDim_oneRow_apply]
  exact broadcastInDim_apply ![1] bcast_S64_S1x64_1 v (ix2 (0 : Fin 1) q) (ix1 q) (fun a => match a with | ⟨0, _⟩ => rfl)

/-- Column q's mean: the zero word plus the column's sum over the 100000 rows, divided by the word of 100000. -/
def bnMean (out : FVec Ideal S100000x64 .f32) (q : Fin 64) : Ideal .f32 :=
  Ideal.div (Ideal.ofBits .f32 0x00000000#32 + ∑ p : Fin 100000, out (ix2 p q)) (Ideal.ofBits .f32 0x47C35000#32)

/-- Column q's variance about that mean, likewise. -/
def bnVar (out : FVec Ideal S100000x64 .f32) (q : Fin 64) : Ideal .f32 :=
  Ideal.div (Ideal.ofBits .f32 0x00000000#32 + ∑ p : Fin 100000, (out (ix2 p q) - bnMean out q) * (out (ix2 p q) - bnMean out q))
    (Ideal.ofBits .f32 0x47C35000#32)

theorem colMean_apply (x : FVec Ideal S100000x64 .f32) (q : Fin 64) : colMean x (ix1 q) = bnMean x q := by
  unfold colMean bnMean
  rw [hostDivf_apply, hostReduceAdd_apply, Ideal.hostReduceAdd_single _ reduces_rows, broadcastInDim_scalar_apply]
  refine congrArg₂ Ideal.div (congrArg₂ (· + ·) rfl (Finset.sum_congr rfl fun k _ => congrArg x ?_)) rfl
  funext a
  match a with
  | ⟨0, _⟩ => rfl
  | ⟨1, _⟩ => rfl

theorem centred_apply (out : FVec Ideal S100000x64 .f32) (p : Fin 100000) (q : Fin 64) :
    centred out (ix2 p q) = out (ix2 p q) - bnMean out q := by
  unfold centred
  rw [subf_apply, rows_apply, colMean_apply]

theorem colVar_apply (out : FVec Ideal S100000x64 .f32) (q : Fin 64) :
    colMean (mulf (centred out) (centred out)) (ix1 q) = bnVar out q := by
  rw [colMean_apply]
  unfold bnVar bnMean
  refine congrArg₂ Ideal.div (congrArg₂ (· + ·) rfl (Finset.sum_congr rfl fun p _ => ?_)) rfl
  rw [mulf_apply, centred_apply]
  rfl

/-- The normalised, scaled, shifted array under tanh, at (p, q). -/
theorem bnTanh_apply (out : FVec Ideal S100000x64 .f32) (gam bet : FVec Ideal S64 .f32) (p : Fin 100000) (q : Fin 64) :
    bnTanh out gam bet (ix2 p q)
      = Ideal.tanh (gam (ix1 q) * (out (ix2 p q) - bnMean out q) * Ideal.rsqrt (bnVar out q + Ideal.ofBits .f32 0x3727C5AC#32)
          + bet (ix1 q)) := by
  have hT : ∀ (X : FVec Ideal S100000x64 .f32) i, Host.tanh (F := Ideal) X i = Ideal.tanh (X i) := fun _ _ => rfl
  have hR : ∀ (X : FVec Ideal S64 .f32) i, Host.rsqrt (F := Ideal) X i = Ideal.rsqrt (X i) := fun _ _ => rfl
  unfold bnTanh
  rw [hT, addf_apply, mulf_apply, mulf_apply, rows_apply, rows_apply, rows_apply, centred_apply, hR, addf_apply, colVar_apply,
    broadcastInDim_scalar_apply]
  rfl

end Cert.ReferenceIdeal.Hand

end
-- ==== Proof.Algebra.lean ====
/-
  The law that joins the two ways of computing a batch variance.

  For real numbers o₁ … oₙ with mean μ = (∑ o) / n, the mean of the squared deviations, (∑ (o - μ)²) / n, is the mean
  of the squares minus the squared mean, (∑ o²) / n - μ². The law distributes a product over a sum, so over the
  extended reals it needs every o finite; it is proved over ℝ and carried to the extended reals through the coercion.
  A finite sum of extended reals each of which is a real number is the coercion of the real sum.
-/
import Idealize.ShloMosaic.PureOps.Ideal

noncomputable section

open scoped BigOperators

namespace Cert.BatchStat

open Idealize.ShloMosaic

/-- An extended real that is a real number. -/
def IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩

/-- A finite sum of coerced reals is the coercion of the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of real-valued extended reals is real-valued. -/
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The variance law over the reals, with the division by `n` written as the product with `1 / n`. -/
theorem real_var (n : ℕ) (hn : (n : ℝ) ≠ 0) (r : Fin n → ℝ) :
    (∑ p, (r p - (∑ p, r p) * (1 / (n : ℝ))) * (r p - (∑ p, r p) * (1 / (n : ℝ)))) * (1 / (n : ℝ))
      = (∑ p, r p * r p) * (1 / (n : ℝ)) - ((∑ p, r p) * (1 / (n : ℝ))) * ((∑ p, r p) * (1 / (n : ℝ))) := by
  generalize hS : (∑ p, r p) = S
  generalize hμ : S * (1 / (n : ℝ)) = μ
  have h1 : ∑ p, (r p - μ) * (r p - μ) = (∑ p, r p * r p) - 2 * μ * S + (n : ℝ) * (μ * μ) := by
    have e : ∀ p, (r p - μ) * (r p - μ) = r p * r p - 2 * μ * r p + μ * μ := fun p => by ring
    simp only [e, Finset.sum_add_distrib, Finset.sum_sub_distrib, ← Finset.mul_sum, hS, Finset.sum_const,
      Finset.card_univ, Fintype.card_fin, nsmul_eq_mul]
    ring
  rw [h1, ← hμ]
  field_simp
  ring

/-- THE LAW over the extended reals. `z` is the zero the reference's sums start from and `Nw` the word of the batch size;
    every `out p` is a real number. The reference's variance (the mean of the squared deviations from its mean) is the
    kernel's (the mean of the squares less the squared mean). -/
theorem var_eq (n : ℕ) (hn : 0 < n) (out : Fin n → EReal) (hfin : ∀ p, IsReal (out p)) (Nw z : EReal)
    (hN : Nw = ((n : ℝ) : EReal)) (hz : z = 0) :
    Ideal.div (z + ∑ p, (out p - Ideal.div (z + ∑ p, out p) Nw) * (out p - Ideal.div (z + ∑ p, out p) Nw)) Nw
      = Ideal.div (∑ p, out p * out p) Nw - Ideal.div (∑ p, out p) Nw * Ideal.div (∑ p, out p) Nw := by
  classical
  choose r hr using hfin
  obtain rfl : out = fun p => ((r p : ℝ) : EReal) := funext hr
  subst hN hz
  have hn' : (n : ℝ) ≠ 0 := by exact_mod_cast hn.ne'
  simp only [zero_add, Ideal.div_coe hn', coe_sum, ← EReal.coe_mul, ← EReal.coe_sub]
  exact congrArg _ (real_var n hn' r)

/-- The means agree: the reference's starts its sum from zero. -/
theorem mean_eq (n : ℕ) (out : Fin n → EReal) (Nw z : EReal) (hz : z = 0) :
    Ideal.div (z + ∑ p, out p) Nw = Ideal.div (∑ p, out p) Nw := by
  rw [hz, zero_add]

end Cert.BatchStat

end
-- ==== Proof.Reals.lean ====
/-
  Arrays of real numbers stay arrays of real numbers.

  Over the extended reals an array is real-valued when every entry is (the coercion of) a real number. Re-laying an
  array (a broadcast, a slice, a gather, a concatenation) only moves entries; negating, multiplying entrywise,
  contracting (a finite sum of products) and scatter-adding (an entry plus a finite sum of updates) keep entries
  real because sums, products and negations of real numbers are real.
-/
import proofs.«169916_j88905823027435_1_alg».proof.Proof.Algebra
import Idealize.ShloMosaic.PureOps.Ideal
import Idealize.ShloMosaic.PureOps.Ideal.Laws
import Idealize.ShloMosaic.Lib.ValueIdx

noncomputable section

open scoped BigOperators

namespace Cert.BatchStat

open Idealize.ShloMosaic

/-- Every entry is a real number. -/
def AllReal {s : Shape} (v : s.Idx → EReal) : Prop := ∀ i, IsReal (v i)

variable {s t si : Shape}

theorem AllReal.broadcastInDim (dims : Fin s.rank → Fin t.rank) (h : s.BroadcastsInDim t dims) {x : s.Idx → EReal}
    (hx : AllReal x) : AllReal (broadcastInDim t dims h x) := fun _ => hx _

theorem AllReal.gather {w : Nat} (d : GatherDims s si t) {x : s.Idx → EReal} (idx : IVec si w) (hx : AllReal x) :
    AllReal (Host.gather d x idx) := fun _ => hx _

theorem AllReal.slice (off : Fin s.rank → Nat) {x : s.Idx → EReal} (h : s.Slices off t) (hx : AllReal x) :
    AllReal (extractStridedSlice t off x h) := fun _ => hx _

theorem AllReal.negf {φ : FTy} {x : FVec Ideal s φ} (hx : AllReal x) : AllReal (Host.negf x) := fun i => (hx i).neg

theorem AllReal.mulf {φ : FTy} {a b : FVec Ideal s φ} (ha : AllReal a) (hb : AllReal b) : AllReal (mulf a b) :=
  fun i => (ha i).mul (hb i)

theorem AllReal.concatenate (a : Fin t.rank) (xs : List ((s : Shape) × (s.Idx → EReal)))
    (h : Shape.Concatenates (xs.map (·.1)) t a) (hxs : ∀ p ∈ xs, AllReal p.2) : AllReal (concatenate t a xs h) := by
  intro j
  unfold Idealize.ShloMosaic.concatenate
  exact hxs _ (List.getElem_mem _) _

theorem AllReal.zeros : AllReal (constant (F := Ideal) s .f32 0x00000000#32) := fun _ => by
  show IsReal (Ideal.ofBits .f32 0x00000000#32)
  rw [Ideal.ofBits_zero_f32]; exact IsReal.zero

theorem AllReal.scatterAdd {su : Shape} {w : Nat} (d : ScatterDims s si su) {x : FVec Ideal s .f32} (idx : IVec si w)
    {upd : FVec Ideal su .f32} (hx : AllReal x) (hu : AllReal upd) : AllReal (Host.scatterAdd d x idx upd) := fun i => by
  show IsReal (x i + ∑ j ∈ Finset.univ.filter (fun j => d.resultIdx? j idx = some i), upd j)
  exact (hx i).add (IsReal.sum _ _ fun j _ => hu j)

theorem AllReal.dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral (F := Ideal) d prec l r) := fun j => by
  show IsReal (FloatOps.dotGeneral d prec .single l r j)
  rw [Ideal.dotGeneral_apply]
  exact IsReal.sum _ _ fun k _ => (hl _).mul (hr _)

end Cert.BatchStat

end
-- ==== Proof.Join.Same.lean ====
/-
  The parts the two programs share.

  The kernel's first stretch of host operations builds, from the weight, the same 64×64 matrix as the reference; its
  second stretch is the reference's sparse product (gather, scale, scatter-add); and the kernel's blockwise matrix
  product, read at an entry, is the reference's single contraction: both are the sum over k of x[p,k] · h[k,q].
  When the arguments are real-valued so is everything up to the sparse product's result.
-/
import proofs.«169916_j88905823027435_1_alg».proof.Proof.KI.Stretches
import proofs.«169916_j88905823027435_1_alg».proof.Proof.Ref.Value
import proofs.«169916_j88905823027435_1_alg».proof.Proof.Reals
import proofs.«169916_j88905823027435_1_alg».proof.Proof.LibMatmul

noncomputable section

open scoped BigOperators

namespace Cert.Proof.Join

open Idealize.ShloMosaic Idealize.ShloMosaic.TcCoe Idealize.ShloMosaic.ValueIdx Cert.BatchStat

/-- The reference's contraction record is the plain M×K by K×N one. -/
theorem dot_plain : Cert.ReferenceIdeal.dot_S100000x64_S64x64_S100000x64_1_0_0_1_n_n = DotDims.plain 100000 64 64 := rfl

/-- The reference's product at an entry: the sum over k of x[p,k] · h[k,q]. -/
theorem ref_product_apply (x : FVec Ideal ⟨2, ![100000, 64]⟩ .f32) (h : FVec Ideal ⟨2, ![64, 64]⟩ .f32) (p : Fin 100000) (q : Fin 64) :
    Host.dotGeneral (F := Ideal) Cert.ReferenceIdeal.dot_S100000x64_S64x64_S100000x64_1_0_0_1_n_n none x h (ix2 p q)
      = ∑ k : Fin 64, x (ix2 p k) * h (ix2 k q) := by
  rw [dot_plain]
  exact Cert.Bridge.LibMatmul.dotGeneral_apply none .single x h p q

set_option maxRecDepth 8192 in
set_option maxHeartbeats 8000000 in
/-- The kernel's first stretch leaves the reference's matrix of the weight. -/
theorem matrix_same (W : Valuation Cert.KernelIdeal.τ Cert.KernelIdeal.sig (Elt Ideal)) :
    (StableHlo.after (Cert.KernelIdeal.Gen.hostOps0 (F := Ideal)) W (Proc.devRef .tc Cert.KernelIdeal.main_v24) : Cert.KernelIdeal.S64x64.Idx → EReal)
      = Cert.ReferenceIdeal.Hand.hamil (W (Proc.devRef .tc Cert.KernelIdeal.main_arg4)) := by
  after_results_simp
  rfl

/-- The kernel's edge sum is the reference's sparse product. -/
theorem edgeSum_same (sup : FVec Ideal ⟨2, ![100000, 64]⟩ .f32) (row col : IVec ⟨1, ![1600000]⟩ 32) (ev : FVec Ideal ⟨1, ![1600000]⟩ .f32) :
    Cert.KernelIdeal.Hand.edgeSum (F := Ideal) sup row col ev = Cert.ReferenceIdeal.Hand.spmm sup row col ev := rfl

/-! ## Real-valued arguments give a real-valued sparse product -/

open Cert.ReferenceIdeal Cert.ReferenceIdeal.Hand in
theorem matrix_real {w : FVec Ideal S16x64 .f32} (hw : AllReal w) : AllReal (hamil w) := by
  unfold hamil
  refine AllReal.gather _ _ (AllReal.gather _ _ (AllReal.concatenate _ _ _ ?_))
  intro p hp
  simp only [List.mem_cons, List.not_mem_nil, or_false] at hp
  rcases hp with rfl | rfl | rfl | rfl <;>
  · dsimp only
    refine AllReal.concatenate _ _ _ ?_
    intro p hp
    simp only [List.mem_cons, List.not_mem_nil, or_false] at hp
    rcases hp with rfl | rfl | rfl | rfl <;>
    · dsimp only
      first
        | exact AllReal.slice _ _ hw
        | exact AllReal.negf (AllReal.slice _ _ hw)

open Cert.ReferenceIdeal Cert.ReferenceIdeal.Hand in
theorem spmm_real {sup : FVec Ideal S100000x64 .f32} (row col : IVec S1600000 32) {ev : FVec Ideal S1600000 .f32}
    (hs : AllReal sup) (he : AllReal ev) : AllReal (spmm sup row col ev) := by
  unfold spmm
  exact AllReal.scatterAdd _ _ (AllReal.broadcastInDim _ _ AllReal.zeros)
    (AllReal.mulf (AllReal.broadcastInDim _ _ (AllReal.broadcastInDim _ _ he)) (AllReal.gather _ _ hs))

open Cert.ReferenceIdeal Cert.ReferenceIdeal.Hand in
/-- THE EDGE SUM IS REAL-VALUED when the features, the weight and the edge values are. -/
theorem out_real {x : FVec Ideal S100000x64 .f32} {w : FVec Ideal S16x64 .f32} (row col : IVec S1600000 32) {ev : FVec Ideal S1600000 .f32}
    (hx : AllReal x) (hw : AllReal w) (he : AllReal ev) :
    AllReal (spmm (Host.dotGeneral (F := Ideal) dot_S100000x64_S64x64_S100000x64_1_0_0_1_n_n none x (hamil w)) row col ev) :=
  spmm_real row col (AllReal.dotGeneral _ _ hx (matrix_real hw)) he

end Cert.Proof.Join

end
-- ==== Proof.Finite.lean ====
/-
  From the stated precondition to "every entry of every float argument is a real number".

  The precondition is the conjunction, over the five float arguments, of "every entry's absolute value is below
  +∞". Read at the extended reals, |x| < +∞ excludes both infinities, so x is (the coercion of) a real number.
-/
import proofs.«169916_j88905823027435_1_alg».proof.Pre_finite_inputs
import proofs.«169916_j88905823027435_1_alg».proof.Proof.Algebra
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Hand

open Idealize.ShloMosaic Idealize.ShloMosaic.ValueIdx Cert.Pre_finite_inputs Cert.BatchStat

/-- The scalar shape has one index. -/
instance : Subsingleton S_.Idx := ⟨fun a b => funext fun d => d.elim0⟩

/-- The word of +∞ denotes +∞. -/
theorem inf_word : Ideal.ofBits .f32 0x7F800000#32 = (⊤ : EReal) := by
  simp [Ideal.ofBits, Ideal.ieee]

/-- An extended real whose absolute value is below +∞ is a real number. -/
theorem real_of_abs_lt_inf (x : EReal) (h : Ideal.cmp .olt (max x (-x)) (Ideal.ofBits .f32 0x7F800000#32) = 1#1) : IsReal x := by
  rw [inf_word] at h
  induction x using EReal.rec with
  | bot => simp [Ideal.cmp] at h
  | coe r => exact ⟨r, rfl⟩
  | top => simp [Ideal.cmp] at h

/-- One argument's conjunct: if "all entries have absolute value below +∞" came out true, every entry is real. -/
theorem real_of_all {s : Shape} {axes : List (Fin s.rank)} (a : FVec Ideal s .f32)
    (bc : S_.BroadcastsInDim s (![] : Fin 0 → Fin s.rank)) (hr : s.ReducesTo axes S_) (hu : 0 < S_.numel)
    (e : Host.reduce IntOp.andi (cmpf .olt (Host.absf a) (broadcastInDim s ![] bc (constant (F := Ideal) S_ .f32 0x7F800000#32)))
          (constantI S_ 1 1#1) hr hu ix0 = 1#1) (i : s.Idx) : IsReal (a i) := by
  have h := Host.reduce_andi_all _ _ hr hu ix0 e i
  rw [cmpf_apply, broadcastInDim_apply _ bc _ i ix0 (fun a => a.elim0)] at h
  exact real_of_abs_lt_inf (a i) h

variable [Facts]
open Facts

/-- THE DECODING: under the precondition every entry of the five float arguments is a real number. -/
theorem reals_of_pre (x : FVec Ideal S100000x64 .f32) (row col : IVec S1600000 32) (ev : FVec Ideal S1600000 .f32)
    (w : FVec Ideal S16x64 .f32) (g b : FVec Ideal S64 .f32)
    (h : fn (F := Ideal) x row col ev w g b = fun _ => 1#1) :
    (∀ i, IsReal (x i)) ∧ (∀ i, IsReal (ev i)) ∧ (∀ i, IsReal (w i)) ∧ (∀ i, IsReal (g i)) ∧ (∀ i, IsReal (b i)) := by
  have h0 := congrFun h ix0
  dsimp only [fn, fn_part1] at h0
  obtain ⟨h1, hb⟩ := IntOp.andi_eq_one.1 h0
  obtain ⟨h2, hg⟩ := IntOp.andi_eq_one.1 h1
  obtain ⟨h3, hw⟩ := IntOp.andi_eq_one.1 h2
  obtain ⟨hx, hev⟩ := IntOp.andi_eq_one.1 h3
  exact ⟨real_of_all x _ _ _ hx, real_of_all ev _ _ _ hev, real_of_all w _ _ _ hw, real_of_all g _ _ _ hg, real_of_all b _ _ _ hb⟩

end Cert.Pre_finite_inputs.Hand

end
-- ==== Proof.Join.Agree.lean ====
/-
  The two programs end with the same array.

  Both compute, from the edge sum `e` of the product x · h, the array
      tanh (γ_q · (e_pq − μ_q) · (σ²_q + ε)^(-1/2) + β_q).
  They take the same mean μ_q = (∑_p e_pq) / n. The kernel takes σ²_q = (∑_p e_pq²) / n − μ_q², the reference
  σ²_q = (∑_p (e_pq − μ_q)²) / n; these agree because every e_pq is a real number, which follows from the
  precondition: the features, the weight and the edge values are finite, and the edge sum is built from them by
  finite sums and products.
-/
import proofs.«169916_j88905823027435_1_alg».proof.Defs
import proofs.«169916_j88905823027435_1_alg».proof.Proof.Gen.Pre_finite_inputs
import proofs.«169916_j88905823027435_1_alg».proof.Proof.KI.Entry
import proofs.«169916_j88905823027435_1_alg».proof.Proof.KI.MatmulValue
import proofs.«169916_j88905823027435_1_alg».proof.Proof.KI.NormValue
import proofs.«169916_j88905823027435_1_alg».proof.Proof.KI.StatsValue
import proofs.«169916_j88905823027435_1_alg».proof.Proof.Join.Same
import proofs.«169916_j88905823027435_1_alg».proof.Proof.Finite
import proofs.«169916_j88905823027435_1_alg».proof.Proof.Algebra

noncomputable section

open scoped BigOperators

namespace Cert.Proof.Join

open Idealize.ShloMosaic Idealize.ShloMosaic.TcCoe Idealize.ShloMosaic.ValueIdx Idealize.SL.Sem Cert.BatchStat
open Cert.KernelIdeal Cert.KernelIdeal.Gen Cert.KernelIdeal.Hand

variable (m : (ℓ : Loc nD τ sig) → Buf (Elt Ideal) ℓ) (ρ : Dev nD → PrngReg) (c : Dev nD)

/-! ## The arguments, and the edge sum both programs form from them -/

abbrev aX : FVec Ideal S100000x64 .f32 := m ((c : Thread nD τ).loc main_arg0)
abbrev aRow : IVec S1600000 32 := m ((c : Thread nD τ).loc main_arg1)
abbrev aCol : IVec S1600000 32 := m ((c : Thread nD τ).loc main_arg2)
abbrev aEv : FVec Ideal S1600000 .f32 := m ((c : Thread nD τ).loc main_arg3)
abbrev aW : FVec Ideal S16x64 .f32 := m ((c : Thread nD τ).loc main_arg4)
abbrev aG : FVec Ideal S64 .f32 := m ((c : Thread nD τ).loc main_arg5)
abbrev aB : FVec Ideal S64 .f32 := m ((c : Thread nD τ).loc main_arg6)

/-- The edge sum of the product of the features with the matrix of the weight. -/
def edge : FVec Ideal S100000x64 .f32 :=
  Cert.ReferenceIdeal.Hand.spmm
    (Host.dotGeneral (F := Ideal) (φ₁ := .f32) (φ₂ := .f32) Cert.ReferenceIdeal.dot_S100000x64_S64x64_S100000x64_1_0_0_1_n_n none
      (aX m c) (Cert.ReferenceIdeal.Hand.hamil (aW m c)))
    (aRow m c) (aCol m c) (aEv m c)

/-- The batch size's word, and the word of ε. -/
abbrev Nw : EReal := Ideal.ofBits .f32 0x47C35000#32
abbrev εw : EReal := Ideal.ofBits .f32 0x3727C5AC#32

theorem batch_word : Nw = (((100000 : ℕ) : ℝ) : EReal) := by
  simp [Ideal.ofBits, Ideal.ieee, -EReal.coe_mul]; norm_num

/-- Column `q`'s mean, and its variance as the kernel takes it. -/
def mean (q : Fin 64) : EReal := Ideal.div (∑ p : Fin 100000, edge m c (ix2 p q)) Nw
def varK (q : Fin 64) : EReal :=
  Ideal.div (∑ p : Fin 100000, edge m c (ix2 p q) * edge m c (ix2 p q)) Nw - mean m c q * mean m c q

/-! ## The kernel's side -/

/-- The matmul region's result is the reference's product. -/
theorem product_is :
    ((dat0 (F := Ideal) (E1 m ρ) c).arrAt 2 cfg0.N : FVec Ideal S100000x64 .f32)
      = Host.dotGeneral (F := Ideal) (φ₁ := .f32) (φ₂ := .f32) Cert.ReferenceIdeal.dot_S100000x64_S64x64_S100000x64_1_0_0_1_n_n none
          (aX m c) (Cert.ReferenceIdeal.Hand.hamil (aW m c)) := by
  funext i
  obtain ⟨p, q, rfl⟩ : ∃ (p : Fin 100000) (q : Fin 64), i = ix2 p q := ⟨i 0, i 1, eq_ix2 i⟩
  rw [final0 (E1 m ρ) c (aX m c) (Cert.ReferenceIdeal.Hand.hamil (aW m c)) (E1_rows m ρ c) (matrix_same (B0 m ρ c)) p q]
  exact (ref_product_apply _ _ p q).symm

/-- The statistics and normalising regions are entered with the edge sum. -/
theorem entry_sum : (E3 m ρ c main_v38 : FVec Ideal S100000x64 .f32) = edge m c := by
  rw [E3_sum m ρ c, product_is m ρ c, edgeSum_same]
  rfl

theorem elt_is (p : Fin 100000) (q : Fin 64) : statsElt (E3 m ρ) c p q = edge m c (ix2 p q) :=
  congrFun (entry_sum m ρ c) (ix2 p q)

/-- The statistics region's first result over the batch row is the mean. -/
theorem mean_is (q : Fin 64) :
    Host.divf (F := Ideal) ((dat1 (F := Ideal) (E3 m ρ) c).arrAt 1 cfg1.N) batchRow (ix2 (0 : Fin 1) q) = mean m c q := by
  show Ideal.div ((dat1 (F := Ideal) (E3 m ρ) c).arrAt 1 cfg1.N (ix2 (0 : Fin 1) q)) Nw = _
  rw [final1_sum (E3 m ρ) c q]
  simp only [elt_is m ρ c]
  rfl

/-- The third stretch's variance row is the kernel's variance. -/
theorem var_is (q : Fin 64) :
    subf (F := Ideal) (Host.divf (F := Ideal) ((dat1 (F := Ideal) (E3 m ρ) c).arrAt 2 cfg1.N) batchRow)
      (mulf (Host.divf (F := Ideal) ((dat1 (F := Ideal) (E3 m ρ) c).arrAt 1 cfg1.N) batchRow)
        (Host.divf (F := Ideal) ((dat1 (F := Ideal) (E3 m ρ) c).arrAt 1 cfg1.N) batchRow)) (ix2 (0 : Fin 1) q) = varK m c q := by
  show Ideal.div ((dat1 (F := Ideal) (E3 m ρ) c).arrAt 2 cfg1.N (ix2 (0 : Fin 1) q)) Nw
      - Ideal.div ((dat1 (F := Ideal) (E3 m ρ) c).arrAt 1 cfg1.N (ix2 (0 : Fin 1) q)) Nw
        * Ideal.div ((dat1 (F := Ideal) (E3 m ρ) c).arrAt 1 cfg1.N (ix2 (0 : Fin 1) q)) Nw = _
  rw [final1_sum (E3 m ρ) c q, final1_sq (E3 m ρ) c q]
  simp only [elt_is m ρ c]
  rfl

/-- THE KERNEL'S RESULT at an entry. -/
theorem kernel_at (p : Fin 100000) (q : Fin 64) :
    (dat2 (F := Ideal) (E5 m ρ) c).arrAt 5 cfg2.N (ix2 p q)
      = Ideal.tanh (aG m c (ix1 q) * (edge m c (ix2 p q) - mean m c q) * Ideal.rsqrt (varK m c q + εw) + aB m c (ix1 q)) := by
  rw [final2 (E5 m ρ) c (edge m c) _ _ _ _ ((E5_sum m ρ c).trans (entry_sum m ρ c)) (E5_mean m ρ c) (E5_var m ρ c) rfl rfl p q,
    mean_is m ρ c q, var_is m ρ c q, E5_scale m ρ c q, E5_shift m ρ c q]

/-! ## The join -/

/-- Under the precondition the edge sum is real-valued. -/
theorem edge_real (hpre : Cert.Pre_KernelIdeal m) : AllReal (edge m c) := by
  obtain ⟨hx, hev, hw, -, -⟩ := Cert.Pre_finite_inputs.Hand.reals_of_pre _ _ _ _ _ _ _ (hpre c)
  exact out_real _ _ hx hw hev

/-- The reference's mean and variance of the edge sum are the kernel's. -/
theorem ref_mean_is (q : Fin 64) : Cert.ReferenceIdeal.Hand.bnMean (edge m c) q = mean m c q :=
  mean_eq 100000 (fun p => edge m c (ix2 p q)) Nw _ Ideal.ofBits_zero_f32

theorem ref_var_is (hpre : Cert.Pre_KernelIdeal m) (q : Fin 64) : Cert.ReferenceIdeal.Hand.bnVar (edge m c) q = varK m c q :=
  var_eq 100000 (by norm_num) (fun p => edge m c (ix2 p q)) (fun p => edge_real m c hpre (ix2 p q)) Nw _ batch_word Ideal.ofBits_zero_f32

/-- THE REFERENCE'S RESULT, run from the kernel's arguments, is the kernel's result. -/
theorem results_same (hpre : Cert.Pre_KernelIdeal m) :
    Cert.ReferenceIdeal.Hand.bnTanh (edge m c) (aG m c) (aB m c) = (dat2 (F := Ideal) (E5 m ρ) c).arrAt 5 cfg2.N := by
  funext i
  obtain ⟨p, q, rfl⟩ : ∃ (p : Fin 100000) (q : Fin 64), i = ix2 p q := ⟨i 0, i 1, eq_ix2 i⟩
  rw [Cert.ReferenceIdeal.Hand.bnTanh_apply, kernel_at m ρ c p q, ref_mean_is m c q, ref_var_is m c hpre q]

/-- The reference's run, from any contents that hold the kernel's arguments, ends at the normalised edge sum. -/
theorem ref_from (V' : Valuation Cert.ReferenceIdeal.τ Cert.ReferenceIdeal.sig (Elt Ideal))
    (h0 : V' (Proc.devRef .tc Cert.ReferenceIdeal.main_arg0) = aX m c) (h1 : V' (Proc.devRef .tc Cert.ReferenceIdeal.main_arg1) = aRow m c)
    (h2 : V' (Proc.devRef .tc Cert.ReferenceIdeal.main_arg2) = aCol m c) (h3 : V' (Proc.devRef .tc Cert.ReferenceIdeal.main_arg3) = aEv m c)
    (h4 : V' (Proc.devRef .tc Cert.ReferenceIdeal.main_arg4) = aW m c) (h5 : V' (Proc.devRef .tc Cert.ReferenceIdeal.main_arg5) = aG m c)
    (h6 : V' (Proc.devRef .tc Cert.ReferenceIdeal.main_arg6) = aB m c) :
    StableHlo.after (Cert.ReferenceIdeal.Hand.ops (F := Ideal)) V' (Proc.devRef .tc Cert.ReferenceIdeal.main_v64)
      = Cert.ReferenceIdeal.Hand.bnTanh (edge m c) (aG m c) (aB m c) := by
  rw [Cert.ReferenceIdeal.Hand.result_eq, h0, h1, h2, h3, h4, h5, h6]
  rfl

end Cert.Proof.Join

end
-- ==== Proof.lean ====
/-
  The certificate of a graph layer: features times a 64×64 matrix built from a quaternion weight, the edges'
  messages summed into their target rows, batch normalisation over the 100000 rows, tanh.

  The kernel computes it in three tiled regions — the product block by block, the column sums and sums of squares
  accumulated over the ten blocks, the normalisation block by block — among stretches of host operations; the
  reference computes it with host operations alone. The frames: each program runs to the end, faults nowhere and
  leaves its arguments as launched (the kernel's, at the word level and at the extended reals, from the run of its
  six segments; the reference's from the run of its straight line). The idealisation rewrote nothing. At the extended
  reals the two results are equal entry by entry: the product and the edge sum are the same functions of the
  arguments, and the kernel's variance "mean of squares less squared mean" is the reference's "mean of squared
  deviations" because the edge sum is real-valued under the precondition.
-/
import proofs.«169916_j88905823027435_1_alg».proof.Defs
import proofs.«169916_j88905823027435_1_alg».proof.Proof.Gen.Kernel
import proofs.«169916_j88905823027435_1_alg».proof.Proof.Gen.Kernel.Skeleton
import proofs.«169916_j88905823027435_1_alg».proof.Proof.Gen.Kernel.Launch
import proofs.«169916_j88905823027435_1_alg».proof.Proof.Gen.Kernel.Regions
import proofs.«169916_j88905823027435_1_alg».proof.Proof.Gen.Kernel.Points
import proofs.«169916_j88905823027435_1_alg».proof.Proof.Gen.KernelIdeal
import proofs.«169916_j88905823027435_1_alg».proof.Proof.Gen.KernelIdeal.Skeleton
import proofs.«169916_j88905823027435_1_alg».proof.Proof.Gen.KernelIdeal.Launch
import proofs.«169916_j88905823027435_1_alg».proof.Proof.Gen.KernelIdeal.Regions
import proofs.«169916_j88905823027435_1_alg».proof.Proof.Gen.KernelIdeal.Points
import proofs.«169916_j88905823027435_1_alg».proof.Proof.Gen.ReferenceIdeal
import proofs.«169916_j88905823027435_1_alg».proof.Proof.Gen.Pre_finite_inputs
import proofs.«169916_j88905823027435_1_alg».proof.Proof.K.Whole
import proofs.«169916_j88905823027435_1_alg».proof.Proof.KI.Whole
import proofs.«169916_j88905823027435_1_alg».proof.Proof.Ref.Run
import proofs.«169916_j88905823027435_1_alg».proof.Proof.Join.Agree
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame (F := Bits) m ρ

/-- So does the kernel read at the extended reals. -/
theorem frame_ki : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealisation rewrote no operation. -/
theorem preserves : Cert.preserves_Kernel_KernelIdeal := trivial

/-- From memories agreeing on the arguments both programs end with the same result array: the kernel's is what its
    last region's write-backs fold to, and the reference's composed term of the same arguments is that array. -/
theorem algebraic : Cert.algebraic_KernelIdeal_ReferenceIdeal := by
  intro m ρ m' ρ' hpre hagree
  refine ⟨fun c => (Cert.KernelIdeal.Hand.dat2 (F := Ideal) (Cert.KernelIdeal.Hand.E5 m ρ) c).arrAt 5 Cert.KernelIdeal.cfg2.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6⟩ := hagree c
  exact (Cert.Proof.Join.ref_from m c (fun b => m' (c, b)) h0 h1 h2 h3 h4 h5 h6).trans (Cert.Proof.Join.results_same m ρ c hpre)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
